-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S100000x384 : Shape := ⟨2, ![100000, 384]⟩

abbrev nBuf : Space → Nat
  | .hbm => 136
  | .vmem => 60
  | .smem => 0
  | _ => 0

abbrev hbmTy0_0 (i : Nat) : BufTy := match i % 128 with
  | 0 => ⟨S100000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S1x600000, .i32⟩
  | 9 => ⟨S600000, .i32⟩
  | 10 => ⟨S1x600000, .i32⟩
  | 11 => ⟨S600000, .i32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S_, .f32⟩
  | 22 => ⟨S100000x128, .f32⟩
  | 23 => ⟨S600000x1, .i32⟩
  | 24 => ⟨S100000x128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S100000x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S100000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S100000x128, .f32⟩
  | 64 => ⟨S600000x1, .i32⟩
  | 65 => ⟨S100000x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S100000x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S100000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S_, .f32⟩
  | 104 => ⟨S100000x128, .f32⟩
  | 105 => ⟨S600000x1, .i32⟩
  | 106 => ⟨S100000x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S100000x128, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S100000x128, .f32⟩
  | 7 => ⟨S100000x384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58_0 : Ref sig .tc := ⟨.hbm, 76, rfl⟩
abbrev main_v58_1 : Ref sig .tc := ⟨.hbm, 77, rfl⟩
abbrev main_v58_2 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_8 : Ref sig .tc := ⟨.hbm, 94, rfl⟩
abbrev main_v72 : Ref sig .tc := ⟨.hbm, 95, rfl⟩
abbrev main_v73 : Ref sig .tc := ⟨.hbm, 96, rfl⟩
abbrev main_c_9 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92_0 : Ref sig .tc := ⟨.hbm, 117, rfl⟩
abbrev main_v92_1 : Ref sig .tc := ⟨.hbm, 118, rfl⟩
abbrev main_v92_2 : Ref sig .tc := ⟨.hbm, 119, rfl⟩
abbrev main_cst_11 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x384_d1 : Shape.Concatenates [S100000x128, S100000x128, S100000x128] S100000x384 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v58_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v58_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v92_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v92_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v92_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x384 : Shape := ⟨2, ![100000, 384]⟩

abbrev nBuf : Space → Nat
  | .hbm => 223
  | .vmem => 0
  | .smem => 0
  | _ => 0

abbrev hbmTy0_0 (i : Nat) : BufTy := match i % 128 with
  | 0 => ⟨S100000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S1x600000, .i32⟩
  | 9 => ⟨S600000, .i32⟩
  | 10 => ⟨S1x600000, .i32⟩
  | 11 => ⟨S600000, .i32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S_, .f32⟩
  | 22 => ⟨S100000x128, .f32⟩
  | 23 => ⟨S600000x1, .i32⟩
  | 24 => ⟨S100000x128, .f32⟩
  | 25 => ⟨S100000x128, .f32⟩
  | 26 => ⟨S1x128x128, .f32⟩
  | 27 => ⟨S128x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S_, .f32⟩
  | 92 => ⟨S100000x128, .f32⟩
  | 93 => ⟨S600000x1, .i32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S1x128x128, .f32⟩
  | 108 => ⟨S128x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S_, .f32⟩
  | 8 => ⟨S128, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S100000x128, .f32⟩
  | 35 => ⟨S600000x1, .i32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S100000x384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_8 : Ref sig .tc := ⟨.hbm, 82, rfl⟩
abbrev main_v64 : Ref sig .tc := ⟨.hbm, 83, rfl⟩
abbrev main_v65 : Ref sig .tc := ⟨.hbm, 84, rfl⟩
abbrev main_c_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_11 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_12 : Ref sig .tc := ⟨.hbm, 115, rfl⟩
abbrev main_v93 : Ref sig .tc := ⟨.hbm, 116, rfl⟩
abbrev main_v94 : Ref sig .tc := ⟨.hbm, 117, rfl⟩
abbrev main_cst_13 : Ref sig .tc := ⟨.hbm, 118, rfl⟩
abbrev main_v95 : Ref sig .tc := ⟨.hbm, 119, rfl⟩
abbrev main_cst_14 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_15 : Ref sig .tc := ⟨.hbm, 127, rfl⟩
abbrev main_v102 : Ref sig .tc := ⟨.hbm, 128, rfl⟩
abbrev main_cst_16 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_17 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_c_18 : Ref sig .tc := ⟨.hbm, 152, rfl⟩
abbrev main_v124 : Ref sig .tc := ⟨.hbm, 153, rfl⟩
abbrev main_v125 : Ref sig .tc := ⟨.hbm, 154, rfl⟩
abbrev main_c_19 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_20 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_21 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_22 : Ref sig .tc := ⟨.hbm, 185, rfl⟩
abbrev main_v153 : Ref sig .tc := ⟨.hbm, 186, rfl⟩
abbrev main_v154 : Ref sig .tc := ⟨.hbm, 187, rfl⟩
abbrev main_cst_23 : Ref sig .tc := ⟨.hbm, 188, rfl⟩
abbrev main_v155 : Ref sig .tc := ⟨.hbm, 189, rfl⟩
abbrev main_cst_24 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_25 : Ref sig .tc := ⟨.hbm, 197, rfl⟩
abbrev main_v162 : Ref sig .tc := ⟨.hbm, 198, rfl⟩
abbrev main_cst_26 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_27 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x384_d1 : Shape.Concatenates [S100000x128, S100000x128, S100000x128] S100000x384 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KB.Stats0.lean ====
/-
  Grid region 0: the perceptron-and-statistics kernel. At each of the 20 grid points it reads a 5000-row block of
  the aggregated neighbours and of the node features and the two weight matrices and bias rows, writes the block of
  rectified activations `z` over its whole first output block, and adds the block's column sums of `z` and of
  `z * z` into two 1 × 128 accumulators whose block index never moves: at the first point (the body's one branch
  taken) the accumulators are first set to zero, at every later point (branch not taken) they are read as the
  point before left them. So the body has two control cases, and what the accumulators hold after a point is a
  recursion over the points. This module runs the body once per case, states what the three outputs hold point
  by point, and proves the pipeline's body obligation, for any contents `V` of the buffers at the region's entry
  and at any float instance.
-/
import proofs.«147728_j53334903882348_1_alg».proof.Proof.Gen.Kernel.Launch
import proofs.«147728_j53334903882348_1_alg».proof.Proof.Gen.Kernel.Skeleton
import proofs.«147728_j53334903882348_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, whether the point fetched it or the block
    index had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, whether the point fetched it or the block
    index had not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every grid point, whether the point fetched it or the block
    index had not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every grid point, whether the point fetched it or the block
    index had not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every grid point, whether the point fetched it or the block
    index had not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every grid point, whether the point fetched it or the block
    index had not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The body's branch condition as a function of the grid coordinate: the coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 20 = 0 :=
  (by decide +kernel : ∀ t : Fin grid0.N, cond0_0 (grid0.coords t) ↔ t.val % 20 = 0)

/-- One staging buffer of each output window, through which its contents are stated. -/
abbrev VO0_6 : View sig .tc .vmem S5000x128 .f32 := (Memref.whole cc0_stg6_0 : Memref sig .tc .vmem S5000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- Each window's current staging buffer at point `t`, as the pipeline passes it to the body, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)

set_option maxHeartbeats 4000000 in
/-- THE FIRST POINT (branch taken). On whole staging buffers, the six inputs at their contents and the three outputs
    at anything, the body runs without a fault to a state holding the inputs unchanged and each output's buffer
    with the body's stores written, listed last first. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- A LATER POINT (branch not taken). The same, with the two accumulators at their running contents `xo7`, `xo8`,
    which the body reads before it writes them. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-- In this case the stores into output 6's staging buffer tile it, so they cover it. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What this case leaves in output 6's staging buffer: its stores read back. -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) : Vec F S5000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- In this case the stores into output 7's staging buffer tile it, so they cover it. -/
theorem cover0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What this case leaves in output 7's staging buffer: its stores read back. -/
def out0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- In this case the stores into output 8's staging buffer tile it, so they cover it. -/
theorem cover0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What this case leaves in output 8's staging buffer: its stores read back. -/
def out0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4 x5).2.2.1)

/-- In this case the stores into output 6's staging buffer tile it, so they cover it. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What this case leaves in output 6's staging buffer: its stores read back. -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S5000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xo7 xo8).1)

/-- In this case the stores into output 7's staging buffer tile it, so they cover it. -/
theorem cover0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What this case leaves in output 7's staging buffer: its stores read back. -/
def out0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xo7 xo8).2.1)

/-- In this case the stores into output 8's staging buffer tile it, so they cover it. -/
theorem cover0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What this case leaves in output 8's staging buffer: its stores read back. -/
def out0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 x4 x5 xo7 xo8).2.2.1)

/-! ## What the three outputs hold after each point -/

/-- The outputs after the first point: the first case at the point's staging buffers and input blocks. -/
def outFirst0 (c : Dev nD) (t : Fin cfg0.N) (h0 : t.val % 20 = 0) : Vec F S5000x128 .f32 × Vec F S1x128 .f32 × Vec F S1x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))

/-- The outputs after a later point, over the accumulators `p7`, `p8` the point before left. -/
def outLater0 (c : Dev nD) (t : Fin cfg0.N) (h0 : ¬t.val % 20 = 0) (p7 p8 : Vec F S1x128 .f32) : Vec F S5000x128 .f32 × Vec F S1x128 .f32 × Vec F S1x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) p7 p8,
   out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) p7 p8,
   out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) p7 p8)

/-- THE ACCUMULATION: what the three outputs' staging buffers hold after the body at position `n`. -/
def outsAt0 (c : Dev nD) : (n : ℕ) → n < cfg0.N → Vec F S5000x128 .f32 × Vec F S1x128 .f32 × Vec F S1x128 .f32
  | 0, hn => outFirst0 V c ⟨0, hn⟩ (Nat.zero_mod _)
  | n + 1, hn =>
    if h0 : (n + 1) % 20 = 0 then outFirst0 V c ⟨n + 1, hn⟩ h0
    else outLater0 V c ⟨n + 1, hn⟩ h0 (outsAt0 c n (Nat.lt_of_succ_lt hn)).2.1 (outsAt0 c n (Nat.lt_of_succ_lt hn)).2.2

theorem outsAt0_A (c : Dev nD) (t : Fin cfg0.N) (h0 : t.val % 20 = 0) :
    outsAt0 V c t.val t.isLt = outFirst0 V c t h0 := by
  obtain ⟨n, hn⟩ := t
  cases n with
  | zero => exact rfl
  | succ n => exact (dif_pos h0).trans rfl

theorem outsAt0_B (c : Dev nD) (t : Fin cfg0.N) (h0 : ¬t.val % 20 = 0) :
    outsAt0 V c t.val t.isLt = outLater0 V c t h0 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    staging buffer still at its block and the three outputs' at `outsAt0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a point that is not the first, accumulator 7's staging buffer still holds what the body left at the point
    before: its block index is constant, and it is written back only after the last point. -/
theorem before0_7_B (c : Dev nD) (t : Fin cfg0.N) (h0 : ¬t.val % 20 = 0) (d) :
    (dat0 V c).before 7 t d = (outsAt0 V c (t.val - 1) (Nat.lt_of_le_of_lt (Nat.sub_le _ _) t.isLt)).2.1 := by
  have hN : t.val < 20 := lt_of_lt_of_eq t.isLt (show cfg0.N = 20 from N_0)
  rw [Dat.before_out_kept _ 7 rfl t (by omega) (Bool.eq_false_iff.mpr fun h => by have := (flush0_7 _).mp h; dsimp only at this; omega)
    (fun _ => rfl) (fun _ _ => rfl)]
  dsimp only [dat0]

/-- At a point that is not the first, accumulator 8's staging buffer still holds what the body left at the point
    before: its block index is constant, and it is written back only after the last point. -/
theorem before0_8_B (c : Dev nD) (t : Fin cfg0.N) (h0 : ¬t.val % 20 = 0) (d) :
    (dat0 V c).before 8 t d = (outsAt0 V c (t.val - 1) (Nat.lt_of_le_of_lt (Nat.sub_le _ _) t.isLt)).2.2 := by
  have hN : t.val < 20 := lt_of_lt_of_eq t.isLt (show cfg0.N = 20 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 1600000 in
/-- The body at any point: each input's staging buffer holds its block; the point is the first or a later one;
    at a later one each accumulator holds what the point before left; so the case's run applies, and what it
    leaves in each output is that output's stores read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 20 := lt_of_lt_of_eq t.isLt (show cfg0.N = 20 from N_0)
  by_cases h0 : t.val % 20 = 0
  · rw [outsAt0_A V c t h0]
    unfold outFirst0
    dsimp only
    unfold out0_A_6 out0_A_7 out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B V c t h0]
    simp only [before0_7_B V c t h0, before0_8_B V c t h0]
    unfold outLater0
    dsimp only
    unfold out0_B_6 out0_B_7 out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Bn1.lean ====
/-
  Grid region 1: the normalisation kernel. At each of the 20 grid points it reads a 5000-row block of the
  rectified activations and the four 128-wide rows (column mean, column variance, scale, shift), and writes the
  block `(z - mean) * rsqrt (var + eps) * scale + shift` over its whole output block with one store. This module
  states what the output block holds after the body and proves the body's separation-logic triple and the
  pipeline's body obligation, for any contents `V` of the buffers at the region's entry and at any float instance.
-/
import proofs.«147728_j53334903882348_1_alg».proof.Proof.Gen.Kernel.Launch
import proofs.«147728_j53334903882348_1_alg».proof.Proof.Gen.Kernel.Skeleton
import proofs.«147728_j53334903882348_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, whether the point fetched it or the block
    index had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, whether the point fetched it or the block
    index had not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every grid point, whether the point fetched it or the block
    index had not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every grid point, whether the point fetched it or the block
    index had not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every grid point, whether the point fetched it or the block
    index had not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 5000 × 128 block and the whole 1 × 128 row: the only rectangles the body touches. -/
abbrev rBlk1 : Rect S5000x128 := Rect.unit (s := S5000x128) ![0, 0] S5000x128.size inb_S5000x128_S5000x128_0_0
abbrev rRow1 : Rect S1x128 := Rect.unit (s := S1x128) ![0, 0] S1x128.size inb_S1x128_S1x128_0_0

/-- The output block after the body: its one store, the normalised block, as a function of the five input blocks
    (activations, mean, variance, scale, shift). -/
def out1_5 (x0 : Vec F S5000x128 .f32) (x1 x2 x3 x4 : Vec F S1x128 .f32) : Vec F S5000x128 .f32 :=
  View.canon [⟨rBlk1, k1_pay1 (View.ld x2 rRow1) (View.ld x0 rBlk1) (View.ld x1 rRow1) (View.ld x3 rRow1) (View.ld x4 rRow1)⟩]

/-- The one store covers the block. -/
theorem cover1_5 (p0 : Vec F S5000x128 .f32) (y : S5000x128.Idx) :
    ∃ pc ∈ ([⟨rBlk1, p0⟩] : List (View.Piece (Elt F) S5000x128 .f32)), y ∈ pc.1.set :=
  View.cover_of_tiled [⟨rBlk1, p0⟩] S5000x128.size (by rfl) y

set_option maxHeartbeats 1000000 in
/-- The body on whole staging buffers, the five inputs at their contents and the output at anything, runs without a
    fault to a state holding the inputs unchanged and the output at `out1_5` of the inputs. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each
    input's staging buffer still at its block and the output's at `out1_5` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point: each input's staging buffer holds its block, so the body's triple applies; the invariant
    and the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Stats2.lean ====
/-
  Grid region 2: the perceptron-and-statistics kernel. At each of the 20 grid points it reads a 5000-row block of
  the aggregated neighbours and of the node features and the two weight matrices and bias rows, writes the block of
  rectified activations `z` over its whole first output block, and adds the block's column sums of `z` and of
  `z * z` into two 1 × 128 accumulators whose block index never moves: at the first point (the body's one branch
  taken) the accumulators are first set to zero, at every later point (branch not taken) they are read as the
  point before left them. So the body has two control cases, and what the accumulators hold after a point is a
  recursion over the points. This module runs the body once per case, states what the three outputs hold point
  by point, and proves the pipeline's body obligation, for any contents `V` of the buffers at the region's entry
  and at any float instance.
-/
import proofs.«147728_j53334903882348_1_alg».proof.Proof.Gen.Kernel.Launch
import proofs.«147728_j53334903882348_1_alg».proof.Proof.Gen.Kernel.Skeleton
import proofs.«147728_j53334903882348_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, whether the point fetched it or the block
    index had not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, whether the point fetched it or the block
    index had not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every grid point, whether the point fetched it or the block
    index had not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every grid point, whether the point fetched it or the block
    index had not moved since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every grid point, whether the point fetched it or the block
    index had not moved since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every grid point, whether the point fetched it or the block
    index had not moved since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The body's branch condition as a function of the grid coordinate: the coordinate is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- One staging buffer of each output window, through which its contents are stated. -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
/-- Each window's current staging buffer at point `t`, as the pipeline passes it to the body, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)

set_option maxHeartbeats 4000000 in
/-- THE FIRST POINT (branch taken). On whole staging buffers, the six inputs at their contents and the three outputs
    at anything, the body runs without a fault to a state holding the inputs unchanged and each output's buffer
    with the body's stores written, listed last first. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- A LATER POINT (branch not taken). The same, with the two accumulators at their running contents `xo7`, `xo8`,
    which the body reads before it writes them. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-- In this case the stores into output 6's staging buffer tile it, so they cover it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What this case leaves in output 6's staging buffer: its stores read back. -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 x0 x1 x2 x3 x4 x5).1)

/-- In this case the stores into output 7's staging buffer tile it, so they cover it. -/
theorem cover2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What this case leaves in output 7's staging buffer: its stores read back. -/
def out2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 hc0 x0 x1 x2 x3 x4 x5).2.1)

/-- In this case the stores into output 8's staging buffer tile it, so they cover it. -/
theorem cover2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What this case leaves in output 8's staging buffer: its stores read back. -/
def out2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 hc0 x0 x1 x2 x3 x4 x5).2.2.1)

/-- In this case the stores into output 6's staging buffer tile it, so they cover it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S5000x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What this case leaves in output 6's staging buffer: its stores read back. -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 x0 x1 x2 x3 x4 x5 xo7 xo8).1)

/-- In this case the stores into output 7's staging buffer tile it, so they cover it. -/
theorem cover2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What this case leaves in output 7's staging buffer: its stores read back. -/
def out2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 hc0 x0 x1 x2 x3 x4 x5 xo7 xo8).2.1)

/-- In this case the stores into output 8's staging buffer tile it, so they cover it. -/
theorem cover2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What this case leaves in output 8's staging buffer: its stores read back. -/
def out2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 hc0 x0 x1 x2 x3 x4 x5 xo7 xo8).2.2.1)

/-! ## What the three outputs hold after each point -/

/-- The outputs after the first point: the first case at the point's staging buffers and input blocks. -/
def outFirst2 (c : Dev nD) (t : Fin cfg2.N) (h0 : t.val % 20 = 0) : Vec F S5000x128 .f32 × Vec F S1x128 .f32 × Vec F S1x128 .f32 :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
   out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
   out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))

/-- The outputs after a later point, over the accumulators `p7`, `p8` the point before left. -/
def outLater2 (c : Dev nD) (t : Fin cfg2.N) (h0 : ¬t.val % 20 = 0) (p7 p8 : Vec F S1x128 .f32) : Vec F S5000x128 .f32 × Vec F S1x128 .f32 × Vec F S1x128 .f32 :=
  (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) p7 p8,
   out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) p7 p8,
   out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) p7 p8)

/-- THE ACCUMULATION: what the three outputs' staging buffers hold after the body at position `n`. -/
def outsAt2 (c : Dev nD) : (n : ℕ) → n < cfg2.N → Vec F S5000x128 .f32 × Vec F S1x128 .f32 × Vec F S1x128 .f32
  | 0, hn => outFirst2 V c ⟨0, hn⟩ (Nat.zero_mod _)
  | n + 1, hn =>
    if h0 : (n + 1) % 20 = 0 then outFirst2 V c ⟨n + 1, hn⟩ h0
    else outLater2 V c ⟨n + 1, hn⟩ h0 (outsAt2 c n (Nat.lt_of_succ_lt hn)).2.1 (outsAt2 c n (Nat.lt_of_succ_lt hn)).2.2

theorem outsAt2_A (c : Dev nD) (t : Fin cfg2.N) (h0 : t.val % 20 = 0) :
    outsAt2 V c t.val t.isLt = outFirst2 V c t h0 := by
  obtain ⟨n, hn⟩ := t
  cases n with
  | zero => exact rfl
  | succ n => exact (dif_pos h0).trans rfl

theorem outsAt2_B (c : Dev nD) (t : Fin cfg2.N) (h0 : ¬t.val % 20 = 0) :
    outsAt2 V c t.val t.isLt = outLater2 V c t h0 (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    staging buffer still at its block and the three outputs' at `outsAt2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a point that is not the first, accumulator 7's staging buffer still holds what the body left at the point
    before: its block index is constant, and it is written back only after the last point. -/
theorem before2_7_B (c : Dev nD) (t : Fin cfg2.N) (h0 : ¬t.val % 20 = 0) (d) :
    (dat2 V c).before 7 t d = (outsAt2 V c (t.val - 1) (Nat.lt_of_le_of_lt (Nat.sub_le _ _) t.isLt)).2.1 := by
  have hN : t.val < 20 := lt_of_lt_of_eq t.isLt (show cfg2.N = 20 from N_2)
  rw [Dat.before_out_kept _ 7 rfl t (by omega) (Bool.eq_false_iff.mpr fun h => by have := (flush2_7 _).mp h; dsimp only at this; omega)
    (fun _ => rfl) (fun _ _ => rfl)]
  dsimp only [dat2]

/-- At a point that is not the first, accumulator 8's staging buffer still holds what the body left at the point
    before: its block index is constant, and it is written back only after the last point. -/
theorem before2_8_B (c : Dev nD) (t : Fin cfg2.N) (h0 : ¬t.val % 20 = 0) (d) :
    (dat2 V c).before 8 t d = (outsAt2 V c (t.val - 1) (Nat.lt_of_le_of_lt (Nat.sub_le _ _) t.isLt)).2.2 := by
  have hN : t.val < 20 := lt_of_lt_of_eq t.isLt (show cfg2.N = 20 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 1600000 in
/-- The body at any point: each input's staging buffer holds its block; the point is the first or a later one;
    at a later one each accumulator holds what the point before left; so the case's run applies, and what it
    leaves in each output is that output's stores read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 20 := lt_of_lt_of_eq t.isLt (show cfg2.N = 20 from N_2)
  by_cases h0 : t.val % 20 = 0
  · rw [outsAt2_A V c t h0]
    unfold outFirst2
    dsimp only
    unfold out2_A_6 out2_A_7 out2_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _)
    unfold owns; iexists _; isplitr
    swap; · iexact H8
    ipureintro; exact View.read_writes_of_cover _ _ _ _ _ (cover2_A_8 c _ _ _ _ _ _ _ _ _ _ _ _ _ _ _ _ _ _ _ _ _ _ _ _ _ _)
  · rw [outsAt2_B V c t h0]
    simp only [before2_7_B V c t h0, before2_8_B V c t h0]
    unfold outLater2
    dsimp only
    unfold out2_B_6 out2_B_7 out2_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _)
    unfold owns; iexists _; isplitr
    swap; · iexact H8
    ipureintro; exact View.read_writes_of_cover _ _ _ _ _ (cover2_B_8 c _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Bn3.lean ====
/-
  Grid region 3: the normalisation kernel. At each of the 20 grid points it reads a 5000-row block of the
  rectified activations and the four 128-wide rows (column mean, column variance, scale, shift), and writes the
  block `(z - mean) * rsqrt (var + eps) * scale + shift` over its whole output block with one store. This module
  states what the output block holds after the body and proves the body's separation-logic triple and the
  pipeline's body obligation, for any contents `V` of the buffers at the region's entry and at any float instance.
-/
import proofs.«147728_j53334903882348_1_alg».proof.Proof.Gen.Kernel.Launch
import proofs.«147728_j53334903882348_1_alg».proof.Proof.Gen.Kernel.Skeleton
import proofs.«147728_j53334903882348_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every grid point, whether the point fetched it or the block
    index had not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every grid point, whether the point fetched it or the block
    index had not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every grid point, whether the point fetched it or the block
    index had not moved since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every grid point, whether the point fetched it or the block
    index had not moved since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every grid point, whether the point fetched it or the block
    index had not moved since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole 5000 × 128 block and the whole 1 × 128 row: the only rectangles the body touches. -/
abbrev rBlk3 : Rect S5000x128 := Rect.unit (s := S5000x128) ![0, 0] S5000x128.size inb_S5000x128_S5000x128_0_0
abbrev rRow3 : Rect S1x128 := Rect.unit (s := S1x128) ![0, 0] S1x128.size inb_S1x128_S1x128_0_0

/-- The output block after the body: its one store, the normalised block, as a function of the five input blocks
    (activations, mean, variance, scale, shift). -/
def out3_5 (x0 : Vec F S5000x128 .f32) (x1 x2 x3 x4 : Vec F S1x128 .f32) : Vec F S5000x128 .f32 :=
  View.canon [⟨rBlk3, k3_pay1 (View.ld x2 rRow3) (View.ld x0 rBlk3) (View.ld x1 rRow3) (View.ld x3 rRow3) (View.ld x4 rRow3)⟩]

/-- The one store covers the block. -/
theorem cover3_5 (p0 : Vec F S5000x128 .f32) (y : S5000x128.Idx) :
    ∃ pc ∈ ([⟨rBlk3, p0⟩] : List (View.Piece (Elt F) S5000x128 .f32)), y ∈ pc.1.set :=
  View.cover_of_tiled [⟨rBlk3, p0⟩] S5000x128.size (by rfl) y

set_option maxHeartbeats 1000000 in
/-- The body on whole staging buffers, the five inputs at their contents and the output at anything, runs without a
    fault to a state holding the inputs unchanged and the output at `out3_5` of the inputs. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The pipeline's proof data on core `c`: the arrays as the region finds them; after the body at point `t` each
    input's staging buffer still at its block and the output's at `out3_5` of the input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 800000 in
/-- The body at any point: each input's staging buffer holds its block, so the body's triple applies; the invariant
    and the core's dues pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Stats4.lean ====
/-
  Grid region 4: the perceptron-and-statistics kernel. At each of the 20 grid points it reads a 5000-row block of
  the aggregated neighbours and of the node features and the two weight matrices and bias rows, writes the block of
  rectified activations `z` over its whole first output block, and adds the block's column sums of `z` and of
  `z * z` into two 1 × 128 accumulators whose block index never moves: at the first point (the body's one branch
  taken) the accumulators are first set to zero, at every later point (branch not taken) they are read as the
  point before left them. So the body has two control cases, and what the accumulators hold after a point is a
  recursion over the points. This module runs the body once per case, states what the three outputs hold point
  by point, and proves the pipeline's body obligation, for any contents `V` of the buffers at the region's entry
  and at any float instance.
-/
import proofs.«147728_j53334903882348_1_alg».proof.Proof.Gen.Kernel.Launch
import proofs.«147728_j53334903882348_1_alg».proof.Proof.Gen.Kernel.Skeleton
import proofs.«147728_j53334903882348_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every grid point, whether the point fetched it or the block
    index had not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every grid point, whether the point fetched it or the block
    index had not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every grid point, whether the point fetched it or the block
    index had not moved since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every grid point, whether the point fetched it or the block
    index had not moved since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every grid point, whether the point fetched it or the block
    index had not moved since the last fetch. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every grid point, whether the point fetched it or the block
    index had not moved since the last fetch. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The body's branch condition as a function of the grid coordinate: the coordinate is zero. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)

/-- One staging buffer of each output window, through which its contents are stated. -/
abbrev VO4_6 : View sig .tc .vmem S5000x128 .f32 := (Memref.whole cc4_stg6_0 : Memref sig .tc .vmem S5000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view
/-- Each window's current staging buffer at point `t`, as the pipeline passes it to the body, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)

set_option maxHeartbeats 4000000 in
/-- THE FIRST POINT (branch taken). On whole staging buffers, the six inputs at their contents and the three outputs
    at anything, the body runs without a fault to a state holding the inputs unchanged and each output's buffer
    with the body's stores written, listed last first. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- A LATER POINT (branch not taken). The same, with the two accumulators at their running contents `xo7`, `xo8`,
    which the body reads before it writes them. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-- In this case the stores into output 6's staging buffer tile it, so they cover it. -/
theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What this case leaves in output 6's staging buffer: its stores read back. -/
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) : Vec F S5000x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 x0 x1 x2 x3 x4 x5).1)

/-- In this case the stores into output 7's staging buffer tile it, so they cover it. -/
theorem cover4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What this case leaves in output 7's staging buffer: its stores read back. -/
def out4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) : Vec F S1x128 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 x0 x1 x2 x3 x4 x5).2.1)

/-- In this case the stores into output 8's staging buffer tile it, so they cover it. -/
theorem cover4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What this case leaves in output 8's staging buffer: its stores read back. -/
def out4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) : Vec F S1x128 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 hc0 x0 x1 x2 x3 x4 x5).2.2.1)

/-- In this case the stores into output 6's staging buffer tile it, so they cover it. -/
theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What this case leaves in output 6's staging buffer: its stores read back. -/
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S5000x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 x0 x1 x2 x3 x4 x5 xo7 xo8).1)

/-- In this case the stores into output 7's staging buffer tile it, so they cover it. -/
theorem cover4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What this case leaves in output 7's staging buffer: its stores read back. -/
def out4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 x0 x1 x2 x3 x4 x5 xo7 xo8).2.1)

/-- In this case the stores into output 8's staging buffer tile it, so they cover it. -/
theorem cover4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What this case leaves in output 8's staging buffer: its stores read back. -/
def out4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 hc0 x0 x1 x2 x3 x4 x5 xo7 xo8).2.2.1)

/-! ## What the three outputs hold after each point -/

/-- The outputs after the first point: the first case at the point's staging buffers and input blocks. -/
def outFirst4 (c : Dev nD) (t : Fin cfg4.N) (h0 : t.val % 20 = 0) : Vec F S5000x128 .f32 × Vec F S1x128 .f32 × Vec F S1x128 .f32 :=
  (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
   out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
   out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))

/-- The outputs after a later point, over the accumulators `p7`, `p8` the point before left. -/
def outLater4 (c : Dev nD) (t : Fin cfg4.N) (h0 : ¬t.val % 20 = 0) (p7 p8 : Vec F S1x128 .f32) : Vec F S5000x128 .f32 × Vec F S1x128 .f32 × Vec F S1x128 .f32 :=
  (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) p7 p8,
   out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) p7 p8,
   out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) p7 p8)

/-- THE ACCUMULATION: what the three outputs' staging buffers hold after the body at position `n`. -/
def outsAt4 (c : Dev nD) : (n : ℕ) → n < cfg4.N → Vec F S5000x128 .f32 × Vec F S1x128 .f32 × Vec F S1x128 .f32
  | 0, hn => outFirst4 V c ⟨0, hn⟩ (Nat.zero_mod _)
  | n + 1, hn =>
    if h0 : (n + 1) % 20 = 0 then outFirst4 V c ⟨n + 1, hn⟩ h0
    else outLater4 V c ⟨n + 1, hn⟩ h0 (outsAt4 c n (Nat.lt_of_succ_lt hn)).2.1 (outsAt4 c n (Nat.lt_of_succ_lt hn)).2.2

theorem outsAt4_A (c : Dev nD) (t : Fin cfg4.N) (h0 : t.val % 20 = 0) :
    outsAt4 V c t.val t.isLt = outFirst4 V c t h0 := by
  obtain ⟨n, hn⟩ := t
  cases n with
  | zero => exact rfl
  | succ n => exact (dif_pos h0).trans rfl

theorem outsAt4_B (c : Dev nD) (t : Fin cfg4.N) (h0 : ¬t.val % 20 = 0) :
    outsAt4 V c t.val t.isLt = outLater4 V c t h0 (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    staging buffer still at its block and the three outputs' at `outsAt4`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a point that is not the first, accumulator 7's staging buffer still holds what the body left at the point
    before: its block index is constant, and it is written back only after the last point. -/
theorem before4_7_B (c : Dev nD) (t : Fin cfg4.N) (h0 : ¬t.val % 20 = 0) (d) :
    (dat4 V c).before 7 t d = (outsAt4 V c (t.val - 1) (Nat.lt_of_le_of_lt (Nat.sub_le _ _) t.isLt)).2.1 := by
  have hN : t.val < 20 := lt_of_lt_of_eq t.isLt (show cfg4.N = 20 from N_4)
  rw [Dat.before_out_kept _ 7 rfl t (by omega) (Bool.eq_false_iff.mpr fun h => by have := (flush4_7 _).mp h; dsimp only at this; omega)
    (fun _ => rfl) (fun _ _ => rfl)]
  dsimp only [dat4]

/-- At a point that is not the first, accumulator 8's staging buffer still holds what the body left at the point
    before: its block index is constant, and it is written back only after the last point. -/
theorem before4_8_B (c : Dev nD) (t : Fin cfg4.N) (h0 : ¬t.val % 20 = 0) (d) :
    (dat4 V c).before 8 t d = (outsAt4 V c (t.val - 1) (Nat.lt_of_le_of_lt (Nat.sub_le _ _) t.isLt)).2.2 := by
  have hN : t.val < 20 := lt_of_lt_of_eq t.isLt (show cfg4.N = 20 from N_4)
  rw [Dat.before_out_kept _ 8 rfl t (by omega) (Bool.eq_false_iff.mpr fun h => by have := (flush4_8 _).mp h; dsimp only at this; omega)
    (fun _ => rfl) (fun _ _ => rfl)]
  dsimp only [dat4]

/-! ## The body obligation -/

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 1600000 in
/-- The body at any point: each input's staging buffer holds its block; the point is the first or a later one;
    at a later one each accumulator holds what the point before left; so the case's run applies, and what it
    leaves in each output is that output's stores read back. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 20 := lt_of_lt_of_eq t.isLt (show cfg4.N = 20 from N_4)
  by_cases h0 : t.val % 20 = 0
  · rw [outsAt4_A V c t h0]
    unfold outFirst4
    dsimp only
    unfold out4_A_6 out4_A_7 out4_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_A_7 c _ _ _ _ _ _ _ _ _ _ _ _ _ _ _ _ _ _ _ _ _ _ _ _ _ _)
    unfold owns; iexists _; isplitr
    swap; · iexact H8
    ipureintro; exact View.read_writes_of_cover _ _ _ _ _ (cover4_A_8 c _ _ _ _ _ _ _ _ _ _ _ _ _ _ _ _ _ _ _ _ _ _ _ _ _ _)
  · rw [outsAt4_B V c t h0]
    simp only [before4_7_B V c t h0, before4_8_B V c t h0]
    unfold outLater4
    dsimp only
    unfold out4_B_6 out4_B_7 out4_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_B_7 c _ _ _ _ _ _ _ _ _ _ _ _ _ _ _ _ _ _ _ _ _ _ _ _ _ _ _ _)
    unfold owns; iexists _; isplitr
    swap; · iexact H8
    ipureintro; exact View.read_writes_of_cover _ _ _ _ _ (cover4_B_8 c _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Bn5.lean ====
/-
  Grid region 5: the normalisation kernel. At each of the 20 grid points it reads a 5000-row block of the
  rectified activations and the four 128-wide rows (column mean, column variance, scale, shift), and writes the
  block `(z - mean) * rsqrt (var + eps) * scale + shift` over its whole output block with one store. This module
  states what the output block holds after the body and proves the body's separation-logic triple and the
  pipeline's body obligation, for any contents `V` of the buffers at the region's entry and at any float instance.
-/
import proofs.«147728_j53334903882348_1_alg».proof.Proof.Gen.Kernel.Launch
import proofs.«147728_j53334903882348_1_alg».proof.Proof.Gen.Kernel.Skeleton
import proofs.«147728_j53334903882348_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every grid point, whether the point fetched it or the block
    index had not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every grid point, whether the point fetched it or the block
    index had not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every grid point, whether the point fetched it or the block
    index had not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every grid point, whether the point fetched it or the block
    index had not moved since the last fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every grid point, whether the point fetched it or the block
    index had not moved since the last fetch. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole 5000 × 128 block and the whole 1 × 128 row: the only rectangles the body touches. -/
abbrev rBlk5 : Rect S5000x128 := Rect.unit (s := S5000x128) ![0, 0] S5000x128.size inb_S5000x128_S5000x128_0_0
abbrev rRow5 : Rect S1x128 := Rect.unit (s := S1x128) ![0, 0] S1x128.size inb_S1x128_S1x128_0_0

/-- The output block after the body: its one store, the normalised block, as a function of the five input blocks
    (activations, mean, variance, scale, shift). -/
def out5_5 (x0 : Vec F S5000x128 .f32) (x1 x2 x3 x4 : Vec F S1x128 .f32) : Vec F S5000x128 .f32 :=
  View.canon [⟨rBlk5, k5_pay1 (View.ld x2 rRow5) (View.ld x0 rBlk5) (View.ld x1 rRow5) (View.ld x3 rRow5) (View.ld x4 rRow5)⟩]

/-- The one store covers the block. -/
theorem cover5_5 (p0 : Vec F S5000x128 .f32) (y : S5000x128.Idx) :
    ∃ pc ∈ ([⟨rBlk5, p0⟩] : List (View.Piece (Elt F) S5000x128 .f32)), y ∈ pc.1.set :=
  View.cover_of_tiled [⟨rBlk5, p0⟩] S5000x128.size (by rfl) y

set_option maxHeartbeats 1000000 in
/-- The body on whole staging buffers, the five inputs at their contents and the output at anything, runs without a
    fault to a state holding the inputs unchanged and the output at `out5_5` of the inputs. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The pipeline's proof data on core `c`: the arrays as the region finds them; after the body at point `t` each
    input's staging buffer still at its block and the output's at `out5_5` of the input blocks; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 800000 in
/-- The body at any point: each input's staging buffer holds its block, so the body's triple applies; the invariant
    and the core's dues pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Run.lean ====
/-
  The whole program as thirteen segments — seven stretches of host operations and, between them, the six grid
  regions — run from the launch memory to the return. The contents of every buffer at each segment boundary are
  named: a host stretch applies its operations in order; a region leaves its output windows' arrays at what the
  pipeline's write-backs compose and every other buffer as it found it. From the run: every weakly fair execution
  terminates without a fault, the argument arrays end as launched (no host operation writes one, no region's
  write-back touches one), and the result array ends at the last boundary's contents. Stated at any float instance.
-/
import proofs.«147728_j53334903882348_1_alg».proof.Proof.Gen.Kernel.Launch
import proofs.«147728_j53334903882348_1_alg».proof.Proof.Gen.Kernel.Skeleton
import proofs.«147728_j53334903882348_1_alg».proof.Proof.Gen.Kernel.Points
import proofs.«147728_j53334903882348_1_alg».proof.Proof.KB.Stats0
import proofs.«147728_j53334903882348_1_alg».proof.Proof.KB.Bn1
import proofs.«147728_j53334903882348_1_alg».proof.Proof.KB.Stats2
import proofs.«147728_j53334903882348_1_alg».proof.Proof.KB.Bn3
import proofs.«147728_j53334903882348_1_alg».proof.Proof.KB.Stats4
import proofs.«147728_j53334903882348_1_alg».proof.Proof.KB.Bn5
import proofs.«147728_j53334903882348_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After host stretch 0: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After host stretch 1: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After host stretch 2: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline's write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After host stretch 3: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline's write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After host stretch 4: region 4's entry. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline's write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After host stretch 5: region 5's entry. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline's write-backs leave, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the last host stretch (the concatenation): the contents at the return. -/
abbrev W13 : Dev nD → Valuation τ sig (Elt F) := fun c => StableHlo.after hostOps6 (W12 m ρ c)

/-! ## The arguments end as launched -/

/-- Argument 0 reaches the return as launched: no host operation writes it and no region's write-back touches it. -/
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps6 _ hostOps6_writes (by decide : main_arg0 ∉ hostOps6_W)
    _ = W11 m ρ c (Proc.devRef .tc main_arg0) := W12_of_ne m ρ c main_arg0 (by decide)
    _ = W10 m ρ c (Proc.devRef .tc main_arg0) := StableHlo.after_of_writes_sub hostOps5 _ hostOps5_writes (by decide : main_arg0 ∉ hostOps5_W)
    _ = W9 m ρ c (Proc.devRef .tc main_arg0) := W10_of_ne m ρ c main_arg0 (by decide)
    _ = W8 m ρ c (Proc.devRef .tc main_arg0) := StableHlo.after_of_writes_sub hostOps4 _ hostOps4_writes (by decide : main_arg0 ∉ hostOps4_W)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)
    _ = m ((c : Thread nD τ).loc main_arg0) := rfl

/-- Argument 1 reaches the return as launched: no host operation writes it and no region's write-back touches it. -/
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_writes_sub hostOps6 _ hostOps6_writes (by decide : main_arg1 ∉ hostOps6_W)
    _ = W11 m ρ c (Proc.devRef .tc main_arg1) := W12_of_ne m ρ c main_arg1 (by decide)
    _ = W10 m ρ c (Proc.devRef .tc main_arg1) := StableHlo.after_of_writes_sub hostOps5 _ hostOps5_writes (by decide : main_arg1 ∉ hostOps5_W)
    _ = W9 m ρ c (Proc.devRef .tc main_arg1) := W10_of_ne m ρ c main_arg1 (by decide)
    _ = W8 m ρ c (Proc.devRef .tc main_arg1) := StableHlo.after_of_writes_sub hostOps4 _ hostOps4_writes (by decide : main_arg1 ∉ hostOps4_W)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- Argument 2 reaches the return as launched: no host operation writes it and no region's write-back touches it. -/
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_writes_sub hostOps6 _ hostOps6_writes (by decide : main_arg2 ∉ hostOps6_W)
    _ = W11 m ρ c (Proc.devRef .tc main_arg2) := W12_of_ne m ρ c main_arg2 (by decide)
    _ = W10 m ρ c (Proc.devRef .tc main_arg2) := StableHlo.after_of_writes_sub hostOps5 _ hostOps5_writes (by decide : main_arg2 ∉ hostOps5_W)
    _ = W9 m ρ c (Proc.devRef .tc main_arg2) := W10_of_ne m ρ c main_arg2 (by decide)
    _ = W8 m ρ c (Proc.devRef .tc main_arg2) := StableHlo.after_of_writes_sub hostOps4 _ hostOps4_writes (by decide : main_arg2 ∉ hostOps4_W)
    _ = W7 m ρ c (Proc.devRef .tc main_arg2) := W8_of_ne m ρ c main_arg2 (by decide)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

/-- Argument 3 reaches the return as launched: no host operation writes it and no region's write-back touches it. -/
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_writes_sub hostOps6 _ hostOps6_writes (by decide : main_arg3 ∉ hostOps6_W)
    _ = W11 m ρ c (Proc.devRef .tc main_arg3) := W12_of_ne m ρ c main_arg3 (by decide)
    _ = W10 m ρ c (Proc.devRef .tc main_arg3) := StableHlo.after_of_writes_sub hostOps5 _ hostOps5_writes (by decide : main_arg3 ∉ hostOps5_W)
    _ = W9 m ρ c (Proc.devRef .tc main_arg3) := W10_of_ne m ρ c main_arg3 (by decide)
    _ = W8 m ρ c (Proc.devRef .tc main_arg3) := StableHlo.after_of_writes_sub hostOps4 _ hostOps4_writes (by decide : main_arg3 ∉ hostOps4_W)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-- Argument 4 reaches the return as launched: no host operation writes it and no region's write-back touches it. -/
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_writes_sub hostOps6 _ hostOps6_writes (by decide : main_arg4 ∉ hostOps6_W)
    _ = W11 m ρ c (Proc.devRef .tc main_arg4) := W12_of_ne m ρ c main_arg4 (by decide)
    _ = W10 m ρ c (Proc.devRef .tc main_arg4) := StableHlo.after_of_writes_sub hostOps5 _ hostOps5_writes (by decide : main_arg4 ∉ hostOps5_W)
    _ = W9 m ρ c (Proc.devRef .tc main_arg4) := W10_of_ne m ρ c main_arg4 (by decide)
    _ = W8 m ρ c (Proc.devRef .tc main_arg4) := StableHlo.after_of_writes_sub hostOps4 _ hostOps4_writes (by decide : main_arg4 ∉ hostOps4_W)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-- Argument 5 reaches the return as launched: no host operation writes it and no region's write-back touches it. -/
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_writes_sub hostOps6 _ hostOps6_writes (by decide : main_arg5 ∉ hostOps6_W)
    _ = W11 m ρ c (Proc.devRef .tc main_arg5) := W12_of_ne m ρ c main_arg5 (by decide)
    _ = W10 m ρ c (Proc.devRef .tc main_arg5) := StableHlo.after_of_writes_sub hostOps5 _ hostOps5_writes (by decide : main_arg5 ∉ hostOps5_W)
    _ = W9 m ρ c (Proc.devRef .tc main_arg5) := W10_of_ne m ρ c main_arg5 (by decide)
    _ = W8 m ρ c (Proc.devRef .tc main_arg5) := StableHlo.after_of_writes_sub hostOps4 _ hostOps4_writes (by decide : main_arg5 ∉ hostOps4_W)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- Argument 6 reaches the return as launched: no host operation writes it and no region's write-back touches it. -/
theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := StableHlo.after_of_writes_sub hostOps6 _ hostOps6_writes (by decide : main_arg6 ∉ hostOps6_W)
    _ = W11 m ρ c (Proc.devRef .tc main_arg6) := W12_of_ne m ρ c main_arg6 (by decide)
    _ = W10 m ρ c (Proc.devRef .tc main_arg6) := StableHlo.after_of_writes_sub hostOps5 _ hostOps5_writes (by decide : main_arg6 ∉ hostOps5_W)
    _ = W9 m ρ c (Proc.devRef .tc main_arg6) := W10_of_ne m ρ c main_arg6 (by decide)
    _ = W8 m ρ c (Proc.devRef .tc main_arg6) := StableHlo.after_of_writes_sub hostOps4 _ hostOps4_writes (by decide : main_arg6 ∉ hostOps4_W)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-- Argument 7 reaches the return as launched: no host operation writes it and no region's write-back touches it. -/
theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := StableHlo.after_of_writes_sub hostOps6 _ hostOps6_writes (by decide : main_arg7 ∉ hostOps6_W)
    _ = W11 m ρ c (Proc.devRef .tc main_arg7) := W12_of_ne m ρ c main_arg7 (by decide)
    _ = W10 m ρ c (Proc.devRef .tc main_arg7) := StableHlo.after_of_writes_sub hostOps5 _ hostOps5_writes (by decide : main_arg7 ∉ hostOps5_W)
    _ = W9 m ρ c (Proc.devRef .tc main_arg7) := W10_of_ne m ρ c main_arg7 (by decide)
    _ = W8 m ρ c (Proc.devRef .tc main_arg7) := StableHlo.after_of_writes_sub hostOps4 _ hostOps4_writes (by decide : main_arg7 ∉ hostOps4_W)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 as a segment: entered with every unscoped buffer at `W1`, left with them at `W2`. Its windows' arrays
    are split out of the unscoped buffers at entry and put back at exit; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its windows' arrays
    are split out of the unscoped buffers at entry and put back at exit; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`. Its windows' arrays
    are split out of the unscoped buffers at entry and put back at exit; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`. Its windows' arrays
    are split out of the unscoped buffers at entry and put back at exit; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W9`, left with them at `W10`. Its windows' arrays
    are split out of the unscoped buffers at entry and put back at exit; the generator register goes into the
    pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at `W11`, left with them at `W12`. Its windows' arrays
    are split out of the unscoped buffers at entry and put back at exit; the generator register goes into the
    pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- The program is the run of its segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting; in every final state the result array holds the last boundary's contents and each argument array
    is as launched. -/
theorem run_all : θ_run defs (onTc (τ := τ) (main (F := F))) ⟨m, fun _ => 0, ρ⟩ (fun r => ∀ c : Dev nD,
      r.2.mem ((c.tc : Thread nD τ).loc main_v106) = W13 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W13 m ρ c) ∗ ((∃ r, prngReg c r) ∗ ∃ W, owes (c : Thread nD τ) (0 : CellTallies nD τ sig Unit) W)) : sProp 𝕄)
        ⊢ iprop((StableHlo.held (c : Thread nD τ) (Pipeline.ucRefs τ sig) (W13 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v106 (by decide)),
        (h c _ (mem_uc main_arg0 (by decide))).trans (W13_main_arg0 m ρ c),
        (h c _ (mem_uc main_arg1 (by decide))).trans (W13_main_arg1 m ρ c),
        (h c _ (mem_uc main_arg2 (by decide))).trans (W13_main_arg2 m ρ c),
        (h c _ (mem_uc main_arg3 (by decide))).trans (W13_main_arg3 m ρ c),
        (h c _ (mem_uc main_arg4 (by decide))).trans (W13_main_arg4 m ρ c),
        (h c _ (mem_uc main_arg5 (by decide))).trans (W13_main_arg5 m ρ c),
        (h c _ (mem_uc main_arg6 (by decide))).trans (W13_main_arg6 m ρ c),
        (h c _ (mem_uc main_arg7 (by decide))).trans (W13_main_arg7 m ρ c)⟩)

/-- The frame: the program terminates without a fault and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.Kernel.Hand

end
-- ==== Proof.KI.Stats0.lean ====
/-
  Grid region 0: the perceptron-and-statistics kernel. At each of the 20 grid points it reads a 5000-row block of
  the aggregated neighbours and of the node features and the two weight matrices and bias rows, writes the block of
  rectified activations `z` over its whole first output block, and adds the block's column sums of `z` and of
  `z * z` into two 1 × 128 accumulators whose block index never moves: at the first point (the body's one branch
  taken) the accumulators are first set to zero, at every later point (branch not taken) they are read as the
  point before left them. So the body has two control cases, and what the accumulators hold after a point is a
  recursion over the points. This module runs the body once per case, states what the three outputs hold point
  by point, and proves the pipeline's body obligation, for any contents `V` of the buffers at the region's entry
  and at any float instance.
-/
import proofs.«147728_j53334903882348_1_alg».proof.Proof.Gen.KernelIdeal.Launch
import proofs.«147728_j53334903882348_1_alg».proof.Proof.Gen.KernelIdeal.Skeleton
import proofs.«147728_j53334903882348_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every grid point, whether the point fetched it or the block
    index had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every grid point, whether the point fetched it or the block
    index had not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every grid point, whether the point fetched it or the block
    index had not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every grid point, whether the point fetched it or the block
    index had not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every grid point, whether the point fetched it or the block
    index had not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every grid point, whether the point fetched it or the block
    index had not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The body's branch condition as a function of the grid coordinate: the coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 20 = 0 :=
  (by decide +kernel : ∀ t : Fin grid0.N, cond0_0 (grid0.coords t) ↔ t.val % 20 = 0)

/-- One staging buffer of each output window, through which its contents are stated. -/
abbrev VO0_6 : View sig .tc .vmem S5000x128 .f32 := (Memref.whole cc0_stg6_0 : Memref sig .tc .vmem S5000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- Each window's current staging buffer at point `t`, as the pipeline passes it to the body, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)

set_option maxHeartbeats 4000000 in
/-- THE FIRST POINT (branch taken). On whole staging buffers, the six inputs at their contents and the three outputs
    at anything, the body runs without a fault to a state holding the inputs unchanged and each output's buffer
    with the body's stores written, listed last first. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- A LATER POINT (branch not taken). The same, with the two accumulators at their running contents `xo7`, `xo8`,
    which the body reads before it writes them. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-- In this case the stores into output 6's staging buffer tile it, so they cover it. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What this case leaves in output 6's staging buffer: its stores read back. -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) : Vec F S5000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- In this case the stores into output 7's staging buffer tile it, so they cover it. -/
theorem cover0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What this case leaves in output 7's staging buffer: its stores read back. -/
def out0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- In this case the stores into output 8's staging buffer tile it, so they cover it. -/
theorem cover0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What this case leaves in output 8's staging buffer: its stores read back. -/
def out0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4 x5).2.2.1)

/-- In this case the stores into output 6's staging buffer tile it, so they cover it. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What this case leaves in output 6's staging buffer: its stores read back. -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S5000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xo7 xo8).1)

/-- In this case the stores into output 7's staging buffer tile it, so they cover it. -/
theorem cover0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What this case leaves in output 7's staging buffer: its stores read back. -/
def out0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xo7 xo8).2.1)

/-- In this case the stores into output 8's staging buffer tile it, so they cover it. -/
theorem cover0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What this case leaves in output 8's staging buffer: its stores read back. -/
def out0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 x4 x5 xo7 xo8).2.2.1)

/-! ## What the three outputs hold after each point -/

/-- The outputs after the first point: the first case at the point's staging buffers and input blocks. -/
def outFirst0 (c : Dev nD) (t : Fin cfg0.N) (h0 : t.val % 20 = 0) : Vec F S5000x128 .f32 × Vec F S1x128 .f32 × Vec F S1x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))

/-- The outputs after a later point, over the accumulators `p7`, `p8` the point before left. -/
def outLater0 (c : Dev nD) (t : Fin cfg0.N) (h0 : ¬t.val % 20 = 0) (p7 p8 : Vec F S1x128 .f32) : Vec F S5000x128 .f32 × Vec F S1x128 .f32 × Vec F S1x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) p7 p8,
   out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) p7 p8,
   out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) p7 p8)

/-- THE ACCUMULATION: what the three outputs' staging buffers hold after the body at position `n`. -/
def outsAt0 (c : Dev nD) : (n : ℕ) → n < cfg0.N → Vec F S5000x128 .f32 × Vec F S1x128 .f32 × Vec F S1x128 .f32
  | 0, hn => outFirst0 V c ⟨0, hn⟩ (Nat.zero_mod _)
  | n + 1, hn =>
    if h0 : (n + 1) % 20 = 0 then outFirst0 V c ⟨n + 1, hn⟩ h0
    else outLater0 V c ⟨n + 1, hn⟩ h0 (outsAt0 c n (Nat.lt_of_succ_lt hn)).2.1 (outsAt0 c n (Nat.lt_of_succ_lt hn)).2.2

theorem outsAt0_A (c : Dev nD) (t : Fin cfg0.N) (h0 : t.val % 20 = 0) :
    outsAt0 V c t.val t.isLt = outFirst0 V c t h0 := by
  obtain ⟨n, hn⟩ := t
  cases n with
  | zero => exact rfl
  | succ n => exact (dif_pos h0).trans rfl

theorem outsAt0_B (c : Dev nD) (t : Fin cfg0.N) (h0 : ¬t.val % 20 = 0) :
    outsAt0 V c t.val t.isLt = outLater0 V c t h0 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    staging buffer still at its block and the three outputs' at `outsAt0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a point that is not the first, accumulator 7's staging buffer still holds what the body left at the point
    before: its block index is constant, and it is written back only after the last point. -/
theorem before0_7_B (c : Dev nD) (t : Fin cfg0.N) (h0 : ¬t.val % 20 = 0) (d) :
    (dat0 V c).before 7 t d = (outsAt0 V c (t.val - 1) (Nat.lt_of_le_of_lt (Nat.sub_le _ _) t.isLt)).2.1 := by
  have hN : t.val < 20 := lt_of_lt_of_eq t.isLt (show cfg0.N = 20 from N_0)
  rw [Dat.before_out_kept _ 7 rfl t (by omega) (Bool.eq_false_iff.mpr fun h => by have := (flush0_7 _).mp h; dsimp only at this; omega)
    (fun _ => rfl) (fun _ _ => rfl)]
  dsimp only [dat0]

/-- At a point that is not the first, accumulator 8's staging buffer still holds what the body left at the point
    before: its block index is constant, and it is written back only after the last point. -/
theorem before0_8_B (c : Dev nD) (t : Fin cfg0.N) (h0 : ¬t.val % 20 = 0) (d) :
    (dat0 V c).before 8 t d = (outsAt0 V c (t.val - 1) (Nat.lt_of_le_of_lt (Nat.sub_le _ _) t.isLt)).2.2 := by
  have hN : t.val < 20 := lt_of_lt_of_eq t.isLt (show cfg0.N = 20 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 1600000 in
/-- The body at any point: each input's staging buffer holds its block; the point is the first or a later one;
    at a later one each accumulator holds what the point before left; so the case's run applies, and what it
    leaves in each output is that output's stores read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 20 := lt_of_lt_of_eq t.isLt (show cfg0.N = 20 from N_0)
  by_cases h0 : t.val % 20 = 0
  · rw [outsAt0_A V c t h0]
    unfold outFirst0
    dsimp only
    unfold out0_A_6 out0_A_7 out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B V c t h0]
    simp only [before0_7_B V c t h0, before0_8_B V c t h0]
    unfold outLater0
    dsimp only
    unfold out0_B_6 out0_B_7 out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Bn1.lean ====
/-
  Grid region 1: the normalisation kernel. At each of the 20 grid points it reads a 5000-row block of the
  rectified activations and the four 128-wide rows (column mean, column variance, scale, shift), and writes the
  block `(z - mean) * rsqrt (var + eps) * scale + shift` over its whole output block with one store. This module
  states what the output block holds after the body and proves the body's separation-logic triple and the
  pipeline's body obligation, for any contents `V` of the buffers at the region's entry and at any float instance.
-/
import proofs.«147728_j53334903882348_1_alg».proof.Proof.Gen.KernelIdeal.Launch
import proofs.«147728_j53334903882348_1_alg».proof.Proof.Gen.KernelIdeal.Skeleton
import proofs.«147728_j53334903882348_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every grid point, whether the point fetched it or the block
    index had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every grid point, whether the point fetched it or the block
    index had not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every grid point, whether the point fetched it or the block
    index had not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every grid point, whether the point fetched it or the block
    index had not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every grid point, whether the point fetched it or the block
    index had not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 5000 × 128 block and the whole 1 × 128 row: the only rectangles the body touches. -/
abbrev rBlk1 : Rect S5000x128 := Rect.unit (s := S5000x128) ![0, 0] S5000x128.size inb_S5000x128_S5000x128_0_0
abbrev rRow1 : Rect S1x128 := Rect.unit (s := S1x128) ![0, 0] S1x128.size inb_S1x128_S1x128_0_0

/-- The output block after the body: its one store, the normalised block, as a function of the five input blocks
    (activations, mean, variance, scale, shift). -/
def out1_5 (x0 : Vec F S5000x128 .f32) (x1 x2 x3 x4 : Vec F S1x128 .f32) : Vec F S5000x128 .f32 :=
  View.canon [⟨rBlk1, k1_pay1 (View.ld x2 rRow1) (View.ld x0 rBlk1) (View.ld x1 rRow1) (View.ld x3 rRow1) (View.ld x4 rRow1)⟩]

/-- The one store covers the block. -/
theorem cover1_5 (p0 : Vec F S5000x128 .f32) (y : S5000x128.Idx) :
    ∃ pc ∈ ([⟨rBlk1, p0⟩] : List (View.Piece (Elt F) S5000x128 .f32)), y ∈ pc.1.set :=
  View.cover_of_tiled [⟨rBlk1, p0⟩] S5000x128.size (by rfl) y

set_option maxHeartbeats 1000000 in
/-- The body on whole staging buffers, the five inputs at their contents and the output at anything, runs without a
    fault to a state holding the inputs unchanged and the output at `out1_5` of the inputs. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each
    input's staging buffer still at its block and the output's at `out1_5` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point: each input's staging buffer holds its block, so the body's triple applies; the invariant
    and the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Stats2.lean ====
/-
  Grid region 2: the perceptron-and-statistics kernel. At each of the 20 grid points it reads a 5000-row block of
  the aggregated neighbours and of the node features and the two weight matrices and bias rows, writes the block of
  rectified activations `z` over its whole first output block, and adds the block's column sums of `z` and of
  `z * z` into two 1 × 128 accumulators whose block index never moves: at the first point (the body's one branch
  taken) the accumulators are first set to zero, at every later point (branch not taken) they are read as the
  point before left them. So the body has two control cases, and what the accumulators hold after a point is a
  recursion over the points. This module runs the body once per case, states what the three outputs hold point
  by point, and proves the pipeline's body obligation, for any contents `V` of the buffers at the region's entry
  and at any float instance.
-/
import proofs.«147728_j53334903882348_1_alg».proof.Proof.Gen.KernelIdeal.Launch
import proofs.«147728_j53334903882348_1_alg».proof.Proof.Gen.KernelIdeal.Skeleton
import proofs.«147728_j53334903882348_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every grid point, whether the point fetched it or the block
    index had not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every grid point, whether the point fetched it or the block
    index had not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every grid point, whether the point fetched it or the block
    index had not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every grid point, whether the point fetched it or the block
    index had not moved since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every grid point, whether the point fetched it or the block
    index had not moved since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every grid point, whether the point fetched it or the block
    index had not moved since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The body's branch condition as a function of the grid coordinate: the coordinate is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- One staging buffer of each output window, through which its contents are stated. -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
/-- Each window's current staging buffer at point `t`, as the pipeline passes it to the body, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)

set_option maxHeartbeats 4000000 in
/-- THE FIRST POINT (branch taken). On whole staging buffers, the six inputs at their contents and the three outputs
    at anything, the body runs without a fault to a state holding the inputs unchanged and each output's buffer
    with the body's stores written, listed last first. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- A LATER POINT (branch not taken). The same, with the two accumulators at their running contents `xo7`, `xo8`,
    which the body reads before it writes them. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-- In this case the stores into output 6's staging buffer tile it, so they cover it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What this case leaves in output 6's staging buffer: its stores read back. -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 x0 x1 x2 x3 x4 x5).1)

/-- In this case the stores into output 7's staging buffer tile it, so they cover it. -/
theorem cover2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What this case leaves in output 7's staging buffer: its stores read back. -/
def out2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 hc0 x0 x1 x2 x3 x4 x5).2.1)

/-- In this case the stores into output 8's staging buffer tile it, so they cover it. -/
theorem cover2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What this case leaves in output 8's staging buffer: its stores read back. -/
def out2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 hc0 x0 x1 x2 x3 x4 x5).2.2.1)

/-- In this case the stores into output 6's staging buffer tile it, so they cover it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S5000x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What this case leaves in output 6's staging buffer: its stores read back. -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 x0 x1 x2 x3 x4 x5 xo7 xo8).1)

/-- In this case the stores into output 7's staging buffer tile it, so they cover it. -/
theorem cover2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What this case leaves in output 7's staging buffer: its stores read back. -/
def out2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 hc0 x0 x1 x2 x3 x4 x5 xo7 xo8).2.1)

/-- In this case the stores into output 8's staging buffer tile it, so they cover it. -/
theorem cover2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What this case leaves in output 8's staging buffer: its stores read back. -/
def out2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 hc0 x0 x1 x2 x3 x4 x5 xo7 xo8).2.2.1)

/-! ## What the three outputs hold after each point -/

/-- The outputs after the first point: the first case at the point's staging buffers and input blocks. -/
def outFirst2 (c : Dev nD) (t : Fin cfg2.N) (h0 : t.val % 20 = 0) : Vec F S5000x128 .f32 × Vec F S1x128 .f32 × Vec F S1x128 .f32 :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
   out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
   out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))

/-- The outputs after a later point, over the accumulators `p7`, `p8` the point before left. -/
def outLater2 (c : Dev nD) (t : Fin cfg2.N) (h0 : ¬t.val % 20 = 0) (p7 p8 : Vec F S1x128 .f32) : Vec F S5000x128 .f32 × Vec F S1x128 .f32 × Vec F S1x128 .f32 :=
  (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) p7 p8,
   out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) p7 p8,
   out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) p7 p8)

/-- THE ACCUMULATION: what the three outputs' staging buffers hold after the body at position `n`. -/
def outsAt2 (c : Dev nD) : (n : ℕ) → n < cfg2.N → Vec F S5000x128 .f32 × Vec F S1x128 .f32 × Vec F S1x128 .f32
  | 0, hn => outFirst2 V c ⟨0, hn⟩ (Nat.zero_mod _)
  | n + 1, hn =>
    if h0 : (n + 1) % 20 = 0 then outFirst2 V c ⟨n + 1, hn⟩ h0
    else outLater2 V c ⟨n + 1, hn⟩ h0 (outsAt2 c n (Nat.lt_of_succ_lt hn)).2.1 (outsAt2 c n (Nat.lt_of_succ_lt hn)).2.2

theorem outsAt2_A (c : Dev nD) (t : Fin cfg2.N) (h0 : t.val % 20 = 0) :
    outsAt2 V c t.val t.isLt = outFirst2 V c t h0 := by
  obtain ⟨n, hn⟩ := t
  cases n with
  | zero => exact rfl
  | succ n => exact (dif_pos h0).trans rfl

theorem outsAt2_B (c : Dev nD) (t : Fin cfg2.N) (h0 : ¬t.val % 20 = 0) :
    outsAt2 V c t.val t.isLt = outLater2 V c t h0 (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    staging buffer still at its block and the three outputs' at `outsAt2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a point that is not the first, accumulator 7's staging buffer still holds what the body left at the point
    before: its block index is constant, and it is written back only after the last point. -/
theorem before2_7_B (c : Dev nD) (t : Fin cfg2.N) (h0 : ¬t.val % 20 = 0) (d) :
    (dat2 V c).before 7 t d = (outsAt2 V c (t.val - 1) (Nat.lt_of_le_of_lt (Nat.sub_le _ _) t.isLt)).2.1 := by
  have hN : t.val < 20 := lt_of_lt_of_eq t.isLt (show cfg2.N = 20 from N_2)
  rw [Dat.before_out_kept _ 7 rfl t (by omega) (Bool.eq_false_iff.mpr fun h => by have := (flush2_7 _).mp h; dsimp only at this; omega)
    (fun _ => rfl) (fun _ _ => rfl)]
  dsimp only [dat2]

/-- At a point that is not the first, accumulator 8's staging buffer still holds what the body left at the point
    before: its block index is constant, and it is written back only after the last point. -/
theorem before2_8_B (c : Dev nD) (t : Fin cfg2.N) (h0 : ¬t.val % 20 = 0) (d) :
    (dat2 V c).before 8 t d = (outsAt2 V c (t.val - 1) (Nat.lt_of_le_of_lt (Nat.sub_le _ _) t.isLt)).2.2 := by
  have hN : t.val < 20 := lt_of_lt_of_eq t.isLt (show cfg2.N = 20 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 1600000 in
/-- The body at any point: each input's staging buffer holds its block; the point is the first or a later one;
    at a later one each accumulator holds what the point before left; so the case's run applies, and what it
    leaves in each output is that output's stores read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 20 := lt_of_lt_of_eq t.isLt (show cfg2.N = 20 from N_2)
  by_cases h0 : t.val % 20 = 0
  · rw [outsAt2_A V c t h0]
    unfold outFirst2
    dsimp only
    unfold out2_A_6 out2_A_7 out2_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _)
    unfold owns; iexists _; isplitr
    swap; · iexact H8
    ipureintro; exact View.read_writes_of_cover _ _ _ _ _ (cover2_A_8 c _ _ _ _ _ _ _ _ _ _ _ _ _ _ _ _ _ _ _ _ _ _ _ _ _ _)
  · rw [outsAt2_B V c t h0]
    simp only [before2_7_B V c t h0, before2_8_B V c t h0]
    unfold outLater2
    dsimp only
    unfold out2_B_6 out2_B_7 out2_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _)
    unfold owns; iexists _; isplitr
    swap; · iexact H8
    ipureintro; exact View.read_writes_of_cover _ _ _ _ _ (cover2_B_8 c _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Bn3.lean ====
/-
  Grid region 3: the normalisation kernel. At each of the 20 grid points it reads a 5000-row block of the
  rectified activations and the four 128-wide rows (column mean, column variance, scale, shift), and writes the
  block `(z - mean) * rsqrt (var + eps) * scale + shift` over its whole output block with one store. This module
  states what the output block holds after the body and proves the body's separation-logic triple and the
  pipeline's body obligation, for any contents `V` of the buffers at the region's entry and at any float instance.
-/
import proofs.«147728_j53334903882348_1_alg».proof.Proof.Gen.KernelIdeal.Launch
import proofs.«147728_j53334903882348_1_alg».proof.Proof.Gen.KernelIdeal.Skeleton
import proofs.«147728_j53334903882348_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every grid point, whether the point fetched it or the block
    index had not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every grid point, whether the point fetched it or the block
    index had not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every grid point, whether the point fetched it or the block
    index had not moved since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every grid point, whether the point fetched it or the block
    index had not moved since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every grid point, whether the point fetched it or the block
    index had not moved since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole 5000 × 128 block and the whole 1 × 128 row: the only rectangles the body touches. -/
abbrev rBlk3 : Rect S5000x128 := Rect.unit (s := S5000x128) ![0, 0] S5000x128.size inb_S5000x128_S5000x128_0_0
abbrev rRow3 : Rect S1x128 := Rect.unit (s := S1x128) ![0, 0] S1x128.size inb_S1x128_S1x128_0_0

/-- The output block after the body: its one store, the normalised block, as a function of the five input blocks
    (activations, mean, variance, scale, shift). -/
def out3_5 (x0 : Vec F S5000x128 .f32) (x1 x2 x3 x4 : Vec F S1x128 .f32) : Vec F S5000x128 .f32 :=
  View.canon [⟨rBlk3, k3_pay1 (View.ld x2 rRow3) (View.ld x0 rBlk3) (View.ld x1 rRow3) (View.ld x3 rRow3) (View.ld x4 rRow3)⟩]

/-- The one store covers the block. -/
theorem cover3_5 (p0 : Vec F S5000x128 .f32) (y : S5000x128.Idx) :
    ∃ pc ∈ ([⟨rBlk3, p0⟩] : List (View.Piece (Elt F) S5000x128 .f32)), y ∈ pc.1.set :=
  View.cover_of_tiled [⟨rBlk3, p0⟩] S5000x128.size (by rfl) y

set_option maxHeartbeats 1000000 in
/-- The body on whole staging buffers, the five inputs at their contents and the output at anything, runs without a
    fault to a state holding the inputs unchanged and the output at `out3_5` of the inputs. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The pipeline's proof data on core `c`: the arrays as the region finds them; after the body at point `t` each
    input's staging buffer still at its block and the output's at `out3_5` of the input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 800000 in
/-- The body at any point: each input's staging buffer holds its block, so the body's triple applies; the invariant
    and the core's dues pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Stats4.lean ====
/-
  Grid region 4: the perceptron-and-statistics kernel. At each of the 20 grid points it reads a 5000-row block of
  the aggregated neighbours and of the node features and the two weight matrices and bias rows, writes the block of
  rectified activations `z` over its whole first output block, and adds the block's column sums of `z` and of
  `z * z` into two 1 × 128 accumulators whose block index never moves: at the first point (the body's one branch
  taken) the accumulators are first set to zero, at every later point (branch not taken) they are read as the
  point before left them. So the body has two control cases, and what the accumulators hold after a point is a
  recursion over the points. This module runs the body once per case, states what the three outputs hold point
  by point, and proves the pipeline's body obligation, for any contents `V` of the buffers at the region's entry
  and at any float instance.
-/
import proofs.«147728_j53334903882348_1_alg».proof.Proof.Gen.KernelIdeal.Launch
import proofs.«147728_j53334903882348_1_alg».proof.Proof.Gen.KernelIdeal.Skeleton
import proofs.«147728_j53334903882348_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every grid point, whether the point fetched it or the block
    index had not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every grid point, whether the point fetched it or the block
    index had not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every grid point, whether the point fetched it or the block
    index had not moved since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every grid point, whether the point fetched it or the block
    index had not moved since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every grid point, whether the point fetched it or the block
    index had not moved since the last fetch. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every grid point, whether the point fetched it or the block
    index had not moved since the last fetch. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The body's branch condition as a function of the grid coordinate: the coordinate is zero. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)

/-- One staging buffer of each output window, through which its contents are stated. -/
abbrev VO4_6 : View sig .tc .vmem S5000x128 .f32 := (Memref.whole cc4_stg6_0 : Memref sig .tc .vmem S5000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view
/-- Each window's current staging buffer at point `t`, as the pipeline passes it to the body, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)

set_option maxHeartbeats 4000000 in
/-- THE FIRST POINT (branch taken). On whole staging buffers, the six inputs at their contents and the three outputs
    at anything, the body runs without a fault to a state holding the inputs unchanged and each output's buffer
    with the body's stores written, listed last first. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- A LATER POINT (branch not taken). The same, with the two accumulators at their running contents `xo7`, `xo8`,
    which the body reads before it writes them. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    Σ' (L6 : List (View.Piece (Elt F) S5000x128 .f32)), Σ' (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-- In this case the stores into output 6's staging buffer tile it, so they cover it. -/
theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What this case leaves in output 6's staging buffer: its stores read back. -/
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) : Vec F S5000x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 x0 x1 x2 x3 x4 x5).1)

/-- In this case the stores into output 7's staging buffer tile it, so they cover it. -/
theorem cover4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What this case leaves in output 7's staging buffer: its stores read back. -/
def out4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) : Vec F S1x128 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 x0 x1 x2 x3 x4 x5).2.1)

/-- In this case the stores into output 8's staging buffer tile it, so they cover it. -/
theorem cover4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What this case leaves in output 8's staging buffer: its stores read back. -/
def out4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) : Vec F S1x128 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 hc0 x0 x1 x2 x3 x4 x5).2.2.1)

/-- In this case the stores into output 6's staging buffer tile it, so they cover it. -/
theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What this case leaves in output 6's staging buffer: its stores read back. -/
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S5000x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 x0 x1 x2 x3 x4 x5 xo7 xo8).1)

/-- In this case the stores into output 7's staging buffer tile it, so they cover it. -/
theorem cover4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What this case leaves in output 7's staging buffer: its stores read back. -/
def out4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 x0 x1 x2 x3 x4 x5 xo7 xo8).2.1)

/-- In this case the stores into output 8's staging buffer tile it, so they cover it. -/
theorem cover4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What this case leaves in output 8's staging buffer: its stores read back. -/
def out4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) : Vec F S1x128 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 hc0 x0 x1 x2 x3 x4 x5 xo7 xo8).2.2.1)

/-! ## What the three outputs hold after each point -/

/-- The outputs after the first point: the first case at the point's staging buffers and input blocks. -/
def outFirst4 (c : Dev nD) (t : Fin cfg4.N) (h0 : t.val % 20 = 0) : Vec F S5000x128 .f32 × Vec F S1x128 .f32 × Vec F S1x128 .f32 :=
  (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
   out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
   out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))

/-- The outputs after a later point, over the accumulators `p7`, `p8` the point before left. -/
def outLater4 (c : Dev nD) (t : Fin cfg4.N) (h0 : ¬t.val % 20 = 0) (p7 p8 : Vec F S1x128 .f32) : Vec F S5000x128 .f32 × Vec F S1x128 .f32 × Vec F S1x128 .f32 :=
  (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) p7 p8,
   out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) p7 p8,
   out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) p7 p8)

/-- THE ACCUMULATION: what the three outputs' staging buffers hold after the body at position `n`. -/
def outsAt4 (c : Dev nD) : (n : ℕ) → n < cfg4.N → Vec F S5000x128 .f32 × Vec F S1x128 .f32 × Vec F S1x128 .f32
  | 0, hn => outFirst4 V c ⟨0, hn⟩ (Nat.zero_mod _)
  | n + 1, hn =>
    if h0 : (n + 1) % 20 = 0 then outFirst4 V c ⟨n + 1, hn⟩ h0
    else outLater4 V c ⟨n + 1, hn⟩ h0 (outsAt4 c n (Nat.lt_of_succ_lt hn)).2.1 (outsAt4 c n (Nat.lt_of_succ_lt hn)).2.2

theorem outsAt4_A (c : Dev nD) (t : Fin cfg4.N) (h0 : t.val % 20 = 0) :
    outsAt4 V c t.val t.isLt = outFirst4 V c t h0 := by
  obtain ⟨n, hn⟩ := t
  cases n with
  | zero => exact rfl
  | succ n => exact (dif_pos h0).trans rfl

theorem outsAt4_B (c : Dev nD) (t : Fin cfg4.N) (h0 : ¬t.val % 20 = 0) :
    outsAt4 V c t.val t.isLt = outLater4 V c t h0 (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    staging buffer still at its block and the three outputs' at `outsAt4`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a point that is not the first, accumulator 7's staging buffer still holds what the body left at the point
    before: its block index is constant, and it is written back only after the last point. -/
theorem before4_7_B (c : Dev nD) (t : Fin cfg4.N) (h0 : ¬t.val % 20 = 0) (d) :
    (dat4 V c).before 7 t d = (outsAt4 V c (t.val - 1) (Nat.lt_of_le_of_lt (Nat.sub_le _ _) t.isLt)).2.1 := by
  have hN : t.val < 20 := lt_of_lt_of_eq t.isLt (show cfg4.N = 20 from N_4)
  rw [Dat.before_out_kept _ 7 rfl t (by omega) (Bool.eq_false_iff.mpr fun h => by have := (flush4_7 _).mp h; dsimp only at this; omega)
    (fun _ => rfl) (fun _ _ => rfl)]
  dsimp only [dat4]

/-- At a point that is not the first, accumulator 8's staging buffer still holds what the body left at the point
    before: its block index is constant, and it is written back only after the last point. -/
theorem before4_8_B (c : Dev nD) (t : Fin cfg4.N) (h0 : ¬t.val % 20 = 0) (d) :
    (dat4 V c).before 8 t d = (outsAt4 V c (t.val - 1) (Nat.lt_of_le_of_lt (Nat.sub_le _ _) t.isLt)).2.2 := by
  have hN : t.val < 20 := lt_of_lt_of_eq t.isLt (show cfg4.N = 20 from N_4)
  rw [Dat.before_out_kept _ 8 rfl t (by omega) (Bool.eq_false_iff.mpr fun h => by have := (flush4_8 _).mp h; dsimp only at this; omega)
    (fun _ => rfl) (fun _ _ => rfl)]
  dsimp only [dat4]

/-! ## The body obligation -/

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 1600000 in
/-- The body at any point: each input's staging buffer holds its block; the point is the first or a later one;
    at a later one each accumulator holds what the point before left; so the case's run applies, and what it
    leaves in each output is that output's stores read back. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 20 := lt_of_lt_of_eq t.isLt (show cfg4.N = 20 from N_4)
  by_cases h0 : t.val % 20 = 0
  · rw [outsAt4_A V c t h0]
    unfold outFirst4
    dsimp only
    unfold out4_A_6 out4_A_7 out4_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_A_7 c _ _ _ _ _ _ _ _ _ _ _ _ _ _ _ _ _ _ _ _ _ _ _ _ _ _)
    unfold owns; iexists _; isplitr
    swap; · iexact H8
    ipureintro; exact View.read_writes_of_cover _ _ _ _ _ (cover4_A_8 c _ _ _ _ _ _ _ _ _ _ _ _ _ _ _ _ _ _ _ _ _ _ _ _ _ _)
  · rw [outsAt4_B V c t h0]
    simp only [before4_7_B V c t h0, before4_8_B V c t h0]
    unfold outLater4
    dsimp only
    unfold out4_B_6 out4_B_7 out4_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_B_7 c _ _ _ _ _ _ _ _ _ _ _ _ _ _ _ _ _ _ _ _ _ _ _ _ _ _ _ _)
    unfold owns; iexists _; isplitr
    swap; · iexact H8
    ipureintro; exact View.read_writes_of_cover _ _ _ _ _ (cover4_B_8 c _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Bn5.lean ====
/-
  Grid region 5: the normalisation kernel. At each of the 20 grid points it reads a 5000-row block of the
  rectified activations and the four 128-wide rows (column mean, column variance, scale, shift), and writes the
  block `(z - mean) * rsqrt (var + eps) * scale + shift` over its whole output block with one store. This module
  states what the output block holds after the body and proves the body's separation-logic triple and the
  pipeline's body obligation, for any contents `V` of the buffers at the region's entry and at any float instance.
-/
import proofs.«147728_j53334903882348_1_alg».proof.Proof.Gen.KernelIdeal.Launch
import proofs.«147728_j53334903882348_1_alg».proof.Proof.Gen.KernelIdeal.Skeleton
import proofs.«147728_j53334903882348_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every grid point, whether the point fetched it or the block
    index had not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every grid point, whether the point fetched it or the block
    index had not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every grid point, whether the point fetched it or the block
    index had not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every grid point, whether the point fetched it or the block
    index had not moved since the last fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every grid point, whether the point fetched it or the block
    index had not moved since the last fetch. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole 5000 × 128 block and the whole 1 × 128 row: the only rectangles the body touches. -/
abbrev rBlk5 : Rect S5000x128 := Rect.unit (s := S5000x128) ![0, 0] S5000x128.size inb_S5000x128_S5000x128_0_0
abbrev rRow5 : Rect S1x128 := Rect.unit (s := S1x128) ![0, 0] S1x128.size inb_S1x128_S1x128_0_0

/-- The output block after the body: its one store, the normalised block, as a function of the five input blocks
    (activations, mean, variance, scale, shift). -/
def out5_5 (x0 : Vec F S5000x128 .f32) (x1 x2 x3 x4 : Vec F S1x128 .f32) : Vec F S5000x128 .f32 :=
  View.canon [⟨rBlk5, k5_pay1 (View.ld x2 rRow5) (View.ld x0 rBlk5) (View.ld x1 rRow5) (View.ld x3 rRow5) (View.ld x4 rRow5)⟩]

/-- The one store covers the block. -/
theorem cover5_5 (p0 : Vec F S5000x128 .f32) (y : S5000x128.Idx) :
    ∃ pc ∈ ([⟨rBlk5, p0⟩] : List (View.Piece (Elt F) S5000x128 .f32)), y ∈ pc.1.set :=
  View.cover_of_tiled [⟨rBlk5, p0⟩] S5000x128.size (by rfl) y

set_option maxHeartbeats 1000000 in
/-- The body on whole staging buffers, the five inputs at their contents and the output at anything, runs without a
    fault to a state holding the inputs unchanged and the output at `out5_5` of the inputs. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The pipeline's proof data on core `c`: the arrays as the region finds them; after the body at point `t` each
    input's staging buffer still at its block and the output's at `out5_5` of the input blocks; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 800000 in
/-- The body at any point: each input's staging buffer holds its block, so the body's triple applies; the invariant
    and the core's dues pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
/-
  The whole program as thirteen segments — seven stretches of host operations and, between them, the six grid
  regions — run from the launch memory to the return. The contents of every buffer at each segment boundary are
  named: a host stretch applies its operations in order; a region leaves its output windows' arrays at what the
  pipeline's write-backs compose and every other buffer as it found it. From the run: every weakly fair execution
  terminates without a fault, the argument arrays end as launched (no host operation writes one, no region's
  write-back touches one), and the result array ends at the last boundary's contents. Stated at any float instance.
-/
import proofs.«147728_j53334903882348_1_alg».proof.Proof.Gen.KernelIdeal.Launch
import proofs.«147728_j53334903882348_1_alg».proof.Proof.Gen.KernelIdeal.Skeleton
import proofs.«147728_j53334903882348_1_alg».proof.Proof.Gen.KernelIdeal.Points
import proofs.«147728_j53334903882348_1_alg».proof.Proof.KI.Stats0
import proofs.«147728_j53334903882348_1_alg».proof.Proof.KI.Bn1
import proofs.«147728_j53334903882348_1_alg».proof.Proof.KI.Stats2
import proofs.«147728_j53334903882348_1_alg».proof.Proof.KI.Bn3
import proofs.«147728_j53334903882348_1_alg».proof.Proof.KI.Stats4
import proofs.«147728_j53334903882348_1_alg».proof.Proof.KI.Bn5
import proofs.«147728_j53334903882348_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After host stretch 0: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After host stretch 1: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After host stretch 2: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline's write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After host stretch 3: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline's write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After host stretch 4: region 4's entry. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline's write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After host stretch 5: region 5's entry. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline's write-backs leave, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the last host stretch (the concatenation): the contents at the return. -/
abbrev W13 : Dev nD → Valuation τ sig (Elt F) := fun c => StableHlo.after hostOps6 (W12 m ρ c)

/-! ## The arguments end as launched -/

/-- Argument 0 reaches the return as launched: no host operation writes it and no region's write-back touches it. -/
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps6 _ hostOps6_writes (by decide : main_arg0 ∉ hostOps6_W)
    _ = W11 m ρ c (Proc.devRef .tc main_arg0) := W12_of_ne m ρ c main_arg0 (by decide)
    _ = W10 m ρ c (Proc.devRef .tc main_arg0) := StableHlo.after_of_writes_sub hostOps5 _ hostOps5_writes (by decide : main_arg0 ∉ hostOps5_W)
    _ = W9 m ρ c (Proc.devRef .tc main_arg0) := W10_of_ne m ρ c main_arg0 (by decide)
    _ = W8 m ρ c (Proc.devRef .tc main_arg0) := StableHlo.after_of_writes_sub hostOps4 _ hostOps4_writes (by decide : main_arg0 ∉ hostOps4_W)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)
    _ = m ((c : Thread nD τ).loc main_arg0) := rfl

/-- Argument 1 reaches the return as launched: no host operation writes it and no region's write-back touches it. -/
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_writes_sub hostOps6 _ hostOps6_writes (by decide : main_arg1 ∉ hostOps6_W)
    _ = W11 m ρ c (Proc.devRef .tc main_arg1) := W12_of_ne m ρ c main_arg1 (by decide)
    _ = W10 m ρ c (Proc.devRef .tc main_arg1) := StableHlo.after_of_writes_sub hostOps5 _ hostOps5_writes (by decide : main_arg1 ∉ hostOps5_W)
    _ = W9 m ρ c (Proc.devRef .tc main_arg1) := W10_of_ne m ρ c main_arg1 (by decide)
    _ = W8 m ρ c (Proc.devRef .tc main_arg1) := StableHlo.after_of_writes_sub hostOps4 _ hostOps4_writes (by decide : main_arg1 ∉ hostOps4_W)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- Argument 2 reaches the return as launched: no host operation writes it and no region's write-back touches it. -/
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_writes_sub hostOps6 _ hostOps6_writes (by decide : main_arg2 ∉ hostOps6_W)
    _ = W11 m ρ c (Proc.devRef .tc main_arg2) := W12_of_ne m ρ c main_arg2 (by decide)
    _ = W10 m ρ c (Proc.devRef .tc main_arg2) := StableHlo.after_of_writes_sub hostOps5 _ hostOps5_writes (by decide : main_arg2 ∉ hostOps5_W)
    _ = W9 m ρ c (Proc.devRef .tc main_arg2) := W10_of_ne m ρ c main_arg2 (by decide)
    _ = W8 m ρ c (Proc.devRef .tc main_arg2) := StableHlo.after_of_writes_sub hostOps4 _ hostOps4_writes (by decide : main_arg2 ∉ hostOps4_W)
    _ = W7 m ρ c (Proc.devRef .tc main_arg2) := W8_of_ne m ρ c main_arg2 (by decide)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

/-- Argument 3 reaches the return as launched: no host operation writes it and no region's write-back touches it. -/
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_writes_sub hostOps6 _ hostOps6_writes (by decide : main_arg3 ∉ hostOps6_W)
    _ = W11 m ρ c (Proc.devRef .tc main_arg3) := W12_of_ne m ρ c main_arg3 (by decide)
    _ = W10 m ρ c (Proc.devRef .tc main_arg3) := StableHlo.after_of_writes_sub hostOps5 _ hostOps5_writes (by decide : main_arg3 ∉ hostOps5_W)
    _ = W9 m ρ c (Proc.devRef .tc main_arg3) := W10_of_ne m ρ c main_arg3 (by decide)
    _ = W8 m ρ c (Proc.devRef .tc main_arg3) := StableHlo.after_of_writes_sub hostOps4 _ hostOps4_writes (by decide : main_arg3 ∉ hostOps4_W)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-- Argument 4 reaches the return as launched: no host operation writes it and no region's write-back touches it. -/
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_writes_sub hostOps6 _ hostOps6_writes (by decide : main_arg4 ∉ hostOps6_W)
    _ = W11 m ρ c (Proc.devRef .tc main_arg4) := W12_of_ne m ρ c main_arg4 (by decide)
    _ = W10 m ρ c (Proc.devRef .tc main_arg4) := StableHlo.after_of_writes_sub hostOps5 _ hostOps5_writes (by decide : main_arg4 ∉ hostOps5_W)
    _ = W9 m ρ c (Proc.devRef .tc main_arg4) := W10_of_ne m ρ c main_arg4 (by decide)
    _ = W8 m ρ c (Proc.devRef .tc main_arg4) := StableHlo.after_of_writes_sub hostOps4 _ hostOps4_writes (by decide : main_arg4 ∉ hostOps4_W)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-- Argument 5 reaches the return as launched: no host operation writes it and no region's write-back touches it. -/
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_writes_sub hostOps6 _ hostOps6_writes (by decide : main_arg5 ∉ hostOps6_W)
    _ = W11 m ρ c (Proc.devRef .tc main_arg5) := W12_of_ne m ρ c main_arg5 (by decide)
    _ = W10 m ρ c (Proc.devRef .tc main_arg5) := StableHlo.after_of_writes_sub hostOps5 _ hostOps5_writes (by decide : main_arg5 ∉ hostOps5_W)
    _ = W9 m ρ c (Proc.devRef .tc main_arg5) := W10_of_ne m ρ c main_arg5 (by decide)
    _ = W8 m ρ c (Proc.devRef .tc main_arg5) := StableHlo.after_of_writes_sub hostOps4 _ hostOps4_writes (by decide : main_arg5 ∉ hostOps4_W)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-- Argument 6 reaches the return as launched: no host operation writes it and no region's write-back touches it. -/
theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := StableHlo.after_of_writes_sub hostOps6 _ hostOps6_writes (by decide : main_arg6 ∉ hostOps6_W)
    _ = W11 m ρ c (Proc.devRef .tc main_arg6) := W12_of_ne m ρ c main_arg6 (by decide)
    _ = W10 m ρ c (Proc.devRef .tc main_arg6) := StableHlo.after_of_writes_sub hostOps5 _ hostOps5_writes (by decide : main_arg6 ∉ hostOps5_W)
    _ = W9 m ρ c (Proc.devRef .tc main_arg6) := W10_of_ne m ρ c main_arg6 (by decide)
    _ = W8 m ρ c (Proc.devRef .tc main_arg6) := StableHlo.after_of_writes_sub hostOps4 _ hostOps4_writes (by decide : main_arg6 ∉ hostOps4_W)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-- Argument 7 reaches the return as launched: no host operation writes it and no region's write-back touches it. -/
theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := StableHlo.after_of_writes_sub hostOps6 _ hostOps6_writes (by decide : main_arg7 ∉ hostOps6_W)
    _ = W11 m ρ c (Proc.devRef .tc main_arg7) := W12_of_ne m ρ c main_arg7 (by decide)
    _ = W10 m ρ c (Proc.devRef .tc main_arg7) := StableHlo.after_of_writes_sub hostOps5 _ hostOps5_writes (by decide : main_arg7 ∉ hostOps5_W)
    _ = W9 m ρ c (Proc.devRef .tc main_arg7) := W10_of_ne m ρ c main_arg7 (by decide)
    _ = W8 m ρ c (Proc.devRef .tc main_arg7) := StableHlo.after_of_writes_sub hostOps4 _ hostOps4_writes (by decide : main_arg7 ∉ hostOps4_W)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 as a segment: entered with every unscoped buffer at `W1`, left with them at `W2`. Its windows' arrays
    are split out of the unscoped buffers at entry and put back at exit; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its windows' arrays
    are split out of the unscoped buffers at entry and put back at exit; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`. Its windows' arrays
    are split out of the unscoped buffers at entry and put back at exit; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`. Its windows' arrays
    are split out of the unscoped buffers at entry and put back at exit; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W9`, left with them at `W10`. Its windows' arrays
    are split out of the unscoped buffers at entry and put back at exit; the generator register goes into the
    pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at `W11`, left with them at `W12`. Its windows' arrays
    are split out of the unscoped buffers at entry and put back at exit; the generator register goes into the
    pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- The program is the run of its segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting; in every final state the result array holds the last boundary's contents and each argument array
    is as launched. -/
theorem run_all : θ_run defs (onTc (τ := τ) (main (F := F))) ⟨m, fun _ => 0, ρ⟩ (fun r => ∀ c : Dev nD,
      r.2.mem ((c.tc : Thread nD τ).loc main_v106) = W13 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W13 m ρ c) ∗ ((∃ r, prngReg c r) ∗ ∃ W, owes (c : Thread nD τ) (0 : CellTallies nD τ sig Unit) W)) : sProp 𝕄)
        ⊢ iprop((StableHlo.held (c : Thread nD τ) (Pipeline.ucRefs τ sig) (W13 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v106 (by decide)),
        (h c _ (mem_uc main_arg0 (by decide))).trans (W13_main_arg0 m ρ c),
        (h c _ (mem_uc main_arg1 (by decide))).trans (W13_main_arg1 m ρ c),
        (h c _ (mem_uc main_arg2 (by decide))).trans (W13_main_arg2 m ρ c),
        (h c _ (mem_uc main_arg3 (by decide))).trans (W13_main_arg3 m ρ c),
        (h c _ (mem_uc main_arg4 (by decide))).trans (W13_main_arg4 m ρ c),
        (h c _ (mem_uc main_arg5 (by decide))).trans (W13_main_arg5 m ρ c),
        (h c _ (mem_uc main_arg6 (by decide))).trans (W13_main_arg6 m ρ c),
        (h c _ (mem_uc main_arg7 (by decide))).trans (W13_main_arg7 m ρ c)⟩)

/-- The frame: the program terminates without a fault and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.KernelIdeal.Hand

end
-- ==== Proof.RefFrame.lean ====
/-
  The reference program is a straight line of host operations with no kernel launch: every weakly fair
  execution runs each operation once, in order, and no operation writes an argument array. Its frame is
  therefore its run with the result's value forgotten.
-/
import proofs.«147728_j53334903882348_1_alg».proof.Defs
import proofs.«147728_j53334903882348_1_alg».proof.Proof.Gen.ReferenceIdeal
import proofs.«147728_j53334903882348_1_alg».proof.Proof.Gen.Pre_finite_inputs
import proofs.«147728_j53334903882348_1_alg».proof.Proof.Gen.ReferenceIdeal.Run

noncomputable section

open Idealize.ShloMosaic Idealize.SL.Sem

namespace Cert.Proof.RefFrame

/-- The reference terminates without a fault and leaves its eight argument arrays as launched. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefFrame

end
-- ==== Proof.KI.Value0.lean ====
/-
  Grid region 0, read as values. What each control case leaves in the three output buffers is its covering
  store's payload: the block of rectified activations; the accumulator (zero at the first point, the point before's
  contents later) plus the block's column sums; likewise for the squares. Hence, by induction on the grid point,
  the accumulators after point n hold the running sums over the blocks 0 … n, and after the last point the three
  output arrays hold: every block of activations in its place, the total column sums, the total sums of squares.
-/
import proofs.«147728_j53334903882348_1_alg».proof.Proof.KI.Stats0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2_0 : (![0, 0] : Fin 2 → Nat) = fun _ => 0 := funext fun a => by fin_cases a <;> rfl
local notation "hz2" => hz2_0

/-! ## What each case leaves -/

theorem out0_A_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay5 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out0_B_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out0_A_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay1 (k0_pay6 k0_pay3) (k0_pay7 x0 x1 x2 x3 x4 x5) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out0_B_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay1 (k0_pay6 xo7) (k0_pay7 x0 x1 x2 x3 x4 x5) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out0_A_8_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 x1 : Vec F S5000x128 .f32) (x2 : Vec F S128x128 .f32) (x3 : Vec F S1x128 .f32) (x4 : Vec F S128x128 .f32) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay2 (k0_pay5 x0 x1 x2 x3 x4 x5) k0_pay4 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out0_B_8_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay2 (k0_pay5 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

/-! ## The running contents -/

variable (V : (c : Dev nD) → (b : Ref sig .tc) → Buf (Elt F) ((c : Thread nD τ).loc b))

/-- The block of rectified activations point `t` computes from its input blocks. -/
def actBlk0 (c : Dev nD) (t : Fin cfg0.N) : Vec F S5000x128 .f32 := k0_pay5 (iblk0 V c 0 t) (iblk0 V c 1 t) (iblk0 V c 2 t) (iblk0 V c 3 t) (iblk0 V c 4 t) (iblk0 V c 5 t)

/-- The column-sum accumulator after point `n`: zero plus block 0's column sums, then plus each later block's. -/
def sumChain0 (c : Dev nD) : (n : ℕ) → n < cfg0.N → Vec F S1x128 .f32
  | 0, h => k0_pay1 (k0_pay6 k0_pay3) (k0_pay7 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩))
  | n + 1, h => k0_pay1 (k0_pay6 (sumChain0 c n (Nat.lt_of_succ_lt h))) (k0_pay7 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩))

/-- The sum-of-squares accumulator after point `n`. -/
def sqChain0 (c : Dev nD) : (n : ℕ) → n < cfg0.N → Vec F S1x128 .f32
  | 0, h => k0_pay2 (actBlk0 V c ⟨0, h⟩) k0_pay4
  | n + 1, h => k0_pay2 (actBlk0 V c ⟨n + 1, h⟩) (sqChain0 c n (Nat.lt_of_succ_lt h))

/-- After point `n` the three output buffers hold block `n` of the activations and the two running sums. -/
theorem outsAt0_eq (c : Dev nD) : ∀ (n : ℕ) (h : n < cfg0.N),
    outsAt0 V c n h = (actBlk0 V c ⟨n, h⟩, sumChain0 V c n h, sqChain0 V c n h)
  | 0, h => by
    rw [outsAt0_A V c ⟨0, h⟩ rfl]
    unfold outFirst0
    rw [out0_A_6_eq, out0_A_7_eq, out0_A_8_eq]
    rfl
  | n + 1, h => by
    have hN : cfg0.N = 20 := N_0
    have hB : ¬(⟨n + 1, h⟩ : Fin cfg0.N).val % 20 = 0 := by dsimp only; omega
    rw [outsAt0_B V c ⟨n + 1, h⟩ hB]
    unfold outLater0
    rw [out0_B_6_eq, out0_B_7_eq, out0_B_8_eq]
    show (actBlk0 V c ⟨n + 1, h⟩, k0_pay1 (k0_pay6 (outsAt0 V c n _).2.1) _, k0_pay2 _ (outsAt0 V c n _).2.2) = _
    rw [outsAt0_eq c n]
    rfl

end Cert.KernelIdeal.Hand

end
-- ==== Proof.KI.Final0.lean ====
/-
  Grid region 0: the three output arrays after the run. The activations' array is written back block by block,
  point t's block into rows 5000·t … 5000·t + 4999, and the 20 blocks tile its 100000 rows; so it ends holding the
  table assembled from the blocks. Each accumulator's block is its whole array and is written back once, after the
  last point; so it ends holding the running contents after point 19.
-/
import proofs.«147728_j53334903882348_1_alg».proof.Proof.KI.Value0
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (V : (c : Dev nD) → (b : Ref sig .tc) → Buf (Elt F) ((c : Thread nD τ).loc b))

/-- The last grid point. -/
abbrev last0 : Fin cfg0.N := ⟨19, by rw [show cfg0.N = 20 from N_0]; decide⟩

/-! ## The activations -/

/-- The table assembled from the blocks: row r is row r mod 5000 of block r / 5000. -/
def actArr0 (c : Dev nD) : S100000x128.Idx → Elt F .f32 := fun i =>
  actBlk0 V c ⟨(i 0).val / 5000, by rw [show cfg0.N = 20 from N_0]; have h : (i 0).val < 100000 := (i 0).isLt; omega⟩
    (ValueIdx.ix2 (⟨(i 0).val % 5000, Nat.mod_lt _ (by decide)⟩ : Fin 5000) (⟨(i 1).val, (i 1).isLt⟩ : Fin 128))

/-- The output window's block index at point t is (t, 0). -/
theorem idx_facts0_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- What point t writes back is block t of the assembled table. -/
theorem flushed0_6_eq (c : Dev nD) (t : Fin cfg0.N) :
    (dat0 V c).flushed 6 t = ((cfg0.win 6).blk t).view.read (Elt F) (actArr0 V c) := by
  show (cfg0.win 6).cut (grid0.coords t) ((dat0 V c).after 6 t) = _
  rw [after0_6, outsAt0_eq]
  obtain ⟨e0, e1⟩ := idx_facts0_6 t
  funext j
  show actBlk0 V c t j = actArr0 V c (((cfg0.win 6).blk t).view.emb j)
  unfold actArr0
  have hj0 : (j 0).val < 5000 := (j 0).isLt
  have hj1 : (j 1).val < 128 := (j 1).isLt
  have hE0 : ((((cfg0.win 6).blk t).view.emb j) 0).val = t.val * 5000 + (j 0).val := by
    show win0_6.index t (0 : Fin 2) * 5000 + 1 * (j 0).val = _; rw [e0]; omega
  have hE1 : ((((cfg0.win 6).blk t).view.emb j) 1).val = (j 1).val := by
    show win0_6.index t (1 : Fin 2) * 128 + 1 * (j 1).val = _; rw [e1]; omega
  refine (congr (congrArg (actBlk0 V c) (Fin.ext ?_)) ?_).symm
  · show ((((cfg0.win 6).blk t).view.emb j) 0).val / 5000 = t.val
    omega
  · funext a
    match a with
    | ⟨0, _⟩ => exact Fin.ext (show ((((cfg0.win 6).blk t).view.emb j) 0).val % 5000 = (j 0).val by omega)
    | ⟨1, _⟩ => exact Fin.ext hE1

theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24_0).slice (win0_6.rect t)).set ↔ _
  rw [View.set_slice_whole, Rect.mem_set_unit]
  exact Iff.rfl

/-- The activations' array after the run: the assembled table. -/
theorem final0_6 (c : Dev nD) : (dat0 V c).arrAt 6 cfg0.N = actArr0 V c :=
  (dat0 V c).arrAt_eq_of_cover 6 (actArr0 V c) (fun t _ => flushed0_6_eq V c t) fun i => by
    have hi0 : (i 0).val < 100000 := (i 0).isLt
    have hi1 : (i 1).val < 128 := (i 1).isLt
    refine ⟨⟨(i 0).val / 5000, by rw [show cfg0.N = 20 from N_0]; omega⟩, flush0_6 _, ?_⟩
    rw [mem_blk0_6]
    obtain ⟨e0, e1⟩ := idx_facts0_6 ⟨(i 0).val / 5000, by rw [show cfg0.N = 20 from N_0]; omega⟩
    intro a
    match a with
    | ⟨0, _⟩ =>
      show win0_6.index _ (0 : Fin 2) * 5000 ≤ (i 0).val ∧ (i 0).val < win0_6.index _ (0 : Fin 2) * 5000 + 5000
      rw [e0]; dsimp only; omega
    | ⟨1, _⟩ =>
      show win0_6.index _ (1 : Fin 2) * 128 ≤ (i 1).val ∧ (i 1).val < win0_6.index _ (1 : Fin 2) * 128 + 128
      rw [e1]; omega

/-! ## The two accumulators -/

/-- The one write-back of accumulator 7, after the last point, writes the running contents after point 19: its block
    is its whole 1 × 128 array. -/
theorem flushed0_7_eq (c : Dev nD) (t : Fin cfg0.N) (hf : (cfg0.win 7).flush t = true) :
    (dat0 V c).flushed 7 t = ((cfg0.win 7).blk t).view.read (Elt F) (sumChain0 V c 19 (by rw [show cfg0.N = 20 from N_0]; decide)) := by
  have hN : cfg0.N = 20 := N_0
  have h19 : t.val = 19 := by have := (flush0_7 t).mp hf; have := t.isLt; omega
  obtain rfl : t = last0 := Fin.ext h19
  show (cfg0.win 7).cut (grid0.coords last0) ((dat0 V c).after 7 last0) = _
  rw [after0_7, outsAt0_eq]
  have hz' : (fun a => win0_7.index last0 a * main_v24_1.ty.shape.size a) = fun _ => 0 := funext fun a => by fin_cases a <;> decide
  exact (Memref.read_access_unit_zero (Elt F) main_v24_1 hz' (fun a => by rw [congrFun hz' a]; simp) _).symm

/-- So accumulator 7's array ends holding the running contents after the last point. -/
theorem final0_7 (c : Dev nD) : (dat0 V c).arrAt 7 cfg0.N = sumChain0 V c 19 (by rw [show cfg0.N = 20 from N_0]; decide) :=
  (dat0 V c).arrAt_eq_of_cover 7 _ (flushed0_7_eq V c) fun i =>
    ⟨last0, (flush0_7 last0).mpr rfl, by
      show i ∈ ((View.whole main_v24_1).slice (win0_7.rect last0)).set
      rw [View.set_slice_whole, Rect.mem_set_unit]
      intro a
      have h0 : (i 0 : Nat) < 1 := (i 0).isLt
      have h1 : (i 1 : Nat) < 128 := (i 1).isLt
      match a with
      | ⟨0, _⟩ => show win0_7.index last0 0 * win0_7.size 0 ≤ (i 0 : Nat) ∧ (i 0 : Nat) < win0_7.index last0 0 * win0_7.size 0 + win0_7.xsize (grid0.coords last0) 0
                  rw [show win0_7.index last0 0 * win0_7.size 0 = 0 from by decide +kernel, show win0_7.xsize (grid0.coords last0) 0 = 1 from by decide +kernel]; omega
      | ⟨1, _⟩ => show win0_7.index last0 1 * win0_7.size 1 ≤ (i 1 : Nat) ∧ (i 1 : Nat) < win0_7.index last0 1 * win0_7.size 1 + win0_7.xsize (grid0.coords last0) 1
                  rw [show win0_7.index last0 1 * win0_7.size 1 = 0 from by decide +kernel, show win0_7.xsize (grid0.coords last0) 1 = 128 from by decide +kernel]; omega⟩

/-- The one write-back of accumulator 8, after the last point, writes the running contents after point 19: its block
    is its whole 1 × 128 array. -/
theorem flushed0_8_eq (c : Dev nD) (t : Fin cfg0.N) (hf : (cfg0.win 8).flush t = true) :
    (dat0 V c).flushed 8 t = ((cfg0.win 8).blk t).view.read (Elt F) (sqChain0 V c 19 (by rw [show cfg0.N = 20 from N_0]; decide)) := by
  have hN : cfg0.N = 20 := N_0
  have h19 : t.val = 19 := by have := (flush0_8 t).mp hf; have := t.isLt; omega
  obtain rfl : t = last0 := Fin.ext h19
  show (cfg0.win 8).cut (grid0.coords last0) ((dat0 V c).after 8 last0) = _
  rw [after0_8, outsAt0_eq]
  have hz' : (fun a => win0_8.index last0 a * main_v24_2.ty.shape.size a) = fun _ => 0 := funext fun a => by fin_cases a <;> decide
  exact (Memref.read_access_unit_zero (Elt F) main_v24_2 hz' (fun a => by rw [congrFun hz' a]; simp) _).symm

/-- So accumulator 8's array ends holding the running contents after the last point. -/
theorem final0_8 (c : Dev nD) : (dat0 V c).arrAt 8 cfg0.N = sqChain0 V c 19 (by rw [show cfg0.N = 20 from N_0]; decide) :=
  (dat0 V c).arrAt_eq_of_cover 8 _ (flushed0_8_eq V c) fun i =>
    ⟨last0, (flush0_8 last0).mpr rfl, by
      show i ∈ ((View.whole main_v24_2).slice (win0_8.rect last0)).set
      rw [View.set_slice_whole, Rect.mem_set_unit]
      intro a
      have h0 : (i 0 : Nat) < 1 := (i 0).isLt
      have h1 : (i 1 : Nat) < 128 := (i 1).isLt
      match a with
      | ⟨0, _⟩ => show win0_8.index last0 0 * win0_8.size 0 ≤ (i 0 : Nat) ∧ (i 0 : Nat) < win0_8.index last0 0 * win0_8.size 0 + win0_8.xsize (grid0.coords last0) 0
                  rw [show win0_8.index last0 0 * win0_8.size 0 = 0 from by decide +kernel, show win0_8.xsize (grid0.coords last0) 0 = 1 from by decide +kernel]; omega
      | ⟨1, _⟩ => show win0_8.index last0 1 * win0_8.size 1 ≤ (i 1 : Nat) ∧ (i 1 : Nat) < win0_8.index last0 1 * win0_8.size 1 + win0_8.xsize (grid0.coords last0) 1
                  rw [show win0_8.index last0 1 * win0_8.size 1 = 0 from by decide +kernel, show win0_8.xsize (grid0.coords last0) 1 = 128 from by decide +kernel]; omega⟩

end Cert.KernelIdeal.Hand

end
-- ==== Proof.KI.Value2.lean ====
/-
  Grid region 2, read as values. What each control case leaves in the three output buffers is its covering
  store's payload: the block of rectified activations; the accumulator (zero at the first point, the point before's
  contents later) plus the block's column sums; likewise for the squares. Hence, by induction on the grid point,
  the accumulators after point n hold the running sums over the blocks 0 … n, and after the last point the three
  output arrays hold: every block of activations in its place, the total column sums, the total sums of squares.
-/
import proofs.«147728_j53334903882348_1_alg».proof.Proof.KI.Stats2
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2_2 : (![0, 0] : Fin 2 → Nat) = fun _ => 0 := funext fun a => by fin_cases a <;> rfl
local notation "hz2" => hz2_2

/-! ## What each case leaves -/

theorem out2_A_6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 hc0 x0 x1 x2 x3 x4 x5 = k2_pay5 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out2_B_6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out2_A_7_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) :
    out2_A_7 c i arg1 harg1 arg2 harg2 arg3 harg3 arg4 harg4 arg5 harg5 arg6 harg6 arg7 harg7 arg8 harg8 arg9 harg9 hc0 x0 x1 x2 x3 x4 x5 = k2_pay1 (k2_pay6 k2_pay3) (k2_pay7 x0 x1 x2 x3 x4 x5) := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out2_B_7_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay1 (k2_pay6 xo7) (k2_pay7 x0 x1 x2 x3 x4 x5) := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out2_A_8_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 x1 : Vec F S5000x128 .f32) (x2 : Vec F S128x128 .f32) (x3 : Vec F S1x128 .f32) (x4 : Vec F S128x128 .f32) (x5 : Vec F S1x128 .f32) :
    out2_A_8 c i arg1 harg1 arg2 harg2 arg3 harg3 arg4 harg4 arg5 harg5 arg6 harg6 arg7 harg7 arg8 harg8 arg9 harg9 hc0 x0 x1 x2 x3 x4 x5 = k2_pay2 (k2_pay5 x0 x1 x2 x3 x4 x5) k2_pay4 := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out2_B_8_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay2 (k2_pay5 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

/-! ## The running contents -/

variable (V : (c : Dev nD) → (b : Ref sig .tc) → Buf (Elt F) ((c : Thread nD τ).loc b))

/-- The block of rectified activations point `t` computes from its input blocks. -/
def actBlk2 (c : Dev nD) (t : Fin cfg2.N) : Vec F S5000x128 .f32 := k2_pay5 (iblk2 V c 0 t) (iblk2 V c 1 t) (iblk2 V c 2 t) (iblk2 V c 3 t) (iblk2 V c 4 t) (iblk2 V c 5 t)

/-- The column-sum accumulator after point `n`: zero plus block 0's column sums, then plus each later block's. -/
def sumChain2 (c : Dev nD) : (n : ℕ) → n < cfg2.N → Vec F S1x128 .f32
  | 0, h => k2_pay1 (k2_pay6 k2_pay3) (k2_pay7 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩))
  | n + 1, h => k2_pay1 (k2_pay6 (sumChain2 c n (Nat.lt_of_succ_lt h))) (k2_pay7 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩))

/-- The sum-of-squares accumulator after point `n`. -/
def sqChain2 (c : Dev nD) : (n : ℕ) → n < cfg2.N → Vec F S1x128 .f32
  | 0, h => k2_pay2 (actBlk2 V c ⟨0, h⟩) k2_pay4
  | n + 1, h => k2_pay2 (actBlk2 V c ⟨n + 1, h⟩) (sqChain2 c n (Nat.lt_of_succ_lt h))

/-- After point `n` the three output buffers hold block `n` of the activations and the two running sums. -/
theorem outsAt2_eq (c : Dev nD) : ∀ (n : ℕ) (h : n < cfg2.N),
    outsAt2 V c n h = (actBlk2 V c ⟨n, h⟩, sumChain2 V c n h, sqChain2 V c n h)
  | 0, h => by
    rw [outsAt2_A V c ⟨0, h⟩ rfl]
    unfold outFirst2
    rw [out2_A_6_eq, out2_A_7_eq, out2_A_8_eq]
    rfl
  | n + 1, h => by
    have hN : cfg2.N = 20 := N_2
    have hB : ¬(⟨n + 1, h⟩ : Fin cfg2.N).val % 20 = 0 := by dsimp only; omega
    rw [outsAt2_B V c ⟨n + 1, h⟩ hB]
    unfold outLater2
    rw [out2_B_6_eq, out2_B_7_eq, out2_B_8_eq]
    show (actBlk2 V c ⟨n + 1, h⟩, k2_pay1 (k2_pay6 (outsAt2 V c n _).2.1) _, k2_pay2 _ (outsAt2 V c n _).2.2) = _
    rw [outsAt2_eq c n]
    rfl

end Cert.KernelIdeal.Hand

end
-- ==== Proof.KI.Final2.lean ====
/-
  Grid region 2: the three output arrays after the run. The activations' array is written back block by block,
  point t's block into rows 5000·t … 5000·t + 4999, and the 20 blocks tile its 100000 rows; so it ends holding the
  table assembled from the blocks. Each accumulator's block is its whole array and is written back once, after the
  last point; so it ends holding the running contents after point 19.
-/
import proofs.«147728_j53334903882348_1_alg».proof.Proof.KI.Value2
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (V : (c : Dev nD) → (b : Ref sig .tc) → Buf (Elt F) ((c : Thread nD τ).loc b))

/-- The last grid point. -/
abbrev last2 : Fin cfg2.N := ⟨19, by rw [show cfg2.N = 20 from N_2]; decide⟩

/-! ## The activations -/

/-- The table assembled from the blocks: row r is row r mod 5000 of block r / 5000. -/
def actArr2 (c : Dev nD) : S100000x128.Idx → Elt F .f32 := fun i =>
  actBlk2 V c ⟨(i 0).val / 5000, by rw [show cfg2.N = 20 from N_2]; have h : (i 0).val < 100000 := (i 0).isLt; omega⟩
    (ValueIdx.ix2 (⟨(i 0).val % 5000, Nat.mod_lt _ (by decide)⟩ : Fin 5000) (⟨(i 1).val, (i 1).isLt⟩ : Fin 128))

/-- The output window's block index at point t is (t, 0). -/
theorem idx_facts2_6 : ∀ t : Fin cfg2.N, win2_6.index t (0 : Fin 2) = t.val ∧ win2_6.index t (1 : Fin 2) = 0 :=
  (by decide +kernel : ∀ t : Fin grid2.N, win2_6.index t (0 : Fin 2) = t.val ∧ win2_6.index t (1 : Fin 2) = 0)

/-- What point t writes back is block t of the assembled table. -/
theorem flushed2_6_eq (c : Dev nD) (t : Fin cfg2.N) :
    (dat2 V c).flushed 6 t = ((cfg2.win 6).blk t).view.read (Elt F) (actArr2 V c) := by
  show (cfg2.win 6).cut (grid2.coords t) ((dat2 V c).after 6 t) = _
  rw [after2_6, outsAt2_eq]
  obtain ⟨e0, e1⟩ := idx_facts2_6 t
  funext j
  show actBlk2 V c t j = actArr2 V c (((cfg2.win 6).blk t).view.emb j)
  unfold actArr2
  have hj0 : (j 0).val < 5000 := (j 0).isLt
  have hj1 : (j 1).val < 128 := (j 1).isLt
  have hE0 : ((((cfg2.win 6).blk t).view.emb j) 0).val = t.val * 5000 + (j 0).val := by
    show win2_6.index t (0 : Fin 2) * 5000 + 1 * (j 0).val = _; rw [e0]; omega
  have hE1 : ((((cfg2.win 6).blk t).view.emb j) 1).val = (j 1).val := by
    show win2_6.index t (1 : Fin 2) * 128 + 1 * (j 1).val = _; rw [e1]; omega
  refine (congr (congrArg (actBlk2 V c) (Fin.ext ?_)) ?_).symm
  · show ((((cfg2.win 6).blk t).view.emb j) 0).val / 5000 = t.val
    omega
  · funext a
    match a with
    | ⟨0, _⟩ => exact Fin.ext (show ((((cfg2.win 6).blk t).view.emb j) 0).val % 5000 = (j 0).val by omega)
    | ⟨1, _⟩ => exact Fin.ext hE1

theorem mem_blk2_6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v58_0).slice (win2_6.rect t)).set ↔ _
  rw [View.set_slice_whole, Rect.mem_set_unit]
  exact Iff.rfl

/-- The activations' array after the run: the assembled table. -/
theorem final2_6 (c : Dev nD) : (dat2 V c).arrAt 6 cfg2.N = actArr2 V c :=
  (dat2 V c).arrAt_eq_of_cover 6 (actArr2 V c) (fun t _ => flushed2_6_eq V c t) fun i => by
    have hi0 : (i 0).val < 100000 := (i 0).isLt
    have hi1 : (i 1).val < 128 := (i 1).isLt
    refine ⟨⟨(i 0).val / 5000, by rw [show cfg2.N = 20 from N_2]; omega⟩, flush2_6 _, ?_⟩
    rw [mem_blk2_6]
    obtain ⟨e0, e1⟩ := idx_facts2_6 ⟨(i 0).val / 5000, by rw [show cfg2.N = 20 from N_2]; omega⟩
    intro a
    match a with
    | ⟨0, _⟩ =>
      show win2_6.index _ (0 : Fin 2) * 5000 ≤ (i 0).val ∧ (i 0).val < win2_6.index _ (0 : Fin 2) * 5000 + 5000
      rw [e0]; dsimp only; omega
    | ⟨1, _⟩ =>
      show win2_6.index _ (1 : Fin 2) * 128 ≤ (i 1).val ∧ (i 1).val < win2_6.index _ (1 : Fin 2) * 128 + 128
      rw [e1]; omega

/-! ## The two accumulators -/

/-- The one write-back of accumulator 7, after the last point, writes the running contents after point 19: its block
    is its whole 1 × 128 array. -/
theorem flushed2_7_eq (c : Dev nD) (t : Fin cfg2.N) (hf : (cfg2.win 7).flush t = true) :
    (dat2 V c).flushed 7 t = ((cfg2.win 7).blk t).view.read (Elt F) (sumChain2 V c 19 (by rw [show cfg2.N = 20 from N_2]; decide)) := by
  have hN : cfg2.N = 20 := N_2
  have h19 : t.val = 19 := by have := (flush2_7 t).mp hf; have := t.isLt; omega
  obtain rfl : t = last2 := Fin.ext h19
  show (cfg2.win 7).cut (grid2.coords last2) ((dat2 V c).after 7 last2) = _
  rw [after2_7, outsAt2_eq]
  have hz' : (fun a => win2_7.index last2 a * main_v58_1.ty.shape.size a) = fun _ => 0 := funext fun a => by fin_cases a <;> decide
  exact (Memref.read_access_unit_zero (Elt F) main_v58_1 hz' (fun a => by rw [congrFun hz' a]; simp) _).symm

/-- So accumulator 7's array ends holding the running contents after the last point. -/
theorem final2_7 (c : Dev nD) : (dat2 V c).arrAt 7 cfg2.N = sumChain2 V c 19 (by rw [show cfg2.N = 20 from N_2]; decide) :=
  (dat2 V c).arrAt_eq_of_cover 7 _ (flushed2_7_eq V c) fun i =>
    ⟨last2, (flush2_7 last2).mpr rfl, by
      show i ∈ ((View.whole main_v58_1).slice (win2_7.rect last2)).set
      rw [View.set_slice_whole, Rect.mem_set_unit]
      intro a
      have h0 : (i 0 : Nat) < 1 := (i 0).isLt
      have h1 : (i 1 : Nat) < 128 := (i 1).isLt
      match a with
      | ⟨0, _⟩ => show win2_7.index last2 0 * win2_7.size 0 ≤ (i 0 : Nat) ∧ (i 0 : Nat) < win2_7.index last2 0 * win2_7.size 0 + win2_7.xsize (grid2.coords last2) 0
                  rw [show win2_7.index last2 0 * win2_7.size 0 = 0 from by decide +kernel, show win2_7.xsize (grid2.coords last2) 0 = 1 from by decide +kernel]; omega
      | ⟨1, _⟩ => show win2_7.index last2 1 * win2_7.size 1 ≤ (i 1 : Nat) ∧ (i 1 : Nat) < win2_7.index last2 1 * win2_7.size 1 + win2_7.xsize (grid2.coords last2) 1
                  rw [show win2_7.index last2 1 * win2_7.size 1 = 0 from by decide +kernel, show win2_7.xsize (grid2.coords last2) 1 = 128 from by decide +kernel]; omega⟩

/-- The one write-back of accumulator 8, after the last point, writes the running contents after point 19: its block
    is its whole 1 × 128 array. -/
theorem flushed2_8_eq (c : Dev nD) (t : Fin cfg2.N) (hf : (cfg2.win 8).flush t = true) :
    (dat2 V c).flushed 8 t = ((cfg2.win 8).blk t).view.read (Elt F) (sqChain2 V c 19 (by rw [show cfg2.N = 20 from N_2]; decide)) := by
  have hN : cfg2.N = 20 := N_2
  have h19 : t.val = 19 := by have := (flush2_8 t).mp hf; have := t.isLt; omega
  obtain rfl : t = last2 := Fin.ext h19
  show (cfg2.win 8).cut (grid2.coords last2) ((dat2 V c).after 8 last2) = _
  rw [after2_8, outsAt2_eq]
  have hz' : (fun a => win2_8.index last2 a * main_v58_2.ty.shape.size a) = fun _ => 0 := funext fun a => by fin_cases a <;> decide
  exact (Memref.read_access_unit_zero (Elt F) main_v58_2 hz' (fun a => by rw [congrFun hz' a]; simp) _).symm

/-- So accumulator 8's array ends holding the running contents after the last point. -/
theorem final2_8 (c : Dev nD) : (dat2 V c).arrAt 8 cfg2.N = sqChain2 V c 19 (by rw [show cfg2.N = 20 from N_2]; decide) :=
  (dat2 V c).arrAt_eq_of_cover 8 _ (flushed2_8_eq V c) fun i =>
    ⟨last2, (flush2_8 last2).mpr rfl, by
      show i ∈ ((View.whole main_v58_2).slice (win2_8.rect last2)).set
      rw [View.set_slice_whole, Rect.mem_set_unit]
      intro a
      have h0 : (i 0 : Nat) < 1 := (i 0).isLt
      have h1 : (i 1 : Nat) < 128 := (i 1).isLt
      match a with
      | ⟨0, _⟩ => show win2_8.index last2 0 * win2_8.size 0 ≤ (i 0 : Nat) ∧ (i 0 : Nat) < win2_8.index last2 0 * win2_8.size 0 + win2_8.xsize (grid2.coords last2) 0
                  rw [show win2_8.index last2 0 * win2_8.size 0 = 0 from by decide +kernel, show win2_8.xsize (grid2.coords last2) 0 = 1 from by decide +kernel]; omega
      | ⟨1, _⟩ => show win2_8.index last2 1 * win2_8.size 1 ≤ (i 1 : Nat) ∧ (i 1 : Nat) < win2_8.index last2 1 * win2_8.size 1 + win2_8.xsize (grid2.coords last2) 1
                  rw [show win2_8.index last2 1 * win2_8.size 1 = 0 from by decide +kernel, show win2_8.xsize (grid2.coords last2) 1 = 128 from by decide +kernel]; omega⟩

end Cert.KernelIdeal.Hand

end
-- ==== Proof.KI.Value4.lean ====
/-
  Grid region 4, read as values. What each control case leaves in the three output buffers is its covering
  store's payload: the block of rectified activations; the accumulator (zero at the first point, the point before's
  contents later) plus the block's column sums; likewise for the squares. Hence, by induction on the grid point,
  the accumulators after point n hold the running sums over the blocks 0 … n, and after the last point the three
  output arrays hold: every block of activations in its place, the total column sums, the total sums of squares.
-/
import proofs.«147728_j53334903882348_1_alg».proof.Proof.KI.Stats4
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2_4 : (![0, 0] : Fin 2 → Nat) = fun _ => 0 := funext fun a => by fin_cases a <;> rfl
local notation "hz2" => hz2_4

/-! ## What each case leaves -/

theorem out4_A_6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) :
    out4_A_6 c i arg1 harg1 arg2 harg2 arg3 harg3 arg4 harg4 arg5 harg5 arg6 harg6 arg7 harg7 arg8 harg8 arg9 harg9 hc0 x0 x1 x2 x3 x4 x5 = k4_pay5 x0 x1 x2 x3 x4 x5 := by
  unfold out4_A_6
  rw [View.read_writes_eq_canon _ _ _ (cover4_A_6 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out4_B_6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out4_B_6 c i arg1 harg1 arg2 harg2 arg3 harg3 arg4 harg4 arg5 harg5 arg6 harg6 arg7 harg7 arg8 harg8 arg9 harg9 hc0 x0 x1 x2 x3 x4 x5 xo7 xo8 = k4_pay5 x0 x1 x2 x3 x4 x5 := by
  unfold out4_B_6
  rw [View.read_writes_eq_canon _ _ _ (cover4_B_6 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out4_A_7_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) :
    out4_A_7 c i arg1 harg1 arg2 harg2 arg3 harg3 arg4 harg4 arg5 harg5 arg6 harg6 arg7 harg7 arg8 harg8 arg9 harg9 hc0 x0 x1 x2 x3 x4 x5 = k4_pay1 (k4_pay6 k4_pay3) (k4_pay7 x0 x1 x2 x3 x4 x5) := by
  unfold out4_A_7
  rw [View.read_writes_eq_canon _ _ _ (cover4_A_7 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out4_B_7_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out4_B_7 c i arg1 harg1 arg2 harg2 arg3 harg3 arg4 harg4 arg5 harg5 arg6 harg6 arg7 harg7 arg8 harg8 arg9 harg9 hc0 x0 x1 x2 x3 x4 x5 xo7 xo8 = k4_pay1 (k4_pay6 xo7) (k4_pay7 x0 x1 x2 x3 x4 x5) := by
  unfold out4_B_7
  rw [View.read_writes_eq_canon _ _ _ (cover4_B_7 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out4_A_8_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 x1 : Vec F S5000x128 .f32) (x2 : Vec F S128x128 .f32) (x3 : Vec F S1x128 .f32) (x4 : Vec F S128x128 .f32) (x5 : Vec F S1x128 .f32) :
    out4_A_8 c i arg1 harg1 arg2 harg2 arg3 harg3 arg4 harg4 arg5 harg5 arg6 harg6 arg7 harg7 arg8 harg8 arg9 harg9 hc0 x0 x1 x2 x3 x4 x5 = k4_pay2 (k4_pay5 x0 x1 x2 x3 x4 x5) k4_pay4 := by
  unfold out4_A_8
  rw [View.read_writes_eq_canon _ _ _ (cover4_A_8 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

theorem out4_B_8_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out4_B_8 c i arg1 harg1 arg2 harg2 arg3 harg3 arg4 harg4 arg5 harg5 arg6 harg6 arg7 harg7 arg8 harg8 arg9 harg9 hc0 x0 x1 x2 x3 x4 x5 xo7 xo8 = k4_pay2 (k4_pay5 x0 x1 x2 x3 x4 x5) xo8 := by
  unfold out4_B_8
  rw [View.read_writes_eq_canon _ _ _ (cover4_B_8 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S5000x128) hz2, View.ld_unit_zero (S := S128x128) hz2, View.ld_unit_zero (S := S1x128) hz2]

/-! ## The running contents -/

variable (V : (c : Dev nD) → (b : Ref sig .tc) → Buf (Elt F) ((c : Thread nD τ).loc b))

/-- The block of rectified activations point `t` computes from its input blocks. -/
def actBlk4 (c : Dev nD) (t : Fin cfg4.N) : Vec F S5000x128 .f32 := k4_pay5 (iblk4 V c 0 t) (iblk4 V c 1 t) (iblk4 V c 2 t) (iblk4 V c 3 t) (iblk4 V c 4 t) (iblk4 V c 5 t)

/-- The column-sum accumulator after point `n`: zero plus block 0's column sums, then plus each later block's. -/
def sumChain4 (c : Dev nD) : (n : ℕ) → n < cfg4.N → Vec F S1x128 .f32
  | 0, h => k4_pay1 (k4_pay6 k4_pay3) (k4_pay7 (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩))
  | n + 1, h => k4_pay1 (k4_pay6 (sumChain4 c n (Nat.lt_of_succ_lt h))) (k4_pay7 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩))

/-- The sum-of-squares accumulator after point `n`. -/
def sqChain4 (c : Dev nD) : (n : ℕ) → n < cfg4.N → Vec F S1x128 .f32
  | 0, h => k4_pay2 (actBlk4 V c ⟨0, h⟩) k4_pay4
  | n + 1, h => k4_pay2 (actBlk4 V c ⟨n + 1, h⟩) (sqChain4 c n (Nat.lt_of_succ_lt h))

/-- After point `n` the three output buffers hold block `n` of the activations and the two running sums. -/
theorem outsAt4_eq (c : Dev nD) : ∀ (n : ℕ) (h : n < cfg4.N),
    outsAt4 V c n h = (actBlk4 V c ⟨n, h⟩, sumChain4 V c n h, sqChain4 V c n h)
  | 0, h => by
    rw [outsAt4_A V c ⟨0, h⟩ rfl]
    unfold outFirst4
    rw [out4_A_6_eq, out4_A_7_eq, out4_A_8_eq]
    rfl
  | n + 1, h => by
    have hN : cfg4.N = 20 := N_4
    have hB : ¬(⟨n + 1, h⟩ : Fin cfg4.N).val % 20 = 0 := by dsimp only; omega
    rw [outsAt4_B V c ⟨n + 1, h⟩ hB]
    unfold outLater4
    rw [out4_B_6_eq, out4_B_7_eq, out4_B_8_eq]
    show (actBlk4 V c ⟨n + 1, h⟩, k4_pay1 (k4_pay6 (outsAt4 V c n _).2.1) _, k4_pay2 _ (outsAt4 V c n _).2.2) = _
    rw [outsAt4_eq c n]
    rfl

end Cert.KernelIdeal.Hand

end
-- ==== Proof.KI.Final4.lean ====
/-
  Grid region 4: the three output arrays after the run. The activations' array is written back block by block,
  point t's block into rows 5000·t … 5000·t + 4999, and the 20 blocks tile its 100000 rows; so it ends holding the
  table assembled from the blocks. Each accumulator's block is its whole array and is written back once, after the
  last point; so it ends holding the running contents after point 19.
-/
import proofs.«147728_j53334903882348_1_alg».proof.Proof.KI.Value4
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (V : (c : Dev nD) → (b : Ref sig .tc) → Buf (Elt F) ((c : Thread nD τ).loc b))

/-- The last grid point. -/
abbrev last4 : Fin cfg4.N := ⟨19, by rw [show cfg4.N = 20 from N_4]; decide⟩

/-! ## The activations -/

/-- The table assembled from the blocks: row r is row r mod 5000 of block r / 5000. -/
def actArr4 (c : Dev nD) : S100000x128.Idx → Elt F .f32 := fun i =>
  actBlk4 V c ⟨(i 0).val / 5000, by rw [show cfg4.N = 20 from N_4]; have h : (i 0).val < 100000 := (i 0).isLt; omega⟩
    (ValueIdx.ix2 (⟨(i 0).val % 5000, Nat.mod_lt _ (by decide)⟩ : Fin 5000) (⟨(i 1).val, (i 1).isLt⟩ : Fin 128))

/-- The output window's block index at point t is (t, 0). -/
theorem idx_facts4_6 : ∀ t : Fin cfg4.N, win4_6.index t (0 : Fin 2) = t.val ∧ win4_6.index t (1 : Fin 2) = 0 :=
  (by decide +kernel : ∀ t : Fin grid4.N, win4_6.index t (0 : Fin 2) = t.val ∧ win4_6.index t (1 : Fin 2) = 0)

/-- What point t writes back is block t of the assembled table. -/
theorem flushed4_6_eq (c : Dev nD) (t : Fin cfg4.N) :
    (dat4 V c).flushed 6 t = ((cfg4.win 6).blk t).view.read (Elt F) (actArr4 V c) := by
  show (cfg4.win 6).cut (grid4.coords t) ((dat4 V c).after 6 t) = _
  rw [after4_6, outsAt4_eq]
  obtain ⟨e0, e1⟩ := idx_facts4_6 t
  funext j
  show actBlk4 V c t j = actArr4 V c (((cfg4.win 6).blk t).view.emb j)
  unfold actArr4
  have hj0 : (j 0).val < 5000 := (j 0).isLt
  have hj1 : (j 1).val < 128 := (j 1).isLt
  have hE0 : ((((cfg4.win 6).blk t).view.emb j) 0).val = t.val * 5000 + (j 0).val := by
    show win4_6.index t (0 : Fin 2) * 5000 + 1 * (j 0).val = _; rw [e0]; omega
  have hE1 : ((((cfg4.win 6).blk t).view.emb j) 1).val = (j 1).val := by
    show win4_6.index t (1 : Fin 2) * 128 + 1 * (j 1).val = _; rw [e1]; omega
  refine (congr (congrArg (actBlk4 V c) (Fin.ext ?_)) ?_).symm
  · show ((((cfg4.win 6).blk t).view.emb j) 0).val / 5000 = t.val
    omega
  · funext a
    match a with
    | ⟨0, _⟩ => exact Fin.ext (show ((((cfg4.win 6).blk t).view.emb j) 0).val % 5000 = (j 0).val by omega)
    | ⟨1, _⟩ => exact Fin.ext hE1

theorem mem_blk4_6 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v92_0).slice (win4_6.rect t)).set ↔ _
  rw [View.set_slice_whole, Rect.mem_set_unit]
  exact Iff.rfl

/-- The activations' array after the run: the assembled table. -/
theorem final4_6 (c : Dev nD) : (dat4 V c).arrAt 6 cfg4.N = actArr4 V c :=
  (dat4 V c).arrAt_eq_of_cover 6 (actArr4 V c) (fun t _ => flushed4_6_eq V c t) fun i => by
    have hi0 : (i 0).val < 100000 := (i 0).isLt
    have hi1 : (i 1).val < 128 := (i 1).isLt
    refine ⟨⟨(i 0).val / 5000, by rw [show cfg4.N = 20 from N_4]; omega⟩, flush4_6 _, ?_⟩
    rw [mem_blk4_6]
    obtain ⟨e0, e1⟩ := idx_facts4_6 ⟨(i 0).val / 5000, by rw [show cfg4.N = 20 from N_4]; omega⟩
    intro a
    match a with
    | ⟨0, _⟩ =>
      show win4_6.index _ (0 : Fin 2) * 5000 ≤ (i 0).val ∧ (i 0).val < win4_6.index _ (0 : Fin 2) * 5000 + 5000
      rw [e0]; dsimp only; omega
    | ⟨1, _⟩ =>
      show win4_6.index _ (1 : Fin 2) * 128 ≤ (i 1).val ∧ (i 1).val < win4_6.index _ (1 : Fin 2) * 128 + 128
      rw [e1]; omega

/-! ## The two accumulators -/

/-- The one write-back of accumulator 7, after the last point, writes the running contents after point 19: its block
    is its whole 1 × 128 array. -/
theorem flushed4_7_eq (c : Dev nD) (t : Fin cfg4.N) (hf : (cfg4.win 7).flush t = true) :
    (dat4 V c).flushed 7 t = ((cfg4.win 7).blk t).view.read (Elt F) (sumChain4 V c 19 (by rw [show cfg4.N = 20 from N_4]; decide)) := by
  have hN : cfg4.N = 20 := N_4
  have h19 : t.val = 19 := by have := (flush4_7 t).mp hf; have := t.isLt; omega
  obtain rfl : t = last4 := Fin.ext h19
  show (cfg4.win 7).cut (grid4.coords last4) ((dat4 V c).after 7 last4) = _
  rw [after4_7, outsAt4_eq]
  have hz' : (fun a => win4_7.index last4 a * main_v92_1.ty.shape.size a) = fun _ => 0 := funext fun a => by fin_cases a <;> decide
  exact (Memref.read_access_unit_zero (Elt F) main_v92_1 hz' (fun a => by rw [congrFun hz' a]; simp) _).symm

/-- So accumulator 7's array ends holding the running contents after the last point. -/
theorem final4_7 (c : Dev nD) : (dat4 V c).arrAt 7 cfg4.N = sumChain4 V c 19 (by rw [show cfg4.N = 20 from N_4]; decide) :=
  (dat4 V c).arrAt_eq_of_cover 7 _ (flushed4_7_eq V c) fun i =>
    ⟨last4, (flush4_7 last4).mpr rfl, by
      show i ∈ ((View.whole main_v92_1).slice (win4_7.rect last4)).set
      rw [View.set_slice_whole, Rect.mem_set_unit]
      intro a
      have h0 : (i 0 : Nat) < 1 := (i 0).isLt
      have h1 : (i 1 : Nat) < 128 := (i 1).isLt
      match a with
      | ⟨0, _⟩ => show win4_7.index last4 0 * win4_7.size 0 ≤ (i 0 : Nat) ∧ (i 0 : Nat) < win4_7.index last4 0 * win4_7.size 0 + win4_7.xsize (grid4.coords last4) 0
                  rw [show win4_7.index last4 0 * win4_7.size 0 = 0 from by decide +kernel, show win4_7.xsize (grid4.coords last4) 0 = 1 from by decide +kernel]; omega
      | ⟨1, _⟩ => show win4_7.index last4 1 * win4_7.size 1 ≤ (i 1 : Nat) ∧ (i 1 : Nat) < win4_7.index last4 1 * win4_7.size 1 + win4_7.xsize (grid4.coords last4) 1
                  rw [show win4_7.index last4 1 * win4_7.size 1 = 0 from by decide +kernel, show win4_7.xsize (grid4.coords last4) 1 = 128 from by decide +kernel]; omega⟩

/-- The one write-back of accumulator 8, after the last point, writes the running contents after point 19: its block
    is its whole 1 × 128 array. -/
theorem flushed4_8_eq (c : Dev nD) (t : Fin cfg4.N) (hf : (cfg4.win 8).flush t = true) :
    (dat4 V c).flushed 8 t = ((cfg4.win 8).blk t).view.read (Elt F) (sqChain4 V c 19 (by rw [show cfg4.N = 20 from N_4]; decide)) := by
  have hN : cfg4.N = 20 := N_4
  have h19 : t.val = 19 := by have := (flush4_8 t).mp hf; have := t.isLt; omega
  obtain rfl : t = last4 := Fin.ext h19
  show (cfg4.win 8).cut (grid4.coords last4) ((dat4 V c).after 8 last4) = _
  rw [after4_8, outsAt4_eq]
  have hz' : (fun a => win4_8.index last4 a * main_v92_2.ty.shape.size a) = fun _ => 0 := funext fun a => by fin_cases a <;> decide
  exact (Memref.read_access_unit_zero (Elt F) main_v92_2 hz' (fun a => by rw [congrFun hz' a]; simp) _).symm

/-- So accumulator 8's array ends holding the running contents after the last point. -/
theorem final4_8 (c : Dev nD) : (dat4 V c).arrAt 8 cfg4.N = sqChain4 V c 19 (by rw [show cfg4.N = 20 from N_4]; decide) :=
  (dat4 V c).arrAt_eq_of_cover 8 _ (flushed4_8_eq V c) fun i =>
    ⟨last4, (flush4_8 last4).mpr rfl, by
      show i ∈ ((View.whole main_v92_2).slice (win4_8.rect last4)).set
      rw [View.set_slice_whole, Rect.mem_set_unit]
      intro a
      have h0 : (i 0 : Nat) < 1 := (i 0).isLt
      have h1 : (i 1 : Nat) < 128 := (i 1).isLt
      match a with
      | ⟨0, _⟩ => show win4_8.index last4 0 * win4_8.size 0 ≤ (i 0 : Nat) ∧ (i 0 : Nat) < win4_8.index last4 0 * win4_8.size 0 + win4_8.xsize (grid4.coords last4) 0
                  rw [show win4_8.index last4 0 * win4_8.size 0 = 0 from by decide +kernel, show win4_8.xsize (grid4.coords last4) 0 = 1 from by decide +kernel]; omega
      | ⟨1, _⟩ => show win4_8.index last4 1 * win4_8.size 1 ≤ (i 1 : Nat) ∧ (i 1 : Nat) < win4_8.index last4 1 * win4_8.size 1 + win4_8.xsize (grid4.coords last4) 1
                  rw [show win4_8.index last4 1 * win4_8.size 1 = 0 from by decide +kernel, show win4_8.xsize (grid4.coords last4) 1 = 128 from by decide +kernel]; omega⟩

end Cert.KernelIdeal.Hand

end
-- ==== Proof.KI.Bounds.lean ====
/-
  Which buffers keep their contents across which segments of the run, and what the regions' output arrays hold
  at their exit boundaries. An argument array is never written, so at every boundary it holds its launch
  contents; a layer's output array is only read after it is written, so it reaches the return unchanged; a
  statistics region's three output arrays hold the assembled activations and the two totals; a normalisation
  region's output array holds what its write-backs compose.
-/
import proofs.«147728_j53334903882348_1_alg».proof.Proof.KI.Run
import proofs.«147728_j53334903882348_1_alg».proof.Proof.KI.Final0
import proofs.«147728_j53334903882348_1_alg».proof.Proof.KI.Final2
import proofs.«147728_j53334903882348_1_alg».proof.Proof.KI.Final4

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

theorem W2_main_arg0_from0 (c : Dev nD) : W2 m ρ c (Proc.devRef .tc main_arg0) = W0 m ρ c (Proc.devRef .tc main_arg0) :=
  calc W2 m ρ c (Proc.devRef .tc main_arg0)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)

theorem W2_main_arg1_from0 (c : Dev nD) : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)

theorem W2_main_arg2_from0 (c : Dev nD) : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)

theorem W2_main_arg3_from0 (c : Dev nD) : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)

theorem W2_main_arg4_from0 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)

theorem W2_main_arg5_from0 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)

theorem W2_main_arg6_from0 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem W2_main_arg7_from0 (c : Dev nD) : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

theorem W4_main_arg0_from0 (c : Dev nD) : W4 m ρ c (Proc.devRef .tc main_arg0) = W0 m ρ c (Proc.devRef .tc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)

theorem W4_main_arg1_from0 (c : Dev nD) : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)

theorem W4_main_arg2_from0 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)

theorem W4_main_arg3_from0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)

theorem W4_main_arg4_from0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)

theorem W4_main_arg5_from0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)

theorem W4_main_arg6_from0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem W4_main_arg7_from0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

theorem W6_main_arg0_from0 (c : Dev nD) : W6 m ρ c (Proc.devRef .tc main_arg0) = W0 m ρ c (Proc.devRef .tc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)

theorem W6_main_arg1_from0 (c : Dev nD) : W6 m ρ c (Proc.devRef .tc main_arg1) = W0 m ρ c (Proc.devRef .tc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)

theorem W6_main_arg2_from0 (c : Dev nD) : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)

theorem W6_main_arg3_from0 (c : Dev nD) : W6 m ρ c (Proc.devRef .tc main_arg3) = W0 m ρ c (Proc.devRef .tc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)

theorem W6_main_arg4_from0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)

theorem W6_main_arg5_from0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)

theorem W6_main_arg6_from0 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem W6_main_arg7_from0 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

theorem W8_main_arg0_from0 (c : Dev nD) : W8 m ρ c (Proc.devRef .tc main_arg0) = W0 m ρ c (Proc.devRef .tc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)

theorem W8_main_arg1_from0 (c : Dev nD) : W8 m ρ c (Proc.devRef .tc main_arg1) = W0 m ρ c (Proc.devRef .tc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)

theorem W8_main_arg2_from0 (c : Dev nD) : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)

theorem W8_main_arg3_from0 (c : Dev nD) : W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)

theorem W8_main_arg4_from0 (c : Dev nD) : W8 m ρ c (Proc.devRef .tc main_arg4) = W0 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)

theorem W8_main_arg5_from0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)

theorem W8_main_arg6_from0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem W8_main_arg7_from0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

theorem W10_main_arg0_from0 (c : Dev nD) : W10 m ρ c (Proc.devRef .tc main_arg0) = W0 m ρ c (Proc.devRef .tc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps4 _ hostOps4_writes (by decide : main_arg0 ∉ hostOps4_W)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide : main_arg0 ∉ hostOps0_W)

theorem W10_main_arg1_from0 (c : Dev nD) : W10 m ρ c (Proc.devRef .tc main_arg1) = W0 m ρ c (Proc.devRef .tc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps4 _ hostOps4_writes (by decide : main_arg1 ∉ hostOps4_W)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)

theorem W10_main_arg2_from0 (c : Dev nD) : W10 m ρ c (Proc.devRef .tc main_arg2) = W0 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps4 _ hostOps4_writes (by decide : main_arg2 ∉ hostOps4_W)
    _ = W7 m ρ c (Proc.devRef .tc main_arg2) := W8_of_ne m ρ c main_arg2 (by decide)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)

theorem W10_main_arg3_from0 (c : Dev nD) : W10 m ρ c (Proc.devRef .tc main_arg3) = W0 m ρ c (Proc.devRef .tc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps4 _ hostOps4_writes (by decide : main_arg3 ∉ hostOps4_W)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)

theorem W10_main_arg4_from0 (c : Dev nD) : W10 m ρ c (Proc.devRef .tc main_arg4) = W0 m ρ c (Proc.devRef .tc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps4 _ hostOps4_writes (by decide : main_arg4 ∉ hostOps4_W)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)

theorem W10_main_arg5_from0 (c : Dev nD) : W10 m ρ c (Proc.devRef .tc main_arg5) = W0 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps4 _ hostOps4_writes (by decide : main_arg5 ∉ hostOps4_W)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)

theorem W10_main_arg6_from0 (c : Dev nD) : W10 m ρ c (Proc.devRef .tc main_arg6) = W0 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_writes_sub hostOps4 _ hostOps4_writes (by decide : main_arg6 ∉ hostOps4_W)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)

theorem W10_main_arg7_from0 (c : Dev nD) : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_writes_sub hostOps4 _ hostOps4_writes (by decide : main_arg7 ∉ hostOps4_W)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)

theorem W12_main_v37_from4 (c : Dev nD) : W12 m ρ c (Proc.devRef .tc main_v37) = W4 m ρ c (Proc.devRef .tc main_v37) :=
  calc W12 m ρ c (Proc.devRef .tc main_v37)
    _ = W11 m ρ c (Proc.devRef .tc main_v37) := W12_of_ne m ρ c main_v37 (by decide)
    _ = W10 m ρ c (Proc.devRef .tc main_v37) := StableHlo.after_of_writes_sub hostOps5 _ hostOps5_writes (by decide : main_v37 ∉ hostOps5_W)
    _ = W9 m ρ c (Proc.devRef .tc main_v37) := W10_of_ne m ρ c main_v37 (by decide)
    _ = W8 m ρ c (Proc.devRef .tc main_v37) := StableHlo.after_of_writes_sub hostOps4 _ hostOps4_writes (by decide : main_v37 ∉ hostOps4_W)
    _ = W7 m ρ c (Proc.devRef .tc main_v37) := W8_of_ne m ρ c main_v37 (by decide)
    _ = W6 m ρ c (Proc.devRef .tc main_v37) := StableHlo.after_of_writes_sub hostOps3 _ hostOps3_writes (by decide : main_v37 ∉ hostOps3_W)
    _ = W5 m ρ c (Proc.devRef .tc main_v37) := (W6_arr m ρ c 1).trans (((dat2 (V5 m ρ) c).arrAt_in 1 rfl _).trans (A_eq2 (V5 m ρ) c 1))
    _ = W4 m ρ c (Proc.devRef .tc main_v37) := StableHlo.after_of_writes_sub hostOps2 _ hostOps2_writes (by decide : main_v37 ∉ hostOps2_W)

theorem W12_main_v71_from8 (c : Dev nD) : W12 m ρ c (Proc.devRef .tc main_v71) = W8 m ρ c (Proc.devRef .tc main_v71) :=
  calc W12 m ρ c (Proc.devRef .tc main_v71)
    _ = W11 m ρ c (Proc.devRef .tc main_v71) := W12_of_ne m ρ c main_v71 (by decide)
    _ = W10 m ρ c (Proc.devRef .tc main_v71) := StableHlo.after_of_writes_sub hostOps5 _ hostOps5_writes (by decide : main_v71 ∉ hostOps5_W)
    _ = W9 m ρ c (Proc.devRef .tc main_v71) := (W10_arr m ρ c 1).trans (((dat4 (V9 m ρ) c).arrAt_in 1 rfl _).trans (A_eq4 (V9 m ρ) c 1))
    _ = W8 m ρ c (Proc.devRef .tc main_v71) := StableHlo.after_of_writes_sub hostOps4 _ hostOps4_writes (by decide : main_v71 ∉ hostOps4_W)

theorem W4_main_v1_from1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps1 _ hostOps1_writes (by decide : main_v1 ∉ hostOps1_W)
    _ = W1 m ρ c (Proc.devRef .tc main_v1) := W2_of_ne m ρ c main_v1 (by decide)

theorem W8_main_v1_from1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_writes_sub hostOps3 _ hostOps3_writes (by decide : main_v1 ∉ hostOps3_W)
    _ = W5 m ρ c (Proc.devRef .tc main_v1) := W6_of_ne m ρ c main_v1 (by decide)
    _ = W4 m ρ c (Proc.devRef .tc main_v1) := StableHlo.after_of_writes_sub hostOps2 _ hostOps2_writes (by decide : main_v1 ∉ hostOps2_W)
    _ = W3 m ρ c (Proc.devRef .tc main_v1) := W4_of_ne m ρ c main_v1 (by decide)
    _ = W2 m ρ c (Proc.devRef .tc main_v1) := StableHlo.after_of_writes_sub hostOps1 _ hostOps1_writes (by decide : main_v1 ∉ hostOps1_W)
    _ = W1 m ρ c (Proc.devRef .tc main_v1) := W2_of_ne m ρ c main_v1 (by decide)

theorem W4_main_v3_from1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_writes_sub hostOps1 _ hostOps1_writes (by decide : main_v3 ∉ hostOps1_W)
    _ = W1 m ρ c (Proc.devRef .tc main_v3) := W2_of_ne m ρ c main_v3 (by decide)

theorem W8_main_v3_from1 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_writes_sub hostOps3 _ hostOps3_writes (by decide : main_v3 ∉ hostOps3_W)
    _ = W5 m ρ c (Proc.devRef .tc main_v3) := W6_of_ne m ρ c main_v3 (by decide)
    _ = W4 m ρ c (Proc.devRef .tc main_v3) := StableHlo.after_of_writes_sub hostOps2 _ hostOps2_writes (by decide : main_v3 ∉ hostOps2_W)
    _ = W3 m ρ c (Proc.devRef .tc main_v3) := W4_of_ne m ρ c main_v3 (by decide)
    _ = W2 m ρ c (Proc.devRef .tc main_v3) := StableHlo.after_of_writes_sub hostOps1 _ hostOps1_writes (by decide : main_v3 ∉ hostOps1_W)
    _ = W1 m ρ c (Proc.devRef .tc main_v3) := W2_of_ne m ρ c main_v3 (by decide)

/-- Region 0's output 6 at its exit boundary. -/
theorem W2_main_v24_0 (c : Dev nD) : W2 m ρ c (Proc.devRef .tc main_v24_0) = actArr0 (V1 m ρ) c :=
  (W2_arr m ρ c 6).trans (final0_6 (V1 m ρ) c)

/-- Region 0's output 7 at its exit boundary. -/
theorem W2_main_v24_1 (c : Dev nD) : W2 m ρ c (Proc.devRef .tc main_v24_1) = sumChain0 (V1 m ρ) c 19 (by rw [show cfg0.N = 20 from N_0]; decide) :=
  (W2_arr m ρ c 7).trans (final0_7 (V1 m ρ) c)

/-- Region 0's output 8 at its exit boundary. -/
theorem W2_main_v24_2 (c : Dev nD) : W2 m ρ c (Proc.devRef .tc main_v24_2) = sqChain0 (V1 m ρ) c 19 (by rw [show cfg0.N = 20 from N_0]; decide) :=
  (W2_arr m ρ c 8).trans (final0_8 (V1 m ρ) c)

/-- Region 2's output 6 at its exit boundary. -/
theorem W6_main_v58_0 (c : Dev nD) : W6 m ρ c (Proc.devRef .tc main_v58_0) = actArr2 (V5 m ρ) c :=
  (W6_arr m ρ c 6).trans (final2_6 (V5 m ρ) c)

/-- Region 2's output 7 at its exit boundary. -/
theorem W6_main_v58_1 (c : Dev nD) : W6 m ρ c (Proc.devRef .tc main_v58_1) = sumChain2 (V5 m ρ) c 19 (by rw [show cfg2.N = 20 from N_2]; decide) :=
  (W6_arr m ρ c 7).trans (final2_7 (V5 m ρ) c)

/-- Region 2's output 8 at its exit boundary. -/
theorem W6_main_v58_2 (c : Dev nD) : W6 m ρ c (Proc.devRef .tc main_v58_2) = sqChain2 (V5 m ρ) c 19 (by rw [show cfg2.N = 20 from N_2]; decide) :=
  (W6_arr m ρ c 8).trans (final2_8 (V5 m ρ) c)

/-- Region 4's output 6 at its exit boundary. -/
theorem W10_main_v92_0 (c : Dev nD) : W10 m ρ c (Proc.devRef .tc main_v92_0) = actArr4 (V9 m ρ) c :=
  (W10_arr m ρ c 6).trans (final4_6 (V9 m ρ) c)

/-- Region 4's output 7 at its exit boundary. -/
theorem W10_main_v92_1 (c : Dev nD) : W10 m ρ c (Proc.devRef .tc main_v92_1) = sumChain4 (V9 m ρ) c 19 (by rw [show cfg4.N = 20 from N_4]; decide) :=
  (W10_arr m ρ c 7).trans (final4_7 (V9 m ρ) c)

/-- Region 4's output 8 at its exit boundary. -/
theorem W10_main_v92_2 (c : Dev nD) : W10 m ρ c (Proc.devRef .tc main_v92_2) = sqChain4 (V9 m ρ) c 19 (by rw [show cfg4.N = 20 from N_4]; decide) :=
  (W10_arr m ρ c 8).trans (final4_8 (V9 m ρ) c)

/-- Region 1's output at its exit boundary: what the pipeline's write-backs compose. -/
theorem W4_main_v37 (c : Dev nD) : W4 m ρ c (Proc.devRef .tc main_v37) = (dat1 (V3 m ρ) c).arrAt 5 cfg1.N :=
  W4_arr m ρ c 5

/-- Region 3's output at its exit boundary: what the pipeline's write-backs compose. -/
theorem W8_main_v71 (c : Dev nD) : W8 m ρ c (Proc.devRef .tc main_v71) = (dat3 (V7 m ρ) c).arrAt 5 cfg3.N :=
  W8_arr m ρ c 5

/-- Region 5's output at its exit boundary: what the pipeline's write-backs compose. -/
theorem W12_main_v105 (c : Dev nD) : W12 m ρ c (Proc.devRef .tc main_v105) = (dat5 (V11 m ρ) c).arrAt 5 cfg5.N :=
  W12_arr m ρ c 5

end Cert.KernelIdeal.Hand

end
-- ==== Proof.BatchNormAlgebra.lean ====
/-
  The mathematics that joins the two programs, over the extended reals, with no program in sight.

  Both programs normalise each of the 128 columns of a 100000-row table of rectified activations `z`
  by the column's mean and variance over the rows. One computes the variance as the mean of the squares
  minus the square of the mean, the other as the mean of the squared deviations from the mean. Over the
  real numbers these agree: with μ = (Σ z)/n, (Σ (z - μ)²)/n = (Σ z²)/n - 2μ(Σ z)/n + μ² = (Σ z²)/n - μ².
  Over the extended reals the identity needs every entry to be a real number (at an infinity the
  distributive law fails), so each statement carries that hypothesis, and each function below is shown
  to send tables of reals to tables of reals, so that the hypothesis passes from one layer to the next.
-/
import Mathlib
import Idealize.ShloMosaic.PureOps.Ideal
import Idealize.ShloMosaic.PureOps.Ideal.Laws

noncomputable section

namespace Cert.BatchNormAlgebra

open Idealize.ShloMosaic

/-- A table all of whose entries are real numbers. -/
def IsReal {ι : Type} (f : ι → EReal) : Prop := ∀ i, ∃ x : ℝ, f i = (x : EReal)

/-- The column mean: the sum of the column divided (the ideal division) by `N`. -/
def mean {n : ℕ} (N : EReal) (z : Fin n → EReal) : EReal := Ideal.div (∑ r, z r) N

/-- The variance as the mean of the squares minus the square of the mean. -/
def varOfSquares {n : ℕ} (N : EReal) (z : Fin n → EReal) : EReal :=
  Ideal.div (∑ r, z r * z r) N - mean N z * mean N z

/-- The variance as the mean of the squared deviations from the mean. -/
def varOfDeviations {n : ℕ} (N : EReal) (z : Fin n → EReal) : EReal :=
  Ideal.div (∑ r, (z r - mean N z) * (z r - mean N z)) N

/-- The coercion of a finite sum of real numbers is the sum of the coercions. -/
theorem coe_sum {ι : Type} (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-- A table of real numbers is the coercion of a real table. -/
theorem IsReal.exists_eq {ι : Type} {f : ι → EReal} (hf : IsReal f) :
    ∃ x : ι → ℝ, f = fun i => (x i : EReal) := by
  choose x hx using hf
  exact ⟨x, funext hx⟩

/-- The mean of a coerced real column is the coercion of the real mean. -/
theorem mean_coe {n : ℕ} (hn : 0 < n) (x : Fin n → ℝ) :
    mean ((n : ℝ) : EReal) (fun r => (x r : EReal)) = (((∑ r, x r) * (1 / (n : ℝ)) : ℝ) : EReal) := by
  have hn' : (n : ℝ) ≠ 0 := Nat.cast_ne_zero.mpr (Nat.pos_iff_ne_zero.mp hn)
  unfold mean
  rw [Ideal.div_coe hn', ← coe_sum, ← EReal.coe_mul]

/-- The variance by squares of a coerced real column, as the coercion of a real expression. -/
theorem varOfSquares_coe {n : ℕ} (hn : 0 < n) (x : Fin n → ℝ) :
    varOfSquares ((n : ℝ) : EReal) (fun r => (x r : EReal)) =
      (((∑ r, x r * x r) * (1 / (n : ℝ))
        - (∑ r, x r) * (1 / (n : ℝ)) * ((∑ r, x r) * (1 / (n : ℝ))) : ℝ) : EReal) := by
  have hn' : (n : ℝ) ≠ 0 := Nat.cast_ne_zero.mpr (Nat.pos_iff_ne_zero.mp hn)
  unfold varOfSquares
  rw [mean_coe hn, Ideal.div_coe hn']
  simp only [← EReal.coe_mul]
  rw [← coe_sum, ← EReal.coe_mul, ← EReal.coe_sub]

/-- The variance by deviations of a coerced real column, as the coercion of a real expression. -/
theorem varOfDeviations_coe {n : ℕ} (hn : 0 < n) (x : Fin n → ℝ) :
    varOfDeviations ((n : ℝ) : EReal) (fun r => (x r : EReal)) =
      (((∑ r, (x r - (∑ r, x r) * (1 / (n : ℝ))) * (x r - (∑ r, x r) * (1 / (n : ℝ))))
        * (1 / (n : ℝ)) : ℝ) : EReal) := by
  have hn' : (n : ℝ) ≠ 0 := Nat.cast_ne_zero.mpr (Nat.pos_iff_ne_zero.mp hn)
  unfold varOfDeviations
  rw [mean_coe hn, Ideal.div_coe hn']
  simp only [← EReal.coe_sub, ← EReal.coe_mul]
  rw [← coe_sum, ← EReal.coe_mul]

/-- The two variances of a column of real numbers agree, when `N` is the number of rows. -/
theorem varOfSquares_eq_varOfDeviations {n : ℕ} (hn : 0 < n) (z : Fin n → EReal) (hz : IsReal z) :
    varOfSquares ((n : ℝ) : EReal) z = varOfDeviations ((n : ℝ) : EReal) z := by
  obtain ⟨x, rfl⟩ := hz.exists_eq
  have hn' : (n : ℝ) ≠ 0 := Nat.cast_ne_zero.mpr (Nat.pos_iff_ne_zero.mp hn)
  rw [varOfSquares_coe hn, varOfDeviations_coe hn]
  congr 1
  -- a real identity: with μ = (Σ x)/n, Σ (x - μ)² = Σ x² - 2 μ Σ x + n μ²
  set μ : ℝ := (∑ r, x r) * (1 / (n : ℝ)) with hμ
  have key : (∑ r, (x r - μ) * (x r - μ))
      = (∑ r, x r * x r) - 2 * μ * (∑ r, x r) + (n : ℝ) * (μ * μ) := by
    have h : ∀ r, (x r - μ) * (x r - μ) = x r * x r - 2 * μ * x r + μ * μ := fun r => by ring
    simp only [h, Finset.sum_add_distrib, Finset.sum_sub_distrib, ← Finset.mul_sum,
      Finset.sum_const, Finset.card_univ, Fintype.card_fin, nsmul_eq_mul]
    ring
  rw [key, hμ]
  field_simp
  ring

/-- The variance of a column of real numbers is a nonnegative real number. -/
theorem varOfDeviations_real {n : ℕ} (hn : 0 < n) (z : Fin n → EReal) (hz : IsReal z) :
    ∃ v : ℝ, 0 ≤ v ∧ varOfDeviations ((n : ℝ) : EReal) z = (v : EReal) := by
  obtain ⟨x, rfl⟩ := hz.exists_eq
  refine ⟨_, ?_, varOfDeviations_coe hn x⟩
  exact mul_nonneg (Finset.sum_nonneg (fun r _ => mul_self_nonneg _)) (by positivity)

/-- The mean of a column of real numbers is a real number. -/
theorem mean_real {n : ℕ} (hn : 0 < n) (z : Fin n → EReal) (hz : IsReal z) :
    ∃ v : ℝ, mean ((n : ℝ) : EReal) z = (v : EReal) := by
  obtain ⟨x, rfl⟩ := hz.exists_eq
  exact ⟨_, mean_coe hn x⟩

/-- The normalised entry `(x - μ) · rsqrt(v + ε) · γ + β` is a real number when `x μ γ β` are real,
    `v` is a nonnegative real and `ε` a positive real. -/
theorem normalised_real (x μ v ε γ β : ℝ) (hv : 0 ≤ v) (hε : 0 < ε) :
    ∃ y : ℝ, ((x : EReal) - μ) * Ideal.rsqrt ((v : EReal) + ε) * γ + β = (y : EReal) := by
  have h : 0 < v + ε := by linarith
  refine ⟨(x - μ) * (Real.sqrt (v + ε))⁻¹ * γ + β, ?_⟩
  rw [← EReal.coe_add v ε, Ideal.rsqrt_coe, if_neg (not_lt.mpr h.le), if_neg h.ne']
  rw [← EReal.coe_sub, ← EReal.coe_mul, ← EReal.coe_mul, ← EReal.coe_add]

/-- A finite sum of real numbers is a real number. -/
theorem sum_real {ι : Type} [Fintype ι] (f : ι → EReal) (hf : IsReal f) : ∃ x : ℝ, ∑ i, f i = (x : EReal) := by
  obtain ⟨x, rfl⟩ := hf.exists_eq
  exact ⟨∑ i, x i, (coe_sum Finset.univ x).symm⟩

/-- One rectified affine unit `max (Σ_l u l · w l + b) 0` of real numbers is a real number. -/
theorem relu_affine_real {ι : Type} [Fintype ι] (u w : ι → EReal) (b : EReal) (hu : IsReal u) (hw : IsReal w)
    (hb : ∃ x : ℝ, b = (x : EReal)) : ∃ y : ℝ, max ((∑ l, u l * w l) + b) 0 = (y : EReal) := by
  obtain ⟨u', rfl⟩ := hu.exists_eq
  obtain ⟨w', rfl⟩ := hw.exists_eq
  obtain ⟨b', rfl⟩ := hb
  refine ⟨max ((∑ l, u' l * w' l) + b') 0, ?_⟩
  simp only [← EReal.coe_mul]
  rw [← coe_sum, ← EReal.coe_add, ← EReal.coe_zero]
  -- the coercion is monotone, so it commutes with max
  exact (EReal.coe_strictMono.monotone.map_max).symm

/-- The float word of one hundred thousand denotes the real number 100000. -/
theorem ofBits_100000 : Ideal.ofBits .f32 0x47C35000#32 = ((100000 : ℝ) : EReal) := by
  -- sign 0, exponent field 143, fraction field 4411392: (2^23 + 4411392) · 2^(143 - 127 - 23) = 12800000 / 128
  simp [Ideal.ofBits, Ideal.ieee]
  rw [← EReal.coe_mul]
  norm_num

/-- The float word of the stabiliser ε (the nearest binary32 to 1e-5) denotes a positive real number. -/
theorem ofBits_eps_pos : ∃ ε : ℝ, 0 < ε ∧ Ideal.ofBits .f32 0x3727C5AC#32 = (ε : EReal) := by
  -- sign 0, exponent field 110, fraction field 2606508: (2^23 + 2606508) · 2^(110 - 127 - 23) = 10995116 · 2^(-40)
  refine ⟨(10995116 : ℝ) * (2 : ℝ) ^ (-40 : ℤ), by positivity, ?_⟩
  simp [Ideal.ofBits, Ideal.ieee]

/-- A sum over `a * b` rows is the sum over `a` blocks of the sums over the `b` rows of each block. -/
theorem sum_blocks {a b : ℕ} (f : Fin (a * b) → EReal) :
    ∑ r, f r = ∑ t : Fin a, ∑ s : Fin b, f ⟨t.val * b + s.val, by
      calc t.val * b + s.val < t.val * b + b := by omega
        _ = (t.val + 1) * b := by ring
        _ ≤ a * b := Nat.mul_le_mul_right b t.isLt⟩ := by
  -- rows of Fin (a * b) correspond to pairs (block, row in block), the pair (t, s) to row s + b * t
  rw [← (finProdFinEquiv (m := a) (n := b)).sum_comp f, Fintype.sum_prod_type]
  refine Finset.sum_congr rfl (fun t _ => Finset.sum_congr rfl (fun s _ => ?_))
  congr 1
  apply Fin.ext
  simp only [finProdFinEquiv, Equiv.coe_fn_mk]
  ring

end Cert.BatchNormAlgebra

end
-- ==== Proof.LayerSpec.lean ====
/-
  One layer of the network, index by index, over the extended reals, with no program in sight.

  A layer takes the node features `h` (100000 rows of 128 columns) and the neighbour sums `a` (same shape),
  forms `u = a + h`, applies a two-layer perceptron with rectifiers row by row,
      hidden r k = max (Σ_l u r l · W1 l k + b1 k) 0,     z r j = max (Σ_k hidden r k · W2 k j + b2 j) 0,
  and normalises every column of `z` by its mean and variance over the 100000 rows,
      out r j = (z r j - mean_j) · rsqrt (var_j + ε) · γ j + β j.
  The variance is stated in its two forms (mean of squares minus squared mean; mean of squared deviations);
  BatchNormAlgebra proves them equal on tables of real numbers. The row count and ε are kept as the float
  words the programs print.
-/
import proofs.«147728_j53334903882348_1_alg».proof.Proof.BatchNormAlgebra

noncomputable section

namespace Cert.LayerSpec

open Idealize.ShloMosaic Cert.BatchNormAlgebra

/-- A table of `n` rows and 128 columns. -/
abbrev Tab (n : ℕ) := Fin n → Fin 128 → EReal

/-- The row count 100000 as the programs print it. -/
def rows : EReal := Ideal.ofBits .f32 0x47C35000#32
/-- The stabiliser ε as the programs print it. -/
def eps : EReal := Ideal.ofBits .f32 0x3727C5AC#32

/-- The hidden unit `k` of row `r`. -/
def hidden {n : ℕ} (u : Tab n) (W1 : Fin 128 → Fin 128 → EReal) (b1 : Fin 128 → EReal) (r : Fin n) (k : Fin 128) : EReal :=
  max ((∑ l : Fin 128, u r l * W1 l k) + b1 k) 0

/-- The rectified activation `z r j`. -/
def act {n : ℕ} (u : Tab n) (W1 : Fin 128 → Fin 128 → EReal) (b1 : Fin 128 → EReal) (W2 : Fin 128 → Fin 128 → EReal)
    (b2 : Fin 128 → EReal) (r : Fin n) (j : Fin 128) : EReal :=
  max ((∑ k : Fin 128, hidden u W1 b1 r k * W2 k j) + b2 j) 0

/-- Column `j` of a table. -/
def col {n : ℕ} (z : Tab n) (j : Fin 128) : Fin n → EReal := fun r => z r j

/-- The normalised entry, given the column's mean `μ` and variance `v`. -/
def normWith (x μ v g b : EReal) : EReal := (x - μ) * Ideal.rsqrt (v + eps) * g + b

/-- The normalised table with the variance taken as the mean of the squared deviations. -/
def normDev {n : ℕ} (z : Tab n) (g b : Fin 128 → EReal) (r : Fin n) (j : Fin 128) : EReal :=
  normWith (z r j) (mean rows (col z j)) (varOfDeviations rows (col z j)) (g j) (b j)

/-- The normalised table with the variance taken as the mean of the squares minus the squared mean. -/
def normSq {n : ℕ} (z : Tab n) (g b : Fin 128 → EReal) (r : Fin n) (j : Fin 128) : EReal :=
  normWith (z r j) (mean rows (col z j)) (varOfSquares rows (col z j)) (g j) (b j)

/-- A table all of whose entries are real numbers. -/
def TabReal {n : ℕ} (z : Tab n) : Prop := ∀ r j, ∃ x : ℝ, z r j = (x : EReal)
/-- A matrix, a row all of whose entries are real numbers. -/
def MatReal (W : Fin 128 → Fin 128 → EReal) : Prop := ∀ l k, ∃ x : ℝ, W l k = (x : EReal)
def RowReal (b : Fin 128 → EReal) : Prop := ∀ k, ∃ x : ℝ, b k = (x : EReal)

/-- The printed row count is the real number 100000, the cast of the natural number 100000. -/
theorem rows_eq : rows = (((100000 : ℕ) : ℝ) : EReal) := by
  rw [rows, ofBits_100000, Nat.cast_ofNat]

/-- On a table of 100000 rows of real numbers the two normalisations agree. -/
theorem normSq_eq_normDev (z : Tab 100000) (hz : TabReal z) (g b : Fin 128 → EReal) : normSq z g b = normDev z g b := by
  funext r j
  unfold normSq normDev
  -- the two variances of column j agree, the column being real and the row count being 100000
  rw [rows_eq, varOfSquares_eq_varOfDeviations (by norm_num) (col z j) (fun r => hz r j)]

/-- The activations of real inputs are real. -/
theorem act_real {n : ℕ} (u : Tab n) (W1 : Fin 128 → Fin 128 → EReal) (b1 : Fin 128 → EReal) (W2 : Fin 128 → Fin 128 → EReal)
    (b2 : Fin 128 → EReal) (hu : TabReal u) (hW1 : MatReal W1) (hb1 : RowReal b1) (hW2 : MatReal W2) (hb2 : RowReal b2) :
    TabReal (act u W1 b1 W2 b2) := by
  intro r j
  unfold act
  -- a rectified affine unit of rectified affine units
  exact relu_affine_real (fun k => hidden u W1 b1 r k) (fun k => W2 k j) (b2 j)
    (fun k => relu_affine_real (fun l => u r l) (fun l => W1 l k) (b1 k)
      (fun l => hu r l) (fun l => hW1 l k) (hb1 k))
    (fun k => hW2 k j) (hb2 j)

/-- The normalised table of a real table of 100000 rows, with real scale and shift, is real. -/
theorem normDev_real (z : Tab 100000) (hz : TabReal z) (g b : Fin 128 → EReal) (hg : RowReal g) (hb : RowReal b) :
    TabReal (normDev z g b) := by
  intro r j
  have hcol : IsReal (col z j) := fun r => hz r j
  obtain ⟨μ, hμ⟩ := mean_real (by norm_num) (col z j) hcol
  obtain ⟨v, hv0, hv⟩ := varOfDeviations_real (by norm_num) (col z j) hcol
  obtain ⟨ε, hε0, hε⟩ := ofBits_eps_pos
  obtain ⟨x, hx⟩ := hz r j
  obtain ⟨γ, hγ⟩ := hg j
  obtain ⟨β, hβ⟩ := hb j
  have heps : eps = (ε : EReal) := hε
  unfold normDev normWith
  rw [rows_eq, hμ, hv, hx, hγ, hβ, heps]
  exact normalised_real x μ v ε γ β hv0 hε0

/-- The sum of two real tables is real. -/
theorem add_real {n : ℕ} (a h : Tab n) (ha : TabReal a) (hh : TabReal h) : TabReal (fun r l => a r l + h r l) := by
  intro r l
  obtain ⟨x, hx⟩ := ha r l
  obtain ⟨y, hy⟩ := hh r l
  refine ⟨x + y, ?_⟩
  show a r l + h r l = _
  rw [hx, hy, EReal.coe_add]

end Cert.LayerSpec

end
-- ==== Proof.RefLayers.lean ====
/-
  The reference's three layers as ONE function of whole arrays, iterated, and that function read index by index.

  A layer of the reference takes the node table h (100000 rows of 128 columns) and the edge list (two rows of
  600000 node numbers: sources and destinations). It sums, into each destination row, the rows of h at the sources
  of the edges that end there (a source number below zero is first raised by 100000, as array indexing from the
  end does, and is then clamped into the table), adds h, applies the two-layer perceptron with rectifiers row by
  row, and normalises every column by its mean and by the mean of its squared deviations over the 100000 rows.
  The three layers differ only in the slice of the stacked parameters they read and in their input: the first
  reads the argument, each later one the previous layer's output.
-/
import proofs.«147728_j53334903882348_1_alg».proof.Proof.Gen.ReferenceIdeal.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StackMember
import proofs.«147728_j53334903882348_1_alg».proof.Proof.LayerSpec

noncomputable section

namespace Cert.RefLayers

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- A table of 100000 rows and 128 columns. -/
abbrev Tab := FVec Ideal S100000x128 .f32
/-- The edge list: row 0 the sources, row 1 the destinations. -/
abbrev Edges := IVec S2x600000 32
/-- A 128 by 128 matrix, a row of 128 entries, and their stacks over the three layers. -/
abbrev Mat := FVec Ideal S128x128 .f32
abbrev Row := FVec Ideal S128 .f32
abbrev Mats := FVec Ideal S3x128x128 .f32
abbrev Rows := FVec Ideal S3x128 .f32

/-! ## One layer as a function of whole arrays -/

/-- The sources of the edges. -/
def srcOf (ei : Edges) : IVec S600000 32 :=
  shapeCast S600000 (extractStridedSlice S1x600000 ![0, 0] ei slices_S2x600000_S1x600000_0_0) shapeCasts_S1x600000_S600000

/-- The destinations of the edges. -/
def dstOf (ei : Edges) : IVec S600000 32 :=
  shapeCast S600000 (extractStridedSlice S1x600000 ![1, 0] ei slices_S2x600000_S1x600000_1_0) shapeCasts_S1x600000_S600000

/-- The table of zeros. -/
def zeros : Tab := broadcastInDim S100000x128 ![] bcast_S_S100000x128 (constant (F := Ideal) S_ .f32 0x00000000#32)

/-- A row laid along each of the 100000 rows of a table. -/
def alongRows (v : Row) : Tab :=
  broadcastInDim S100000x128 ![0, 1] bcast_S1x128_S100000x128_0_1 (broadcastInDim S1x128 ![1] bcast_S128_S1x128_1 v)

/-- The neighbour sums: into each destination row, the sum of the rows of `h` at the edges' sources. -/
def refAgg (h : Tab) (ei : Edges) : Tab :=
  Host.scatterAdd scatter_S100000x128_S600000x1_S600000x128_1_0_0_1 zeros
    (broadcastInDim S600000x1 ![0] bcast_S600000_S600000x1_0 (dstOf ei))
    (Host.gather gather_S100000x128_S600000x1_S600000x128_1_0_n_n_0_1_1128 h
      (broadcastInDim S600000x1 ![0] bcast_S600000_S600000x1_0
        (select (cmpi .slt (srcOf ei) (broadcastInDim S600000 ![] bcast_S_S600000 (constantI S_ 32 0#32)))
          (addi (srcOf ei) (broadcastInDim S600000 ![] bcast_S_S600000 (constantI S_ 32 100000#32))) (srcOf ei))))

/-- The rectified activations of the perceptron applied to the rows of `u`. -/
def refAct (u : Tab) (W1 : Mat) (b1 : Row) (W2 : Mat) (b2 : Row) : Tab :=
  maximumf (addf (Host.dotGeneral dot_S100000x128_S128x128_S100000x128_1_0_0_1_n_n none
    (maximumf (addf (Host.dotGeneral dot_S100000x128_S128x128_S100000x128_1_0_0_1_n_n none u W1) (alongRows b1)) zeros) W2)
    (alongRows b2)) zeros

/-- The column means of a table. -/
def refMean (z : Tab) : Row :=
  Host.divf (Host.reduceAdd z (constant (F := Ideal) S_ .f32 0x00000000#32) reducesTo_S100000x128_S128_d0 h_S_)
    (broadcastInDim S128 ![] bcast_S_S128 (constant (F := Ideal) S_ .f32 0x47C35000#32))

/-- The deviations of a table from its column means. -/
def refDev (z : Tab) : Tab := subf z (alongRows (refMean z))

/-- The reciprocal square root of the stabilised column variances (the means of the squared deviations). -/
def refScale (z : Tab) : Row :=
  Host.rsqrt (addf (Host.divf (Host.reduceAdd (mulf (refDev z) (refDev z)) (constant (F := Ideal) S_ .f32 0x00000000#32)
      reducesTo_S100000x128_S128_d0 h_S_) (broadcastInDim S128 ![] bcast_S_S128 (constant (F := Ideal) S_ .f32 0x47C35000#32)))
    (broadcastInDim S128 ![] bcast_S_S128 (constant (F := Ideal) S_ .f32 0x3727C5AC#32)))

/-- The normalised table. -/
def refNorm (z : Tab) (g b : Row) : Tab :=
  addf (mulf (mulf (subf z (alongRows (refMean z))) (alongRows (refScale z))) (alongRows g)) (alongRows b)

/-- One layer of the reference. -/
def refLayer (h : Tab) (ei : Edges) (W1 W2 : Mat) (b1 b2 g b : Row) : Tab :=
  refNorm (refAct (addf (refAgg h ei) h) W1 b1 W2 b2) g b

/-! ## The parameters of layer 0, 1, 2: slices of the stacks -/

def mat0 (W : Mats) : Mat := shapeCast S128x128 (extractStridedSlice S1x128x128 ![0, 0, 0] W slices_S3x128x128_S1x128x128_0_0_0) shapeCasts_S1x128x128_S128x128
def mat1 (W : Mats) : Mat := shapeCast S128x128 (extractStridedSlice S1x128x128 ![1, 0, 0] W slices_S3x128x128_S1x128x128_1_0_0) shapeCasts_S1x128x128_S128x128
def mat2 (W : Mats) : Mat := shapeCast S128x128 (extractStridedSlice S1x128x128 ![2, 0, 0] W slices_S3x128x128_S1x128x128_2_0_0) shapeCasts_S1x128x128_S128x128
def row0 (v : Rows) : Row := shapeCast S128 (extractStridedSlice S1x128 ![0, 0] v slices_S3x128_S1x128_0_0) shapeCasts_S1x128_S128
def row1 (v : Rows) : Row := shapeCast S128 (extractStridedSlice S1x128 ![1, 0] v slices_S3x128_S1x128_1_0) shapeCasts_S1x128_S128
def row2 (v : Rows) : Row := shapeCast S128 (extractStridedSlice S1x128 ![2, 0] v slices_S3x128_S1x128_2_0) shapeCasts_S1x128_S128

/-! ## The reference's three layer outputs are the layer iterated -/

section Iterate
variable (V0 : Valuation τ sig (Elt Ideal))

/-- The arguments, by name. -/
abbrev argX : Tab := V0 (Proc.devRef .tc main_arg0)
abbrev argE : Edges := V0 (Proc.devRef .tc main_arg1)
abbrev argW1 : Mats := V0 (Proc.devRef .tc main_arg2)
abbrev argB1 : Rows := V0 (Proc.devRef .tc main_arg3)
abbrev argW2 : Mats := V0 (Proc.devRef .tc main_arg4)
abbrev argB2 : Rows := V0 (Proc.devRef .tc main_arg5)
abbrev argG : Rows := V0 (Proc.devRef .tc main_arg6)
abbrev argB : Rows := V0 (Proc.devRef .tc main_arg7)

set_option maxRecDepth 8192 in
theorem layer0_eq : res_main_v63 V0 = refLayer (argX V0) (argE V0) (mat0 (argW1 V0)) (mat0 (argW2 V0)) (row0 (argB1 V0)) (row0 (argB2 V0)) (row0 (argG V0)) (row0 (argB V0)) := by
  unfold res_main_v63 res_main_v40 res_main_v37 res_main_v34 res_main_v3 res_main_v1
  rfl

set_option maxRecDepth 8192 in
theorem layer1_eq : res_main_v123 V0 = refLayer (res_main_v63 V0) (argE V0) (mat1 (argW1 V0)) (mat1 (argW2 V0)) (row1 (argB1 V0)) (row1 (argB2 V0)) (row1 (argG V0)) (row1 (argB V0)) := by
  unfold res_main_v123 res_main_v100 res_main_v97 res_main_v94 res_main_v3 res_main_v1
  rfl

/-- The third layer's output as the reference's run spells it. -/
def res_layer2 : Tab :=
  addf (mulf (mulf (subf (res_main_v154 V0) (broadcastInDim S100000x128 ![0, 1] bcast_S1x128_S100000x128_0_1 (broadcastInDim S1x128 ![1] bcast_S128_S1x128_1 (res_main_v157 V0)))) (broadcastInDim S100000x128 ![0, 1] bcast_S1x128_S100000x128_0_1 (broadcastInDim S1x128 ![1] bcast_S128_S1x128_1 (Host.rsqrt (addf (Host.divf (Host.reduceAdd (mulf (res_main_v160 V0) (res_main_v160 V0)) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (shapeCast _ (extractStridedSlice S1x128 ![2, 0] (V0 (Proc.devRef .tc main_arg6)) slices_S3x128_S1x128_2_0) shapeCasts_S1x128_S128)))) (broadcastInDim S100000x128 ![0, 1] bcast_S1x128_S100000x128_0_1 (broadcastInDim S1x128 ![1] bcast_S128_S1x128_1 (shapeCast _ (extractStridedSlice S1x128 ![2, 0] (V0 (Proc.devRef .tc main_arg7)) slices_S3x128_S1x128_2_0) shapeCasts_S1x128_S128)))

set_option maxRecDepth 8192 in
theorem layer2_eq : res_layer2 V0 = refLayer (res_main_v123 V0) (argE V0) (mat2 (argW1 V0)) (mat2 (argW2 V0)) (row2 (argB1 V0)) (row2 (argB2 V0)) (row2 (argG V0)) (row2 (argB V0)) := by
  unfold res_layer2 res_main_v160 res_main_v157 res_main_v154 res_main_v3 res_main_v1
  rfl

/-- The three layer outputs as the layer iterated from the argument. -/
def out0 : Tab := refLayer (argX V0) (argE V0) (mat0 (argW1 V0)) (mat0 (argW2 V0)) (row0 (argB1 V0)) (row0 (argB2 V0)) (row0 (argG V0)) (row0 (argB V0))
def out1 : Tab := refLayer (out0 V0) (argE V0) (mat1 (argW1 V0)) (mat1 (argW2 V0)) (row1 (argB1 V0)) (row1 (argB2 V0)) (row1 (argG V0)) (row1 (argB V0))
def out2 : Tab := refLayer (out1 V0) (argE V0) (mat2 (argW1 V0)) (mat2 (argW2 V0)) (row2 (argB1 V0)) (row2 (argB2 V0)) (row2 (argG V0)) (row2 (argB V0))

theorem res_main_v63_eq : res_main_v63 V0 = out0 V0 := layer0_eq V0
theorem res_main_v123_eq : res_main_v123 V0 = out1 V0 := by rw [layer1_eq, res_main_v63_eq]; rfl
theorem res_layer2_eq : res_layer2 V0 = out2 V0 := by rw [layer2_eq, res_main_v123_eq]; rfl

end Iterate

/-- The reference's run with its three results named as the layer iterated. -/
theorem run_layers (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v184) = concatenate S100000x384 1 [⟨S100000x128, out0 (launchContents m c)⟩, ⟨S100000x128, out1 (launchContents m c)⟩, ⟨S100000x128, out2 (launchContents m c)⟩] concatenates_S100000x128_S100000x128_S100000x128_S100000x384_d1 :=
  (θ_run defs _ _).mono (fun _ h c => (h c).1.trans (by
    rw [res_main_v63_eq, res_main_v123_eq]
    exact congrArg (fun t => concatenate S100000x384 1 [⟨S100000x128, out0 (launchContents m c)⟩, ⟨S100000x128, out1 (launchContents m c)⟩, ⟨S100000x128, t⟩] concatenates_S100000x128_S100000x128_S100000x128_S100000x384_d1) (res_layer2_eq (launchContents m c)))) (run m ρ)

/-! ## The pieces of a layer read at an index -/

section ReadAtIndex

/-- The table of zeros holds zero. -/
theorem zeros_apply (i : S100000x128.Idx) : zeros i = 0 := by
  unfold zeros
  rw [broadcastInDim_scalar_apply]
  exact Ideal.ofBits_zero_f32

/-- A row laid along the rows reads, at row `r` and column `j`, the row's entry `j`. -/
theorem alongRows_apply (v : Row) (r : Fin 100000) (j : Fin 128) : alongRows v (ix2 r j) = v (ix1 j) := by
  unfold alongRows
  rw [broadcastInDim_oneRow_apply]
  exact broadcastInDim_apply ![1] bcast_S128_S1x128_1 v (ix2 (0 : Fin 1) j) (ix1 j) (fun a => match a with | ⟨0, _⟩ => rfl)

/-- The product of a table with a matrix, read at an index, is the sum over the contracted column. -/
theorem dot_apply (X : Tab) (W : Mat) (r : Fin 100000) (k : Fin 128) :
    Host.dotGeneral dot_S100000x128_S128x128_S100000x128_1_0_0_1_n_n none X W (ix2 r k) = ∑ l : Fin 128, X (ix2 r l) * W (ix2 l k) :=
  StackMember.dotGeneral_plain_apply (m := 100000) (n := 128) (k := 128) none X W r k

/-- A column sum of a table, read at a column, is the sum over the rows. -/
theorem colSum_apply (z : Tab) (j : Fin 128) :
    Host.reduceAdd z (constant (F := Ideal) S_ .f32 0x00000000#32) reducesTo_S100000x128_S128_d0 h_S_ (ix1 j) = ∑ r : Fin 100000, z (ix2 r j) := by
  have h' : S100000x128.ReducesTo [0] S128 := reducesTo_S100000x128_S128_d0
  have h : S100000x128.Reduces [0] S128 := ⟨h'.1, Nat.one_pos, h'.2⟩
  refine (Ideal.hostReduceAdd_single h' h z _ (ix1 j)).trans ?_
  rw [constant_apply, Ideal.ofBits_zero_f32, zero_add]
  exact Finset.sum_congr rfl fun k _ => congrArg z (funext fun a => Fin.ext (match a with | ⟨0, _⟩ => rfl | ⟨1, _⟩ => rfl))

/-- A scalar constant laid along a row reads the constant's value. -/
theorem rowConst_apply (w : BitVec 32) (j : S128.Idx) :
    broadcastInDim S128 ![] bcast_S_S128 (constant (F := Ideal) S_ .f32 w) j = Ideal.ofBits .f32 w := by
  rw [broadcastInDim_scalar_apply]; rfl

/-- The host's reciprocal square root at an index is the extended reals' of the element. -/
theorem hostRsqrt_apply {s : Shape} {φ : FTy} (x : FVec Ideal s φ) (i : s.Idx) : Host.rsqrt x i = Ideal.rsqrt (x i) := rfl

end ReadAtIndex

section Layer
open Cert.LayerSpec Cert.BatchNormAlgebra

/-- The rectified activations at an index are the specification's, of the operands read by coordinates. -/
theorem refAct_apply (u : Tab) (W1 : Mat) (b1 : Row) (W2 : Mat) (b2 : Row) (r : Fin 100000) (j : Fin 128) :
    refAct u W1 b1 W2 b2 (ix2 r j)
      = act (fun r l => u (ix2 r l)) (fun l k => W1 (ix2 l k)) (fun k => b1 (ix1 k)) (fun k j => W2 (ix2 k j)) (fun j => b2 (ix1 j)) r j := by
  unfold refAct act
  rw [maximumf_apply, addf_apply, dot_apply, alongRows_apply, zeros_apply]
  refine congrArg (fun s => max (s + b2 (ix1 j)) 0) (Finset.sum_congr rfl fun k _ => ?_)
  refine congrArg (· * W2 (ix2 k j)) ?_
  unfold LayerSpec.hidden
  rw [maximumf_apply, addf_apply, dot_apply, alongRows_apply, zeros_apply]

/-- The column mean at a column is the specification's mean of that column. -/
theorem refMean_apply (z : Tab) (j : Fin 128) : refMean z (ix1 j) = mean rows (fun r => z (ix2 r j)) := by
  unfold refMean mean rows
  rw [hostDivf_apply, colSum_apply, rowConst_apply]

/-- The deviation at an index. -/
theorem refDev_apply (z : Tab) (r : Fin 100000) (j : Fin 128) :
    refDev z (ix2 r j) = z (ix2 r j) - mean rows (fun r => z (ix2 r j)) := by
  unfold refDev
  rw [subf_apply, alongRows_apply, refMean_apply]

/-- The scale at a column is the reciprocal square root of the stabilised variance of that column. -/
theorem refScale_apply (z : Tab) (j : Fin 128) :
    refScale z (ix1 j) = Ideal.rsqrt (varOfDeviations rows (fun r => z (ix2 r j)) + eps) := by
  unfold refScale varOfDeviations
  rw [hostRsqrt_apply]
  refine congrArg Ideal.rsqrt ?_
  rw [addf_apply, hostDivf_apply, colSum_apply, rowConst_apply, rowConst_apply]
  refine congrArg (fun s => Ideal.div s rows + eps) (Finset.sum_congr rfl fun r _ => ?_)
  rw [mulf_apply, refDev_apply]

/-- The normalised table at an index is the specification's. -/
theorem refNorm_apply (z : Tab) (g b : Row) (r : Fin 100000) (j : Fin 128) :
    refNorm z g b (ix2 r j) = normDev (fun r j => z (ix2 r j)) (fun j => g (ix1 j)) (fun j => b (ix1 j)) r j := by
  unfold refNorm normDev normWith col
  rw [addf_apply, mulf_apply, mulf_apply, subf_apply, alongRows_apply, alongRows_apply, alongRows_apply, alongRows_apply,
    refMean_apply, refScale_apply]

/-- ONE LAYER AT AN INDEX: the specification's normalised activations of the neighbour sums plus the input. -/
theorem refLayer_apply (h : Tab) (ei : Edges) (W1 W2 : Mat) (b1 b2 g b : Row) (r : Fin 100000) (j : Fin 128) :
    refLayer h ei W1 W2 b1 b2 g b (ix2 r j)
      = normDev (act (fun r l => refAgg h ei (ix2 r l) + h (ix2 r l)) (fun l k => W1 (ix2 l k)) (fun k => b1 (ix1 k))
          (fun k j => W2 (ix2 k j)) (fun j => b2 (ix1 j))) (fun j => g (ix1 j)) (fun j => b (ix1 j)) r j := by
  unfold refLayer
  generalize refAgg h ei = A
  rw [refNorm_apply]
  refine congrArg (fun z : LayerSpec.Tab 100000 => normDev z (fun j => g (ix1 j)) (fun j => b (ix1 j)) r j) ?_
  funext r' j'
  rw [refAct_apply]
  exact congrArg (fun u : LayerSpec.Tab 100000 => act u (fun l k => W1 (ix2 l k)) (fun k => b1 (ix1 k)) (fun k j => W2 (ix2 k j)) (fun j => b2 (ix1 j)) r' j')
    (funext fun r => funext fun l => addf_apply A h (ix2 r l))

end Layer

/-! ## The slices of the stacked parameters read at an index -/

section Slices

theorem mat0_apply (W : Mats) (l k : Fin 128) : mat0 W (ix2 l k) = W (ix3 (0 : Fin 3) l k) := by
  unfold mat0
  rw [shapeCast_1ab_ab_apply]
  exact extractStridedSlice_apply _ W _ _ _ (fun a => match a with | ⟨0, _⟩ => rfl | ⟨1, _⟩ => (Nat.zero_add _).symm | ⟨2, _⟩ => (Nat.zero_add _).symm)
theorem mat1_apply (W : Mats) (l k : Fin 128) : mat1 W (ix2 l k) = W (ix3 (1 : Fin 3) l k) := by
  unfold mat1
  rw [shapeCast_1ab_ab_apply]
  exact extractStridedSlice_apply _ W _ _ _ (fun a => match a with | ⟨0, _⟩ => rfl | ⟨1, _⟩ => (Nat.zero_add _).symm | ⟨2, _⟩ => (Nat.zero_add _).symm)
theorem mat2_apply (W : Mats) (l k : Fin 128) : mat2 W (ix2 l k) = W (ix3 (2 : Fin 3) l k) := by
  unfold mat2
  rw [shapeCast_1ab_ab_apply]
  exact extractStridedSlice_apply _ W _ _ _ (fun a => match a with | ⟨0, _⟩ => rfl | ⟨1, _⟩ => (Nat.zero_add _).symm | ⟨2, _⟩ => (Nat.zero_add _).symm)
theorem row0_apply (v : Rows) (j : Fin 128) : row0 v (ix1 j) = v (ix2 (0 : Fin 3) j) := by
  unfold row0
  rw [shapeCast_1a_a_apply]
  exact extractStridedSlice_apply _ v _ _ _ (fun a => match a with | ⟨0, _⟩ => rfl | ⟨1, _⟩ => (Nat.zero_add _).symm)
theorem row1_apply (v : Rows) (j : Fin 128) : row1 v (ix1 j) = v (ix2 (1 : Fin 3) j) := by
  unfold row1
  rw [shapeCast_1a_a_apply]
  exact extractStridedSlice_apply _ v _ _ _ (fun a => match a with | ⟨0, _⟩ => rfl | ⟨1, _⟩ => (Nat.zero_add _).symm)
theorem row2_apply (v : Rows) (j : Fin 128) : row2 v (ix1 j) = v (ix2 (2 : Fin 3) j) := by
  unfold row2
  rw [shapeCast_1a_a_apply]
  exact extractStridedSlice_apply _ v _ _ _ (fun a => match a with | ⟨0, _⟩ => rfl | ⟨1, _⟩ => (Nat.zero_add _).symm)

end Slices

/-! ## The neighbour sums of a table of real numbers are real numbers -/

section Real
open Cert.BatchNormAlgebra

/-- The host's scatter with addition at an index: the operand's element plus the sum of the updates that land there. -/
theorem hostScatterAdd_apply {s si su : Shape} {φ : FTy} {w : Nat} (d : ScatterDims s si su) (x : FVec Ideal s φ) (idx : IVec si w)
    (upd : FVec Ideal su φ) (i : s.Idx) :
    Host.scatterAdd d x idx upd i = x i + ∑ j ∈ Finset.univ.filter (fun j => d.resultIdx? j idx = some i), upd j := rfl

/-- A sum of real numbers over a finite set is a real number. -/
theorem sum_real_finset {ι : Type} (s : Finset ι) (f : ι → EReal) (hf : ∀ i, ∃ x : ℝ, f i = (x : EReal)) :
    ∃ y : ℝ, ∑ i ∈ s, f i = (y : EReal) := by
  choose x hx using hf
  exact ⟨∑ i ∈ s, x i, by rw [coe_sum]; exact Finset.sum_congr rfl fun i _ => hx i⟩

/-- Whatever the edge list, each neighbour sum of a table of real numbers is a real number: a gathered entry is an entry
    of the table (the source number is clamped into it), and a destination row receives a finite sum of them. -/
theorem refAgg_real (h : Tab) (ei : Edges) (hh : ∀ i, ∃ x : ℝ, h i = (x : EReal)) (i : S100000x128.Idx) :
    ∃ x : ℝ, refAgg h ei i = (x : EReal) := by
  unfold refAgg
  rw [hostScatterAdd_apply, zeros_apply, zero_add]
  exact sum_real_finset _ _ fun j => hh (GatherDims.operandIdx _ j _)

end Real

end Cert.RefLayers

end
-- ==== Proof.KI.HostReads.lean ====
/-
  What each stretch of host operations of the kernel program leaves in the buffers the next grid region reads,
  for an arbitrary incoming valuation.

  The program alternates host stretches and grid regions. A stretch before a layer's first region cuts the edge
  list into its sources and destinations (the first stretch only; the later ones reuse the two lists), forms the
  neighbour sums of the current node table by a gather and a scatter-add, and cuts the layer's two matrices and
  two bias rows out of the stacked parameters. A stretch before a layer's second region divides the column sums
  and the column sums of squares by the row count, giving the mean and (mean of squares minus squared mean) the
  variance, and cuts the layer's scale and shift rows out of their stacks. The last stretch lays the three layer
  outputs side by side. Each statement names the buffer's contents as one composed term, or reads it at an index.
-/
import proofs.«147728_j53334903882348_1_alg».proof.Proof.Gen.KernelIdeal.Launch
import proofs.«147728_j53334903882348_1_alg».proof.Proof.LayerSpec
import proofs.«147728_j53334903882348_1_alg».proof.Proof.RefLayers
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run

noncomputable section

namespace Cert.KernelIdeal.HostReads

open Cert.KernelIdeal Cert.KernelIdeal.Gen Idealize.ShloMosaic Idealize.ShloMosaic.TcCoe
  Idealize.SL.Sem Idealize.ShloMosaic.StableHlo Idealize.ShloMosaic.ValueIdx

variable (V : Valuation τ sig (Elt Ideal))

/-- A table of 100000 rows and 128 columns; the edge list (row 0 the sources, row 1 the destinations);
    a 128 by 128 matrix and the stack of three. -/
abbrev Tab := FVec Ideal S100000x128 .f32
abbrev Edges := IVec S2x600000 32
abbrev Mat := FVec Ideal S128x128 .f32
abbrev Mats := FVec Ideal S3x128x128 .f32

/-- The sources and the destinations of the edges. -/
def srcOf (ei : Edges) : IVec S600000 32 :=
  shapeCast S600000 (extractStridedSlice S1x600000 ![0, 0] ei slices_S2x600000_S1x600000_0_0) shapeCasts_S1x600000_S600000
def dstOf (ei : Edges) : IVec S600000 32 :=
  shapeCast S600000 (extractStridedSlice S1x600000 ![1, 0] ei slices_S2x600000_S1x600000_1_0) shapeCasts_S1x600000_S600000

/-- The table of zeros. -/
def zeros : Tab := broadcastInDim S100000x128 ![] bcast_S_S100000x128 (constant (F := Ideal) S_ .f32 0x00000000#32)

/-- The neighbour sums from a list of sources and a list of destinations: into each destination row, the sum of the
    rows of `h` at the edges' sources (a source below zero is first raised by 100000). -/
def aggK2 (h : Tab) (src dst : IVec S600000 32) : Tab :=
  Host.scatterAdd scatter_S100000x128_S600000x1_S600000x128_1_0_0_1 zeros
    (broadcastInDim S600000x1 ![0] bcast_S600000_S600000x1_0 dst)
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- The neighbour sums from the edge list. -/
def aggK (h : Tab) (ei : Edges) : Tab := aggK2 h (srcOf ei) (dstOf ei)

/-- Matrix `0` of a stack of three. -/
def matOf0 (W : Mats) : Mat := shapeCast S128x128 (extractStridedSlice S1x128x128 ![0, 0, 0] W slices_S3x128x128_S1x128x128_0_0_0) shapeCasts_S1x128x128_S128x128

theorem matOf0_apply (W : Mats) (l k : Fin 128) : matOf0 W (ix2 l k) = W (ix3 (0 : Fin 3) l k) := by
  unfold matOf0
  refine (shapeCast_1ab_ab_apply _ _ l k).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- Matrix `1` of a stack of three. -/
def matOf1 (W : Mats) : Mat := shapeCast S128x128 (extractStridedSlice S1x128x128 ![1, 0, 0] W slices_S3x128x128_S1x128x128_1_0_0) shapeCasts_S1x128x128_S128x128

theorem matOf1_apply (W : Mats) (l k : Fin 128) : matOf1 W (ix2 l k) = W (ix3 (1 : Fin 3) l k) := by
  unfold matOf1
  refine (shapeCast_1ab_ab_apply _ _ l k).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- Matrix `2` of a stack of three. -/
def matOf2 (W : Mats) : Mat := shapeCast S128x128 (extractStridedSlice S1x128x128 ![2, 0, 0] W slices_S3x128x128_S1x128x128_2_0_0) shapeCasts_S1x128x128_S128x128

theorem matOf2_apply (W : Mats) (l k : Fin 128) : matOf2 W (ix2 l k) = W (ix3 (2 : Fin 3) l k) := by
  unfold matOf2
  refine (shapeCast_1ab_ab_apply _ _ l k).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- A row of 128 entries held as a one-row matrix, and a stack of three rows. -/
abbrev Row1 := FVec Ideal S1x128 .f32
abbrev Rows := FVec Ideal S3x128 .f32

/-- Entry `j` of a one-row matrix, as an extended real. -/
abbrev rowAt (x : Row1) (j : Fin 128) : EReal := x (ix2 (0 : Fin 1) j)

/-- The row count laid along a row. -/
def rowsRow : Row1 := broadcastInDim S1x128 ![] bcast_S_S1x128 (constant (F := Ideal) S_ .f32 0x47C35000#32)

/-- Row `0`, `1`, `2` of a stack of three rows, as a one-row matrix. -/
def rowOf0 (v : Rows) : Row1 := shapeCast S1x128 (shapeCast S128 (extractStridedSlice S1x128 ![0, 0] v slices_S3x128_S1x128_0_0) shapeCasts_S1x128_S128) shapeCasts_S128_S1x128

theorem rowOf0_apply (v : Rows) (j : Fin 128) : rowOf0 v (ix2 (0 : Fin 1) j) = v (ix2 (0 : Fin 3) j) := by
  unfold rowOf0
  refine (shapeCast_a_1a_apply _ _ (0 : Fin 1) j).trans ?_
  refine (shapeCast_1a_a_apply _ _ j).trans ?_
  exact slice2_axis0_apply 0 _ _ (0 : Fin 1) j (0 : Fin 3) rfl

def rowOf1 (v : Rows) : Row1 := shapeCast S1x128 (shapeCast S128 (extractStridedSlice S1x128 ![1, 0] v slices_S3x128_S1x128_1_0) shapeCasts_S1x128_S128) shapeCasts_S128_S1x128

theorem rowOf1_apply (v : Rows) (j : Fin 128) : rowOf1 v (ix2 (0 : Fin 1) j) = v (ix2 (1 : Fin 3) j) := by
  unfold rowOf1
  refine (shapeCast_a_1a_apply _ _ (0 : Fin 1) j).trans ?_
  refine (shapeCast_1a_a_apply _ _ j).trans ?_
  exact slice2_axis0_apply 1 _ _ (0 : Fin 1) j (1 : Fin 3) rfl

def rowOf2 (v : Rows) : Row1 := shapeCast S1x128 (shapeCast S128 (extractStridedSlice S1x128 ![2, 0] v slices_S3x128_S1x128_2_0) shapeCasts_S1x128_S128) shapeCasts_S128_S1x128

theorem rowOf2_apply (v : Rows) (j : Fin 128) : rowOf2 v (ix2 (0 : Fin 1) j) = v (ix2 (2 : Fin 3) j) := by
  unfold rowOf2
  refine (shapeCast_a_1a_apply _ _ (0 : Fin 1) j).trans ?_
  refine (shapeCast_1a_a_apply _ _ j).trans ?_
  exact slice2_axis0_apply 2 _ _ (0 : Fin 1) j (2 : Fin 3) rfl

/-! ## Stretch 0: the neighbour sums of layer 0's input, and its matrices and bias rows -/
section H0
theorem h0_agg : (StableHlo.after (hostOps0 (F := Ideal)) V (Proc.devRef .tc main_v13) : Tab) = aggK (V (Proc.devRef .tc main_arg0)) (V (Proc.devRef .tc main_arg1)) := by
  dsimp only [hostOps0]; after_results; rfl

theorem h0_src : (StableHlo.after (hostOps0 (F := Ideal)) V (Proc.devRef .tc main_v1) : IVec S600000 32) = srcOf (V (Proc.devRef .tc main_arg1)) := by
  dsimp only [hostOps0]; after_results; rfl

theorem h0_dst : (StableHlo.after (hostOps0 (F := Ideal)) V (Proc.devRef .tc main_v3) : IVec S600000 32) = dstOf (V (Proc.devRef .tc main_arg1)) := by
  dsimp only [hostOps0]; after_results; rfl

theorem h0_W1 (l k : Fin 128) : (StableHlo.after (hostOps0 (F := Ideal)) V (Proc.devRef .tc main_v15) : Mat) (ix2 l k) = (V (Proc.devRef .tc main_arg2) : Mats) (ix3 (0 : Fin 3) l k) := by
  have e : (StableHlo.after (hostOps0 (F := Ideal)) V (Proc.devRef .tc main_v15) : Mat) = matOf0 (V (Proc.devRef .tc main_arg2)) := by
    dsimp only [hostOps0]; after_results; rfl
  rw [e]; exact matOf0_apply _ l k

theorem h0_b1 (j : Fin 128) : rowAt (StableHlo.after (hostOps0 (F := Ideal)) V (Proc.devRef .tc main_v18)) j = (V (Proc.devRef .tc main_arg3) : Rows) (ix2 (0 : Fin 3) j) := by
  have e : (StableHlo.after (hostOps0 (F := Ideal)) V (Proc.devRef .tc main_v18) : Row1) = rowOf0 (V (Proc.devRef .tc main_arg3)) := by
    dsimp only [hostOps0]; after_results; rfl
  unfold rowAt; rw [e]; exact rowOf0_apply _ j

theorem h0_W2 (l k : Fin 128) : (StableHlo.after (hostOps0 (F := Ideal)) V (Proc.devRef .tc main_v20) : Mat) (ix2 l k) = (V (Proc.devRef .tc main_arg4) : Mats) (ix3 (0 : Fin 3) l k) := by
  have e : (StableHlo.after (hostOps0 (F := Ideal)) V (Proc.devRef .tc main_v20) : Mat) = matOf0 (V (Proc.devRef .tc main_arg4)) := by
    dsimp only [hostOps0]; after_results; rfl
  rw [e]; exact matOf0_apply _ l k

theorem h0_b2 (j : Fin 128) : rowAt (StableHlo.after (hostOps0 (F := Ideal)) V (Proc.devRef .tc main_v23)) j = (V (Proc.devRef .tc main_arg5) : Rows) (ix2 (0 : Fin 3) j) := by
  have e : (StableHlo.after (hostOps0 (F := Ideal)) V (Proc.devRef .tc main_v23) : Row1) = rowOf0 (V (Proc.devRef .tc main_arg5)) := by
    dsimp only [hostOps0]; after_results; rfl
  unfold rowAt; rw [e]; exact rowOf0_apply _ j

theorem h0_keep_h : StableHlo.after (hostOps0 (F := Ideal)) V (Proc.devRef .tc main_arg0) = V (Proc.devRef .tc main_arg0) := by
  dsimp only [hostOps0]; after_results
end H0

/-! ## Stretch 1: the mean and the variance of layer 0, and its scale and shift rows -/
section H1
theorem h1_mean_eq : (StableHlo.after (hostOps1 (F := Ideal)) V (Proc.devRef .tc main_v26) : Row1) = Host.divf (V (Proc.devRef .tc main_v24_1) : Row1) rowsRow := by
  dsimp only [hostOps1]; after_results; rfl

theorem h1_var_eq : (StableHlo.after (hostOps1 (F := Ideal)) V (Proc.devRef .tc main_v30) : Row1)
      = subf (Host.divf (V (Proc.devRef .tc main_v24_2) : Row1) rowsRow)
          (mulf (Host.divf (V (Proc.devRef .tc main_v24_1) : Row1) rowsRow) (Host.divf (V (Proc.devRef .tc main_v24_1) : Row1) rowsRow)) := by
  dsimp only [hostOps1]; after_results; rfl

/-- The mean: the column sum over the row count. -/
theorem h1_mean (j : Fin 128) :
    rowAt (StableHlo.after (hostOps1 (F := Ideal)) V (Proc.devRef .tc main_v26)) j = Ideal.div (rowAt (V (Proc.devRef .tc main_v24_1)) j) Cert.LayerSpec.rows := by
  unfold rowAt; rw [h1_mean_eq]; rfl

/-- The variance: the column sum of squares over the row count, less the mean times the mean. -/
theorem h1_var (j : Fin 128) :
    rowAt (StableHlo.after (hostOps1 (F := Ideal)) V (Proc.devRef .tc main_v30)) j
      = Ideal.div (rowAt (V (Proc.devRef .tc main_v24_2)) j) Cert.LayerSpec.rows
        - rowAt (StableHlo.after (hostOps1 (F := Ideal)) V (Proc.devRef .tc main_v26)) j * rowAt (StableHlo.after (hostOps1 (F := Ideal)) V (Proc.devRef .tc main_v26)) j := by
  unfold rowAt; rw [h1_var_eq, h1_mean_eq]; rfl

theorem h1_gamma (j : Fin 128) : rowAt (StableHlo.after (hostOps1 (F := Ideal)) V (Proc.devRef .tc main_v33)) j = (V (Proc.devRef .tc main_arg6) : Rows) (ix2 (0 : Fin 3) j) := by
  have e : (StableHlo.after (hostOps1 (F := Ideal)) V (Proc.devRef .tc main_v33) : Row1) = rowOf0 (V (Proc.devRef .tc main_arg6)) := by
    dsimp only [hostOps1]; after_results; rfl
  unfold rowAt; rw [e]; exact rowOf0_apply _ j

theorem h1_beta (j : Fin 128) : rowAt (StableHlo.after (hostOps1 (F := Ideal)) V (Proc.devRef .tc main_v36)) j = (V (Proc.devRef .tc main_arg7) : Rows) (ix2 (0 : Fin 3) j) := by
  have e : (StableHlo.after (hostOps1 (F := Ideal)) V (Proc.devRef .tc main_v36) : Row1) = rowOf0 (V (Proc.devRef .tc main_arg7)) := by
    dsimp only [hostOps1]; after_results; rfl
  unfold rowAt; rw [e]; exact rowOf0_apply _ j

theorem h1_keep_z : StableHlo.after (hostOps1 (F := Ideal)) V (Proc.devRef .tc main_v24_0) = V (Proc.devRef .tc main_v24_0) := by
  dsimp only [hostOps1]; after_results
theorem h1_keep_src : StableHlo.after (hostOps1 (F := Ideal)) V (Proc.devRef .tc main_v1) = V (Proc.devRef .tc main_v1) := by
  dsimp only [hostOps1]; after_results
theorem h1_keep_dst : StableHlo.after (hostOps1 (F := Ideal)) V (Proc.devRef .tc main_v3) = V (Proc.devRef .tc main_v3) := by
  dsimp only [hostOps1]; after_results
end H1

/-! ## Stretch 2: the neighbour sums of layer 1's input, and its matrices and bias rows -/
section H2
theorem h2_agg : (StableHlo.after (hostOps2 (F := Ideal)) V (Proc.devRef .tc main_v47) : Tab) = aggK2 (V (Proc.devRef .tc main_v37)) (V (Proc.devRef .tc main_v1)) (V (Proc.devRef .tc main_v3)) := by
  dsimp only [hostOps2]; after_results_simp; rfl

theorem h2_keep_src : StableHlo.after (hostOps2 (F := Ideal)) V (Proc.devRef .tc main_v1) = V (Proc.devRef .tc main_v1) := by
  dsimp only [hostOps2]; after_results
theorem h2_keep_dst : StableHlo.after (hostOps2 (F := Ideal)) V (Proc.devRef .tc main_v3) = V (Proc.devRef .tc main_v3) := by
  dsimp only [hostOps2]; after_results

theorem h2_W1 (l k : Fin 128) : (StableHlo.after (hostOps2 (F := Ideal)) V (Proc.devRef .tc main_v49) : Mat) (ix2 l k) = (V (Proc.devRef .tc main_arg2) : Mats) (ix3 (1 : Fin 3) l k) := by
  have e : (StableHlo.after (hostOps2 (F := Ideal)) V (Proc.devRef .tc main_v49) : Mat) = matOf1 (V (Proc.devRef .tc main_arg2)) := by
    dsimp only [hostOps2]; after_results; rfl
  rw [e]; exact matOf1_apply _ l k

theorem h2_b1 (j : Fin 128) : rowAt (StableHlo.after (hostOps2 (F := Ideal)) V (Proc.devRef .tc main_v52)) j = (V (Proc.devRef .tc main_arg3) : Rows) (ix2 (1 : Fin 3) j) := by
  have e : (StableHlo.after (hostOps2 (F := Ideal)) V (Proc.devRef .tc main_v52) : Row1) = rowOf1 (V (Proc.devRef .tc main_arg3)) := by
    dsimp only [hostOps2]; after_results; rfl
  unfold rowAt; rw [e]; exact rowOf1_apply _ j

theorem h2_W2 (l k : Fin 128) : (StableHlo.after (hostOps2 (F := Ideal)) V (Proc.devRef .tc main_v54) : Mat) (ix2 l k) = (V (Proc.devRef .tc main_arg4) : Mats) (ix3 (1 : Fin 3) l k) := by
  have e : (StableHlo.after (hostOps2 (F := Ideal)) V (Proc.devRef .tc main_v54) : Mat) = matOf1 (V (Proc.devRef .tc main_arg4)) := by
    dsimp only [hostOps2]; after_results; rfl
  rw [e]; exact matOf1_apply _ l k

theorem h2_b2 (j : Fin 128) : rowAt (StableHlo.after (hostOps2 (F := Ideal)) V (Proc.devRef .tc main_v57)) j = (V (Proc.devRef .tc main_arg5) : Rows) (ix2 (1 : Fin 3) j) := by
  have e : (StableHlo.after (hostOps2 (F := Ideal)) V (Proc.devRef .tc main_v57) : Row1) = rowOf1 (V (Proc.devRef .tc main_arg5)) := by
    dsimp only [hostOps2]; after_results; rfl
  unfold rowAt; rw [e]; exact rowOf1_apply _ j

theorem h2_keep_h : StableHlo.after (hostOps2 (F := Ideal)) V (Proc.devRef .tc main_v37) = V (Proc.devRef .tc main_v37) := by
  dsimp only [hostOps2]; after_results
end H2

/-! ## Stretch 3: the mean and the variance of layer 1, and its scale and shift rows -/
section H3
theorem h3_mean_eq : (StableHlo.after (hostOps3 (F := Ideal)) V (Proc.devRef .tc main_v60) : Row1) = Host.divf (V (Proc.devRef .tc main_v58_1) : Row1) rowsRow := by
  dsimp only [hostOps3]; after_results; rfl

theorem h3_var_eq : (StableHlo.after (hostOps3 (F := Ideal)) V (Proc.devRef .tc main_v64) : Row1)
      = subf (Host.divf (V (Proc.devRef .tc main_v58_2) : Row1) rowsRow)
          (mulf (Host.divf (V (Proc.devRef .tc main_v58_1) : Row1) rowsRow) (Host.divf (V (Proc.devRef .tc main_v58_1) : Row1) rowsRow)) := by
  dsimp only [hostOps3]; after_results; rfl

/-- The mean: the column sum over the row count. -/
theorem h3_mean (j : Fin 128) :
    rowAt (StableHlo.after (hostOps3 (F := Ideal)) V (Proc.devRef .tc main_v60)) j = Ideal.div (rowAt (V (Proc.devRef .tc main_v58_1)) j) Cert.LayerSpec.rows := by
  unfold rowAt; rw [h3_mean_eq]; rfl

/-- The variance: the column sum of squares over the row count, less the mean times the mean. -/
theorem h3_var (j : Fin 128) :
    rowAt (StableHlo.after (hostOps3 (F := Ideal)) V (Proc.devRef .tc main_v64)) j
      = Ideal.div (rowAt (V (Proc.devRef .tc main_v58_2)) j) Cert.LayerSpec.rows
        - rowAt (StableHlo.after (hostOps3 (F := Ideal)) V (Proc.devRef .tc main_v60)) j * rowAt (StableHlo.after (hostOps3 (F := Ideal)) V (Proc.devRef .tc main_v60)) j := by
  unfold rowAt; rw [h3_var_eq, h3_mean_eq]; rfl

theorem h3_gamma (j : Fin 128) : rowAt (StableHlo.after (hostOps3 (F := Ideal)) V (Proc.devRef .tc main_v67)) j = (V (Proc.devRef .tc main_arg6) : Rows) (ix2 (1 : Fin 3) j) := by
  have e : (StableHlo.after (hostOps3 (F := Ideal)) V (Proc.devRef .tc main_v67) : Row1) = rowOf1 (V (Proc.devRef .tc main_arg6)) := by
    dsimp only [hostOps3]; after_results; rfl
  unfold rowAt; rw [e]; exact rowOf1_apply _ j

theorem h3_beta (j : Fin 128) : rowAt (StableHlo.after (hostOps3 (F := Ideal)) V (Proc.devRef .tc main_v70)) j = (V (Proc.devRef .tc main_arg7) : Rows) (ix2 (1 : Fin 3) j) := by
  have e : (StableHlo.after (hostOps3 (F := Ideal)) V (Proc.devRef .tc main_v70) : Row1) = rowOf1 (V (Proc.devRef .tc main_arg7)) := by
    dsimp only [hostOps3]; after_results; rfl
  unfold rowAt; rw [e]; exact rowOf1_apply _ j

theorem h3_keep_z : StableHlo.after (hostOps3 (F := Ideal)) V (Proc.devRef .tc main_v58_0) = V (Proc.devRef .tc main_v58_0) := by
  dsimp only [hostOps3]; after_results
theorem h3_keep_src : StableHlo.after (hostOps3 (F := Ideal)) V (Proc.devRef .tc main_v1) = V (Proc.devRef .tc main_v1) := by
  dsimp only [hostOps3]; after_results
theorem h3_keep_dst : StableHlo.after (hostOps3 (F := Ideal)) V (Proc.devRef .tc main_v3) = V (Proc.devRef .tc main_v3) := by
  dsimp only [hostOps3]; after_results
end H3

/-! ## Stretch 4: the neighbour sums of layer 2's input, and its matrices and bias rows -/
section H4
theorem h4_agg : (StableHlo.after (hostOps4 (F := Ideal)) V (Proc.devRef .tc main_v81) : Tab) = aggK2 (V (Proc.devRef .tc main_v71)) (V (Proc.devRef .tc main_v1)) (V (Proc.devRef .tc main_v3)) := by
  dsimp only [hostOps4]; after_results_simp; rfl

theorem h4_keep_src : StableHlo.after (hostOps4 (F := Ideal)) V (Proc.devRef .tc main_v1) = V (Proc.devRef .tc main_v1) := by
  dsimp only [hostOps4]; after_results
theorem h4_keep_dst : StableHlo.after (hostOps4 (F := Ideal)) V (Proc.devRef .tc main_v3) = V (Proc.devRef .tc main_v3) := by
  dsimp only [hostOps4]; after_results

theorem h4_W1 (l k : Fin 128) : (StableHlo.after (hostOps4 (F := Ideal)) V (Proc.devRef .tc main_v83) : Mat) (ix2 l k) = (V (Proc.devRef .tc main_arg2) : Mats) (ix3 (2 : Fin 3) l k) := by
  have e : (StableHlo.after (hostOps4 (F := Ideal)) V (Proc.devRef .tc main_v83) : Mat) = matOf2 (V (Proc.devRef .tc main_arg2)) := by
    dsimp only [hostOps4]; after_results; rfl
  rw [e]; exact matOf2_apply _ l k

theorem h4_b1 (j : Fin 128) : rowAt (StableHlo.after (hostOps4 (F := Ideal)) V (Proc.devRef .tc main_v86)) j = (V (Proc.devRef .tc main_arg3) : Rows) (ix2 (2 : Fin 3) j) := by
  have e : (StableHlo.after (hostOps4 (F := Ideal)) V (Proc.devRef .tc main_v86) : Row1) = rowOf2 (V (Proc.devRef .tc main_arg3)) := by
    dsimp only [hostOps4]; after_results; rfl
  unfold rowAt; rw [e]; exact rowOf2_apply _ j

theorem h4_W2 (l k : Fin 128) : (StableHlo.after (hostOps4 (F := Ideal)) V (Proc.devRef .tc main_v88) : Mat) (ix2 l k) = (V (Proc.devRef .tc main_arg4) : Mats) (ix3 (2 : Fin 3) l k) := by
  have e : (StableHlo.after (hostOps4 (F := Ideal)) V (Proc.devRef .tc main_v88) : Mat) = matOf2 (V (Proc.devRef .tc main_arg4)) := by
    dsimp only [hostOps4]; after_results; rfl
  rw [e]; exact matOf2_apply _ l k

theorem h4_b2 (j : Fin 128) : rowAt (StableHlo.after (hostOps4 (F := Ideal)) V (Proc.devRef .tc main_v91)) j = (V (Proc.devRef .tc main_arg5) : Rows) (ix2 (2 : Fin 3) j) := by
  have e : (StableHlo.after (hostOps4 (F := Ideal)) V (Proc.devRef .tc main_v91) : Row1) = rowOf2 (V (Proc.devRef .tc main_arg5)) := by
    dsimp only [hostOps4]; after_results; rfl
  unfold rowAt; rw [e]; exact rowOf2_apply _ j

theorem h4_keep_h : StableHlo.after (hostOps4 (F := Ideal)) V (Proc.devRef .tc main_v71) = V (Proc.devRef .tc main_v71) := by
  dsimp only [hostOps4]; after_results
end H4

/-! ## Stretch 5: the mean and the variance of layer 2, and its scale and shift rows -/
section H5
theorem h5_mean_eq : (StableHlo.after (hostOps5 (F := Ideal)) V (Proc.devRef .tc main_v94) : Row1) = Host.divf (V (Proc.devRef .tc main_v92_1) : Row1) rowsRow := by
  dsimp only [hostOps5]; after_results; rfl

theorem h5_var_eq : (StableHlo.after (hostOps5 (F := Ideal)) V (Proc.devRef .tc main_v98) : Row1)
      = subf (Host.divf (V (Proc.devRef .tc main_v92_2) : Row1) rowsRow)
          (mulf (Host.divf (V (Proc.devRef .tc main_v92_1) : Row1) rowsRow) (Host.divf (V (Proc.devRef .tc main_v92_1) : Row1) rowsRow)) := by
  dsimp only [hostOps5]; after_results; rfl

/-- The mean: the column sum over the row count. -/
theorem h5_mean (j : Fin 128) :
    rowAt (StableHlo.after (hostOps5 (F := Ideal)) V (Proc.devRef .tc main_v94)) j = Ideal.div (rowAt (V (Proc.devRef .tc main_v92_1)) j) Cert.LayerSpec.rows := by
  unfold rowAt; rw [h5_mean_eq]; rfl

/-- The variance: the column sum of squares over the row count, less the mean times the mean. -/
theorem h5_var (j : Fin 128) :
    rowAt (StableHlo.after (hostOps5 (F := Ideal)) V (Proc.devRef .tc main_v98)) j
      = Ideal.div (rowAt (V (Proc.devRef .tc main_v92_2)) j) Cert.LayerSpec.rows
        - rowAt (StableHlo.after (hostOps5 (F := Ideal)) V (Proc.devRef .tc main_v94)) j * rowAt (StableHlo.after (hostOps5 (F := Ideal)) V (Proc.devRef .tc main_v94)) j := by
  unfold rowAt; rw [h5_var_eq, h5_mean_eq]; rfl

theorem h5_gamma (j : Fin 128) : rowAt (StableHlo.after (hostOps5 (F := Ideal)) V (Proc.devRef .tc main_v101)) j = (V (Proc.devRef .tc main_arg6) : Rows) (ix2 (2 : Fin 3) j) := by
  have e : (StableHlo.after (hostOps5 (F := Ideal)) V (Proc.devRef .tc main_v101) : Row1) = rowOf2 (V (Proc.devRef .tc main_arg6)) := by
    dsimp only [hostOps5]; after_results; rfl
  unfold rowAt; rw [e]; exact rowOf2_apply _ j

theorem h5_beta (j : Fin 128) : rowAt (StableHlo.after (hostOps5 (F := Ideal)) V (Proc.devRef .tc main_v104)) j = (V (Proc.devRef .tc main_arg7) : Rows) (ix2 (2 : Fin 3) j) := by
  have e : (StableHlo.after (hostOps5 (F := Ideal)) V (Proc.devRef .tc main_v104) : Row1) = rowOf2 (V (Proc.devRef .tc main_arg7)) := by
    dsimp only [hostOps5]; after_results; rfl
  unfold rowAt; rw [e]; exact rowOf2_apply _ j

theorem h5_keep_z : StableHlo.after (hostOps5 (F := Ideal)) V (Proc.devRef .tc main_v92_0) = V (Proc.devRef .tc main_v92_0) := by
  dsimp only [hostOps5]; after_results
theorem h5_keep_src : StableHlo.after (hostOps5 (F := Ideal)) V (Proc.devRef .tc main_v1) = V (Proc.devRef .tc main_v1) := by
  dsimp only [hostOps5]; after_results
theorem h5_keep_dst : StableHlo.after (hostOps5 (F := Ideal)) V (Proc.devRef .tc main_v3) = V (Proc.devRef .tc main_v3) := by
  dsimp only [hostOps5]; after_results
end H5

/-! ## Stretch 6: the three layer outputs side by side -/
section H6
theorem h6_out : (StableHlo.after (hostOps6 (F := Ideal)) V (Proc.devRef .tc main_v106) : FVec Ideal S100000x384 .f32)
      = concatenate S100000x384 1 [⟨S100000x128, (V (Proc.devRef .tc main_v37) : Tab)⟩, ⟨S100000x128, (V (Proc.devRef .tc main_v71) : Tab)⟩, ⟨S100000x128, (V (Proc.devRef .tc main_v105) : Tab)⟩]
          concatenates_S100000x128_S100000x128_S100000x128_S100000x384_d1 := by
  dsimp only [hostOps6]; after_results; rfl
end H6

/-! ## The neighbour sums are the reference's -/

/-- The kernel program's neighbour sums and the reference's are one function: the two programs print the same
    gather and scatter-add over the same slices of the edge list. -/
theorem aggK2_eq_refAgg (h : Tab) (ei : Edges) : aggK2 h (srcOf ei) (dstOf ei) = Cert.RefLayers.refAgg h ei := rfl

theorem aggK_eq_refAgg (h : Tab) (ei : Edges) : aggK h ei = Cert.RefLayers.refAgg h ei := rfl

end Cert.KernelIdeal.HostReads
end
-- ==== Proof.Payloads.lean ====
/-
  The arithmetic of the kernel bodies, read at one index over the extended reals.

  Each layer runs two kernels. The statistics kernel forms, for a block of 5000 rows, the rectified two-layer
  perceptron of the summed inputs, and adds the block's column sums of the activations and of their squares to two
  running rows. The normalisation kernel subtracts a mean row, multiplies by the reciprocal square root of a
  variance row plus the stabiliser, scales and shifts. Here every value these bodies store is read at an index
  (row s, column j) as a formula in the entries of the vectors it is computed from:
    activation   z s j = max (Σ_k max (Σ_l (a s l + h s l) · W1 l k + b1 k) 0 · W2 k j + b2 j) 0,
    column sums  Σ_s z s j   and   q j + Σ_s z s j · z s j,
    normalised   (x s j - μ j) · rsqrt (v j + ε) · γ j + β j.
  The three layers' statistics kernels compute the same formulas; in layers 1 and 2 the column sum of the
  activations is kept as a vector of 128 entries rather than as one row.
-/
import proofs.«147728_j53334903882348_1_alg».proof.Proof.Gen.KernelIdeal.Skeleton
import proofs.«147728_j53334903882348_1_alg».proof.Proof.LayerSpec
import Idealize.ShloMosaic.Lib.ValueLayout
import Idealize.ShloMosaic.PureOps.Ideal.Laws

noncomputable section

namespace Cert.KernelIdeal.Pay

open Idealize.ShloMosaic Idealize.ShloMosaic.ValueIdx
open scoped BigOperators

/-! ## The product of a 5000 × 128 block by a 128 × 128 matrix, at an index -/

/-- The dimension numbers of the two products: rows times columns, contracting the 128 inner coordinates. -/
abbrev D := dot_S5000x128_S128x128_S5000x128_1_0_0_1_n_n

/-- At output index (s, j) and inner coordinate k the left operand is read at (s, k) … -/
theorem lhsIdx_eq (s : Fin 5000) (j k : Fin 128) :
    D.lhsIdx (ix2 s j) ((contrEquiv1 D 128 rfl rfl).symm k) = ix2 s k := by
  funext a
  refine Fin.ext ?_
  match a with
  | ⟨0, _⟩ =>
    simp [DotDims.lhsIdx, D, dot_S5000x128_S128x128_S5000x128_1_0_0_1_n_n]; rfl
  | ⟨1, _⟩ =>
    refine (DotDims.lhsIdx_val_of_single (d := D) (cl := (1 : Fin 2)) rfl (ix2 s j) _).trans ?_
    exact contrEquiv1_symm_val D 128 rfl rfl k

/-- … and the right operand at (k, j). -/
theorem rhsIdx_eq (s : Fin 5000) (j k : Fin 128) :
    D.rhsIdx (ix2 s j) ((contrEquiv1 D 128 rfl rfl).symm k) = ix2 k j := by
  funext a
  refine Fin.ext ?_
  match a with
  | ⟨0, _⟩ =>
    refine (DotDims.rhsIdx_val_of_single (d := D) (cr := (0 : Fin 2)) rfl (ix2 s j) _).trans ?_
    exact contrEquiv1_symm_val D 128 rfl rfl k
  | ⟨1, _⟩ =>
    simp [DotDims.rhsIdx, D, dot_S5000x128_S128x128_S5000x128_1_0_0_1_n_n]; rfl

/-- The product accumulated into zero, at (s, j): the sum over the inner coordinate of the products of the entries. -/
theorem matmul_zero_ix2 (A : FVec Ideal S5000x128 .bf16) (B : FVec Ideal S128x128 .bf16) (s : Fin 5000) (j : Fin 128) :
    matmul D none A B (constant (F := Ideal) S5000x128 .f32 0x00000000#32) (ix2 s j)
      = ∑ k : Fin 128, A (ix2 s k) * B (ix2 k j) := by
  refine (Ideal.matmul_constant_zero_apply D none A B (ix2 s j)).trans ?_
  rw [← Equiv.sum_comp (contrEquiv1 D 128 rfl rfl).symm]
  refine Finset.sum_congr rfl fun k _ => ?_
  rw [lhsIdx_eq, rhsIdx_eq]

/-! ## The column sums of a 5000 × 128 block -/

/-- The sum over the rows, as a vector of 128 entries, at j. -/
theorem colSum_ix1 (src : FVec Ideal S5000x128 .f32) (h : S5000x128.Reduces [0] S128) (hφ : FKind.Formats .f32)
    (hacc : (0x00000000#32 : BitVec 32) = 0x00000000#32) (j : Fin 128) :
    multiReduction .add [0] S128 src 0x00000000#32 h hφ hacc (ix1 j) = ∑ s : Fin 5000, src (ix2 s j) := by
  refine (Ideal.multiReduction_add_single src 0x00000000#32 h hφ hacc (ix1 j)).trans ?_
  refine Finset.sum_congr rfl fun s _ => congrArg src ?_
  funext a
  refine Fin.ext ?_
  match a with
  | ⟨0, _⟩ => rfl
  | ⟨1, _⟩ => rfl

/-- The same sum laid out as one row, at (0, j). -/
theorem colSum_ix2 (src : FVec Ideal S5000x128 .f32) (h : S5000x128.Reduces [0] S128) (hφ : FKind.Formats .f32)
    (hacc : (0x00000000#32 : BitVec 32) = 0x00000000#32) (hc : S128.ShapeCasts S1x128) (u : Fin 1) (j : Fin 128) :
    shapeCast S1x128 (multiReduction .add [0] S128 src 0x00000000#32 h hφ hacc) hc (ix2 u j)
      = ∑ s : Fin 5000, src (ix2 s j) :=
  (shapeCast_a_1a_apply _ hc u j).trans (colSum_ix1 src h hφ hacc j)

/-! ## Constants -/

/-- The scalar the bodies rectify against and start their sums from is zero. -/
theorem scalar_zero : (Scalar.ofBits .f32 0x00000000#32 : Ideal .f32) = (0 : EReal) := Ideal.ofBits_zero_f32

/-- The stabiliser the normalisation adds to the variance. -/
theorem scalar_eps : (Scalar.ofBits .f32 0x3727C5AC#32 : Ideal .f32) = Cert.LayerSpec.eps := rfl

/-! ## A reciprocal square root at an index -/

/-- A reciprocal square root of a vector, at an index. -/
theorem rsqrt_apply {s : Shape} {φ : FTy} (a : FVec Ideal s φ) (i : s.Idx) : rsqrt a i = Ideal.rsqrt (a i) := rfl

/-! ## Layer 0's statistics kernel -/

/-- The activation at (s, j). -/
theorem k0_pay5_apply (v3 v5 : Vec Ideal S5000x128 .f32) (v8 : Vec Ideal S128x128 .f32) (v12 : Vec Ideal S1x128 .f32)
    (v18 : Vec Ideal S128x128 .f32) (v23 : Vec Ideal S1x128 .f32) (s : Fin 5000) (j : Fin 128) :
    Gen.k0_pay5 v3 v5 v8 v12 v18 v23 (ix2 s j)
      = Cert.LayerSpec.act (fun s l => v3 (ix2 s l) + v5 (ix2 s l)) (fun l k => v8 (ix2 l k)) (fun k => v12 (ix2 0 k))
          (fun k j => v18 (ix2 k j)) (fun j => v23 (ix2 0 j)) s j := by
  unfold Gen.k0_pay5 Cert.LayerSpec.act Cert.LayerSpec.hidden
  simp only [maximumf_apply, addf_apply, broadcast_apply, matmul_zero_ix2, truncf_apply, shapeCast_self,
    broadcastTo_1b_ab_apply, scalar_zero]

/-- The column sums of the activations, as one row, at (0, j). -/
theorem k0_pay7_apply (v3 v5 : Vec Ideal S5000x128 .f32) (v8 : Vec Ideal S128x128 .f32) (v12 : Vec Ideal S1x128 .f32)
    (v18 : Vec Ideal S128x128 .f32) (v23 : Vec Ideal S1x128 .f32) (j : Fin 128) :
    Gen.k0_pay7 v3 v5 v8 v12 v18 v23 (ix2 0 j) = ∑ s : Fin 5000, Gen.k0_pay5 v3 v5 v8 v12 v18 v23 (ix2 s j) := by
  unfold Gen.k0_pay7
  exact colSum_ix2 _ _ _ _ _ 0 j

/-- The running row of squares plus the column sums of the squared activations, at (0, j). -/
theorem k0_pay2_apply (v28 : FVec Ideal S5000x128 .f32) (v36 : Vec Ideal S1x128 .f32) (j : Fin 128) :
    Gen.k0_pay2 v28 v36 (ix2 0 j) = v36 (ix2 0 j) + ∑ s : Fin 5000, v28 (ix2 s j) * v28 (ix2 s j) := by
  unfold Gen.k0_pay2
  simp only [addf_apply, shapeCast_self]
  refine congrArg (v36 (ix2 0 j) + ·) ?_
  exact colSum_ix2 (mulf v28 v28) _ _ _ _ 0 j

/-- The running row of sums plus the block's row of sums, at (0, j). -/
theorem k0_pay1_apply (v31 v33 : FVec Ideal S1x128 .f32) (j : Fin 128) :
    Gen.k0_pay1 v31 v33 (ix2 0 j) = v31 (ix2 0 j) + v33 (ix2 0 j) := rfl

/-- The two running rows start at zero. -/
theorem k0_pay3_apply (j : Fin 128) : Gen.k0_pay3 (F := Ideal) (ix2 0 j) = 0 := scalar_zero
theorem k0_pay4_apply (j : Fin 128) : Gen.k0_pay4 (F := Ideal) (ix2 0 j) = 0 := scalar_zero

/-- The running row of sums as it is carried, at (0, j). -/
theorem k0_pay6_apply (v30 : Vec Ideal S1x128 .f32) (j : Fin 128) : Gen.k0_pay6 v30 (ix2 0 j) = v30 (ix2 0 j) := by
  unfold Gen.k0_pay6
  rw [shapeCast_self]

/-! ## Layer 0's normalisation kernel -/

/-- The normalised entry at (s, j): the variance row v0, the block v5, the mean row v7, the scale v13, the shift v17. -/
theorem k1_pay1_apply (v0 : Vec Ideal S1x128 .f32) (v5 : Vec Ideal S5000x128 .f32) (v7 v13 v17 : Vec Ideal S1x128 .f32)
    (s : Fin 5000) (j : Fin 128) :
    Gen.k1_pay1 v0 v5 v7 v13 v17 (ix2 s j)
      = Cert.LayerSpec.normWith (v5 (ix2 s j)) (v7 (ix2 0 j)) (v0 (ix2 0 j)) (v13 (ix2 0 j)) (v17 (ix2 0 j)) := by
  unfold Gen.k1_pay1 Cert.LayerSpec.normWith
  simp only [addf_apply, mulf_apply, subf_apply, rsqrt_apply, broadcast_apply, shapeCast_self, broadcastTo_1b_ab_apply,
    scalar_eps]

/-! ## Layer 1's statistics kernel -/

/-- The activation at (s, j). -/
theorem k2_pay5_apply (v3 v5 : Vec Ideal S5000x128 .f32) (v9 : Vec Ideal S128x128 .f32) (v13 : Vec Ideal S1x128 .f32)
    (v19 : Vec Ideal S128x128 .f32) (v24 : Vec Ideal S1x128 .f32) (s : Fin 5000) (j : Fin 128) :
    Gen.k2_pay5 v3 v5 v9 v13 v19 v24 (ix2 s j)
      = Cert.LayerSpec.act (fun s l => v3 (ix2 s l) + v5 (ix2 s l)) (fun l k => v9 (ix2 l k)) (fun k => v13 (ix2 0 k))
          (fun k j => v19 (ix2 k j)) (fun j => v24 (ix2 0 j)) s j := by
  unfold Gen.k2_pay5 Cert.LayerSpec.act Cert.LayerSpec.hidden
  simp only [maximumf_apply, addf_apply, broadcast_apply, matmul_zero_ix2, truncf_apply, shapeCast_self,
    broadcastTo_1b_ab_apply, scalar_zero]

/-- The column sums of the activations, as a vector of 128 entries, at j. -/
theorem k2_pay7_apply (v3 v5 : Vec Ideal S5000x128 .f32) (v9 : Vec Ideal S128x128 .f32) (v13 : Vec Ideal S1x128 .f32)
    (v19 : Vec Ideal S128x128 .f32) (v24 : Vec Ideal S1x128 .f32) (j : Fin 128) :
    Gen.k2_pay7 v3 v5 v9 v13 v19 v24 (ix1 j) = ∑ s : Fin 5000, Gen.k2_pay5 v3 v5 v9 v13 v19 v24 (ix2 s j) := by
  unfold Gen.k2_pay7
  exact colSum_ix1 _ _ _ _ j

/-- The running row of squares plus the column sums of the squared activations, at (0, j). -/
theorem k2_pay2_apply (v29 : FVec Ideal S5000x128 .f32) (v37 : Vec Ideal S1x128 .f32) (j : Fin 128) :
    Gen.k2_pay2 v29 v37 (ix2 0 j) = v37 (ix2 0 j) + ∑ s : Fin 5000, v29 (ix2 s j) * v29 (ix2 s j) := by
  unfold Gen.k2_pay2
  simp only [addf_apply, shapeCast_self]
  refine congrArg (v37 (ix2 0 j) + ·) ?_
  exact colSum_ix2 (mulf v29 v29) _ _ _ _ 0 j

/-- The running row of sums plus the block's vector of sums laid out as a row, at (0, j). -/
theorem k2_pay1_apply (v32 : FVec Ideal S1x128 .f32) (v33 : FVec Ideal S128 .f32) (j : Fin 128) :
    Gen.k2_pay1 v32 v33 (ix2 0 j) = v32 (ix2 0 j) + v33 (ix1 j) := by
  unfold Gen.k2_pay1
  simp only [addf_apply]
  rw [shapeCast_a_1a_apply]

/-- The two running rows start at zero. -/
theorem k2_pay3_apply (j : Fin 128) : Gen.k2_pay3 (F := Ideal) (ix2 0 j) = 0 := scalar_zero
theorem k2_pay4_apply (j : Fin 128) : Gen.k2_pay4 (F := Ideal) (ix2 0 j) = 0 := scalar_zero

/-- The running row of sums as it is carried, at (0, j). -/
theorem k2_pay6_apply (v31 : Vec Ideal S1x128 .f32) (j : Fin 128) : Gen.k2_pay6 v31 (ix2 0 j) = v31 (ix2 0 j) := by
  unfold Gen.k2_pay6
  rw [shapeCast_self]

/-! ## Layer 1's normalisation kernel -/

/-- The normalised entry at (s, j): the variance row v0, the block v5, the mean row v7, the scale v13, the shift v17. -/
theorem k3_pay1_apply (v0 : Vec Ideal S1x128 .f32) (v5 : Vec Ideal S5000x128 .f32) (v7 v13 v17 : Vec Ideal S1x128 .f32)
    (s : Fin 5000) (j : Fin 128) :
    Gen.k3_pay1 v0 v5 v7 v13 v17 (ix2 s j)
      = Cert.LayerSpec.normWith (v5 (ix2 s j)) (v7 (ix2 0 j)) (v0 (ix2 0 j)) (v13 (ix2 0 j)) (v17 (ix2 0 j)) := by
  unfold Gen.k3_pay1 Cert.LayerSpec.normWith
  simp only [addf_apply, mulf_apply, subf_apply, rsqrt_apply, broadcast_apply, shapeCast_self, broadcastTo_1b_ab_apply,
    scalar_eps]

/-! ## Layer 2's statistics kernel -/

/-- The activation at (s, j). -/
theorem k4_pay5_apply (v3 v5 : Vec Ideal S5000x128 .f32) (v9 : Vec Ideal S128x128 .f32) (v13 : Vec Ideal S1x128 .f32)
    (v19 : Vec Ideal S128x128 .f32) (v24 : Vec Ideal S1x128 .f32) (s : Fin 5000) (j : Fin 128) :
    Gen.k4_pay5 v3 v5 v9 v13 v19 v24 (ix2 s j)
      = Cert.LayerSpec.act (fun s l => v3 (ix2 s l) + v5 (ix2 s l)) (fun l k => v9 (ix2 l k)) (fun k => v13 (ix2 0 k))
          (fun k j => v19 (ix2 k j)) (fun j => v24 (ix2 0 j)) s j := by
  unfold Gen.k4_pay5 Cert.LayerSpec.act Cert.LayerSpec.hidden
  simp only [maximumf_apply, addf_apply, broadcast_apply, matmul_zero_ix2, truncf_apply, shapeCast_self,
    broadcastTo_1b_ab_apply, scalar_zero]

/-- The column sums of the activations, as a vector of 128 entries, at j. -/
theorem k4_pay7_apply (v3 v5 : Vec Ideal S5000x128 .f32) (v9 : Vec Ideal S128x128 .f32) (v13 : Vec Ideal S1x128 .f32)
    (v19 : Vec Ideal S128x128 .f32) (v24 : Vec Ideal S1x128 .f32) (j : Fin 128) :
    Gen.k4_pay7 v3 v5 v9 v13 v19 v24 (ix1 j) = ∑ s : Fin 5000, Gen.k4_pay5 v3 v5 v9 v13 v19 v24 (ix2 s j) := by
  unfold Gen.k4_pay7
  exact colSum_ix1 _ _ _ _ j

/-- The running row of squares plus the column sums of the squared activations, at (0, j). -/
theorem k4_pay2_apply (v29 : FVec Ideal S5000x128 .f32) (v37 : Vec Ideal S1x128 .f32) (j : Fin 128) :
    Gen.k4_pay2 v29 v37 (ix2 0 j) = v37 (ix2 0 j) + ∑ s : Fin 5000, v29 (ix2 s j) * v29 (ix2 s j) := by
  unfold Gen.k4_pay2
  simp only [addf_apply, shapeCast_self]
  refine congrArg (v37 (ix2 0 j) + ·) ?_
  exact colSum_ix2 (mulf v29 v29) _ _ _ _ 0 j

/-- The running row of sums plus the block's vector of sums laid out as a row, at (0, j). -/
theorem k4_pay1_apply (v32 : FVec Ideal S1x128 .f32) (v33 : FVec Ideal S128 .f32) (j : Fin 128) :
    Gen.k4_pay1 v32 v33 (ix2 0 j) = v32 (ix2 0 j) + v33 (ix1 j) := by
  unfold Gen.k4_pay1
  simp only [addf_apply]
  rw [shapeCast_a_1a_apply]

/-- The two running rows start at zero. -/
theorem k4_pay3_apply (j : Fin 128) : Gen.k4_pay3 (F := Ideal) (ix2 0 j) = 0 := scalar_zero
theorem k4_pay4_apply (j : Fin 128) : Gen.k4_pay4 (F := Ideal) (ix2 0 j) = 0 := scalar_zero

/-- The running row of sums as it is carried, at (0, j). -/
theorem k4_pay6_apply (v31 : Vec Ideal S1x128 .f32) (j : Fin 128) : Gen.k4_pay6 v31 (ix2 0 j) = v31 (ix2 0 j) := by
  unfold Gen.k4_pay6
  rw [shapeCast_self]

/-! ## Layer 2's normalisation kernel -/

/-- The normalised entry at (s, j): the variance row v0, the block v5, the mean row v7, the scale v13, the shift v17. -/
theorem k5_pay1_apply (v0 : Vec Ideal S1x128 .f32) (v5 : Vec Ideal S5000x128 .f32) (v7 v13 v17 : Vec Ideal S1x128 .f32)
    (s : Fin 5000) (j : Fin 128) :
    Gen.k5_pay1 v0 v5 v7 v13 v17 (ix2 s j)
      = Cert.LayerSpec.normWith (v5 (ix2 s j)) (v7 (ix2 0 j)) (v0 (ix2 0 j)) (v13 (ix2 0 j)) (v17 (ix2 0 j)) := by
  unfold Gen.k5_pay1 Cert.LayerSpec.normWith
  simp only [addf_apply, mulf_apply, subf_apply, rsqrt_apply, broadcast_apply, shapeCast_self, broadcastTo_1b_ab_apply,
    scalar_eps]

end Cert.KernelIdeal.Pay

end
-- ==== Proof.KI.StatsIdeal0.lean ====
/-
  Grid region 0 at the extended reals: the three output arrays as formulas in the input arrays.

  The region's 20 grid points each read a block of 5000 rows of the neighbour sums and of the node features (point t
  the rows 5000·t … 5000·t + 4999) and the whole of the two weight matrices and the two bias rows. A block's entry
  (s, l) is therefore the array's entry (5000·t + s, l), and the activations a point computes are rows
  5000·t … 5000·t + 4999 of the layer's activation table z. Hence the assembled table is z, and the two accumulators
  after the last point hold, column by column, the sum of z and the sum of its squares over all 100000 rows: each is
  the sum over the 20 blocks of the block's column sums, and 100000 rows are 20 blocks of 5000.
-/
import proofs.«147728_j53334903882348_1_alg».proof.Proof.KI.Final0
import proofs.«147728_j53334903882348_1_alg».proof.Proof.Payloads
import proofs.«147728_j53334903882348_1_alg».proof.Proof.BatchNormAlgebra
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-! ## The input arrays -/

/-- The neighbour sums, as the region finds them. -/
abbrev aggr0 (c : Dev nD) : FVec Ideal S100000x128 .f32 := V c main_v13
/-- The node features, as the region finds them. -/
abbrev feat0 (c : Dev nD) : FVec Ideal S100000x128 .f32 := V c main_arg0
/-- The first weight matrix, as the region finds it. -/
abbrev wOne0 (c : Dev nD) : FVec Ideal S128x128 .f32 := V c main_v15
/-- The first bias row, as the region finds it. -/
abbrev bOne0 (c : Dev nD) : FVec Ideal S1x128 .f32 := V c main_v18
/-- The second weight matrix, as the region finds it. -/
abbrev wTwo0 (c : Dev nD) : FVec Ideal S128x128 .f32 := V c main_v20
/-- The second bias row, as the region finds it. -/
abbrev bTwo0 (c : Dev nD) : FVec Ideal S1x128 .f32 := V c main_v23

/-! ## The layer's input and activation tables -/

/-- The summed input: neighbour sums plus node features. -/
def uIn0 (c : Dev nD) : Cert.LayerSpec.Tab 100000 := fun r l =>
  aggr0 V c (ix2 r l) + feat0 V c (ix2 r l)

/-- The rectified activations of the layer. -/
def z0 (c : Dev nD) : Cert.LayerSpec.Tab 100000 :=
  Cert.LayerSpec.act (uIn0 V c) (fun l k => wOne0 V c (ix2 l k))
    (fun k => bOne0 V c (ix2 0 k)) (fun k j => wTwo0 V c (ix2 k j))
    (fun j => bTwo0 V c (ix2 0 j))

/-! ## The blocks the points read -/

/-- Row s of block t is row 5000·t + s of the table. -/
theorem row_lt0 (t : Fin cfg0.N) (s : Fin 5000) : t.val * 5000 + s.val < 100000 := by
  have hN : cfg0.N = 20 := N_0
  have ht := t.isLt
  have hs := s.isLt
  omega

/-- The table's row that row s of block t is. -/
def rowOf0 (t : Fin cfg0.N) (s : Fin 5000) : Fin 100000 := ⟨t.val * 5000 + s.val, row_lt0 t s⟩

/-- The input windows' block indices at point t: (t, 0) for the two tables, (0, 0) for the weights and biases. -/
theorem idx_facts0_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0)

/-- The neighbour sums' block at point t, entry (s, l): the table's entry (5000·t + s, l). -/
theorem iblk0_0_apply (c : Dev nD) (t : Fin cfg0.N) (s : Fin 5000) (l : Fin 128) :
    (iblk0 V c 0 t : Vec Ideal S5000x128 .f32) (ix2 s l)
      = aggr0 V c (ix2 (rowOf0 t s) l) := by
  obtain ⟨e0, e1, -⟩ := idx_facts0_in t
  unfold iblk0
  rw [View.read_apply]
  show aggr0 V c (((cfg0.win 0).blk t).view.emb (ix2 s l)) = _
  refine congrArg _ (funext fun a => Fin.ext ?_)
  match a with
  | ⟨0, _⟩ => show win0_0.index t (0 : Fin 2) * 5000 + 1 * s.val = t.val * 5000 + s.val; rw [e0]; omega
  | ⟨1, _⟩ => show win0_0.index t (1 : Fin 2) * 128 + 1 * l.val = l.val; rw [e1]; omega

/-- The node features' block at point t, entry (s, l): the table's entry (5000·t + s, l). -/
theorem iblk0_1_apply (c : Dev nD) (t : Fin cfg0.N) (s : Fin 5000) (l : Fin 128) :
    (iblk0 V c 1 t : Vec Ideal S5000x128 .f32) (ix2 s l)
      = feat0 V c (ix2 (rowOf0 t s) l) := by
  obtain ⟨-, -, e0, e1, -⟩ := idx_facts0_in t
  unfold iblk0
  rw [View.read_apply]
  show feat0 V c (((cfg0.win 1).blk t).view.emb (ix2 s l)) = _
  refine congrArg _ (funext fun a => Fin.ext ?_)
  match a with
  | ⟨0, _⟩ => show win0_1.index t (0 : Fin 2) * 5000 + 1 * s.val = t.val * 5000 + s.val; rw [e0]; omega
  | ⟨1, _⟩ => show win0_1.index t (1 : Fin 2) * 128 + 1 * l.val = l.val; rw [e1]; omega

/-- The first weight matrix's block is the matrix. -/
theorem iblk0_2_apply (c : Dev nD) (t : Fin cfg0.N) (l k : Fin 128) :
    (iblk0 V c 2 t : Vec Ideal S128x128 .f32) (ix2 l k) = wOne0 V c (ix2 l k) := by
  obtain ⟨-, -, -, -, e0, e1, -⟩ := idx_facts0_in t
  unfold iblk0
  rw [View.read_apply]
  show wOne0 V c (((cfg0.win 2).blk t).view.emb (ix2 l k)) = _
  refine congrArg _ (funext fun a => Fin.ext ?_)
  match a with
  | ⟨0, _⟩ => show win0_2.index t (0 : Fin 2) * 128 + 1 * l.val = l.val; rw [e0]; omega
  | ⟨1, _⟩ => show win0_2.index t (1 : Fin 2) * 128 + 1 * k.val = k.val; rw [e1]; omega

/-- The first bias row's block is the row. -/
theorem iblk0_3_apply (c : Dev nD) (t : Fin cfg0.N) (u : Fin 1) (k : Fin 128) :
    (iblk0 V c 3 t : Vec Ideal S1x128 .f32) (ix2 u k) = bOne0 V c (ix2 u k) := by
  obtain ⟨-, -, -, -, -, -, e0, e1, -⟩ := idx_facts0_in t
  unfold iblk0
  rw [View.read_apply]
  show bOne0 V c (((cfg0.win 3).blk t).view.emb (ix2 u k)) = _
  refine congrArg _ (funext fun a => Fin.ext ?_)
  match a with
  | ⟨0, _⟩ => show win0_3.index t (0 : Fin 2) * 1 + 1 * u.val = u.val; rw [e0]; omega
  | ⟨1, _⟩ => show win0_3.index t (1 : Fin 2) * 128 + 1 * k.val = k.val; rw [e1]; omega

/-- The second weight matrix's block is the matrix. -/
theorem iblk0_4_apply (c : Dev nD) (t : Fin cfg0.N) (k j : Fin 128) :
    (iblk0 V c 4 t : Vec Ideal S128x128 .f32) (ix2 k j) = wTwo0 V c (ix2 k j) := by
  obtain ⟨-, -, -, -, -, -, -, -, e0, e1, -⟩ := idx_facts0_in t
  unfold iblk0
  rw [View.read_apply]
  show wTwo0 V c (((cfg0.win 4).blk t).view.emb (ix2 k j)) = _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

/-- The second bias row's block is the row. -/
theorem iblk0_5_apply (c : Dev nD) (t : Fin cfg0.N) (u : Fin 1) (j : Fin 128) :
    (iblk0 V c 5 t : Vec Ideal S1x128 .f32) (ix2 u j) = bTwo0 V c (ix2 u j) := by
  obtain ⟨-, -, -, -, -, -, -, -, -, -, e0, e1⟩ := idx_facts0_in t
  unfold iblk0
  rw [View.read_apply]
  show bTwo0 V c (((cfg0.win 5).blk t).view.emb (ix2 u j)) = _
  refine congrArg _ (funext fun a => Fin.ext ?_)
  match a with
  | ⟨0, _⟩ => show win0_5.index t (0 : Fin 2) * 1 + 1 * u.val = u.val; rw [e0]; omega
  | ⟨1, _⟩ => show win0_5.index t (1 : Fin 2) * 128 + 1 * j.val = j.val; rw [e1]; omega

/-! ## The activations -/

/-- The activations point t computes are the rows 5000·t … 5000·t + 4999 of z. -/
theorem actBlk0_apply (c : Dev nD) (t : Fin cfg0.N) (s : Fin 5000) (j : Fin 128) :
    actBlk0 V c t (ix2 s j) = z0 V c (rowOf0 t s) j := by
  unfold actBlk0
  refine (Pay.k0_pay5_apply _ _ _ _ _ _ s j).trans ?_
  unfold z0 uIn0 Cert.LayerSpec.act Cert.LayerSpec.hidden
  simp only [iblk0_0_apply V c t, iblk0_1_apply V c t, iblk0_2_apply V c t, iblk0_3_apply V c t,
    iblk0_4_apply V c t, iblk0_5_apply V c t]

/-- The assembled table is z. -/
theorem actArr0_apply (c : Dev nD) (r : Fin 100000) (j : Fin 128) : actArr0 V c (ix2 r j) = z0 V c r j := by
  unfold actArr0
  refine (actBlk0_apply V c _ _ _).trans ?_
  refine congr (congrArg (z0 V c) (Fin.ext ?_)) (Fin.ext rfl)
  show r.val / 5000 * 5000 + r.val % 5000 = r.val
  omega

/-! ## The two accumulators -/

/-- 100000 rows are 20 blocks of 5000. -/
theorem sum_rows0 (f : Fin 100000 → EReal) :
    ∑ r : Fin 100000, f r = ∑ t : Fin 20, ∑ s : Fin 5000, f ⟨t.val * 5000 + s.val, by have := t.isLt; have := s.isLt; omega⟩ :=
  Cert.BatchNormAlgebra.sum_blocks (a := 20) (b := 5000) f

/-- After point n the first accumulator holds the column sums of the blocks 0 … n. -/
theorem sumChain0_apply (c : Dev nD) : ∀ (n : ℕ) (h : n < cfg0.N) (j : Fin 128),
    sumChain0 V c n h (ix2 0 j)
      = ∑ t : Fin (n + 1), ∑ s : Fin 5000, actBlk0 V c ⟨t.val, Nat.lt_of_le_of_lt (Nat.le_of_lt_succ t.isLt) h⟩ (ix2 s j)
  | 0, h, j => by
    show Gen.k0_pay1 (Gen.k0_pay6 (F := Ideal) (Gen.k0_pay3 (F := Ideal))) (Gen.k0_pay7 _ _ _ _ _ _) (ix2 0 j) = _
    rw [Pay.k0_pay1_apply, Pay.k0_pay6_apply, Pay.k0_pay3_apply, Pay.k0_pay7_apply, zero_add, Fin.sum_univ_one]
    rfl
  | n + 1, h, j => by
    show Gen.k0_pay1 (Gen.k0_pay6 (F := Ideal) (sumChain0 V c n _)) (Gen.k0_pay7 _ _ _ _ _ _) (ix2 0 j) = _
    rw [Pay.k0_pay1_apply, Pay.k0_pay6_apply, sumChain0_apply c n _ j, Pay.k0_pay7_apply]
    exact (Fin.sum_univ_castSucc (M := EReal) (fun t : Fin (n + 1 + 1) =>
      ∑ s : Fin 5000, actBlk0 V c ⟨t.val, Nat.lt_of_le_of_lt (Nat.le_of_lt_succ t.isLt) h⟩ (ix2 s j))).symm

/-- After point n the second accumulator holds the column sums of the squares of the blocks 0 … n. -/
theorem sqChain0_apply (c : Dev nD) : ∀ (n : ℕ) (h : n < cfg0.N) (j : Fin 128),
    sqChain0 V c n h (ix2 0 j)
      = ∑ t : Fin (n + 1), ∑ s : Fin 5000,
          actBlk0 V c ⟨t.val, Nat.lt_of_le_of_lt (Nat.le_of_lt_succ t.isLt) h⟩ (ix2 s j)
            * actBlk0 V c ⟨t.val, Nat.lt_of_le_of_lt (Nat.le_of_lt_succ t.isLt) h⟩ (ix2 s j)
  | 0, h, j => by
    show Gen.k0_pay2 (actBlk0 V c ⟨0, h⟩) (Gen.k0_pay4 (F := Ideal)) (ix2 0 j) = _
    rw [Pay.k0_pay2_apply, Pay.k0_pay4_apply, zero_add, Fin.sum_univ_one]
    rfl
  | n + 1, h, j => by
    show Gen.k0_pay2 (actBlk0 V c ⟨n + 1, h⟩) (sqChain0 V c n _) (ix2 0 j) = _
    rw [Pay.k0_pay2_apply, sqChain0_apply c n _ j]
    exact (Fin.sum_univ_castSucc (M := EReal) (fun t : Fin (n + 1 + 1) =>
      ∑ s : Fin 5000, actBlk0 V c ⟨t.val, Nat.lt_of_le_of_lt (Nat.le_of_lt_succ t.isLt) h⟩ (ix2 s j) * actBlk0 V c ⟨t.val, Nat.lt_of_le_of_lt (Nat.le_of_lt_succ t.isLt) h⟩ (ix2 s j))).symm

/-- After the last point the first accumulator holds the column sums of z over all the rows. -/
theorem sumChain0_last (c : Dev nD) (h : 19 < cfg0.N) (j : Fin 128) :
    sumChain0 V c 19 h (ix2 0 j) = ∑ r : Fin 100000, z0 V c r j := by
  rw [sumChain0_apply V c 19 h j, sum_rows0]
  refine Finset.sum_congr rfl fun t _ => Finset.sum_congr rfl fun s _ => ?_
  exact actBlk0_apply V c _ s j

/-- After the last point the second accumulator holds the column sums of the squares of z over all the rows. -/
theorem sqChain0_last (c : Dev nD) (h : 19 < cfg0.N) (j : Fin 128) :
    sqChain0 V c 19 h (ix2 0 j) = ∑ r : Fin 100000, z0 V c r j * z0 V c r j := by
  rw [sqChain0_apply V c 19 h j, sum_rows0]
  refine Finset.sum_congr rfl fun t _ => Finset.sum_congr rfl fun s _ => ?_
  rw [actBlk0_apply V c _ s j]
  rfl

end Cert.KernelIdeal.Hand

end
-- ==== Proof.KI.ValueBn1.lean ====
/-
  Grid region 1, the value: what the normalisation kernel leaves in its output array.

  At each of the 20 grid points the body stores, over its whole 5000 × 128 output block, the block
  (z - mean) * rsqrt (var + eps) * scale + shift of its five input blocks: rows 5000 t … 5000 t + 4999 of the
  activations z, and the four 128-wide rows, which are each their whole array. Entry (s, j) of the stored block
  therefore depends on z at row 5000 t + s, column j, and on column j of the four rows. The 20 output blocks
  tile the 100000 × 128 output array (row r lies in the block of point r / 5000), so after the region the array
  holds, at every (r, j), the normalised entry of z (r, j) with column j's mean, variance, scale and shift.
-/
import proofs.«147728_j53334903882348_1_alg».proof.Proof.KI.Bn1
import proofs.«147728_j53334903882348_1_alg».proof.Proof.LayerSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offset of the one store and of the five loads is zero on both axes. -/
theorem hzBn1 : (![0, 0] : Fin 2 → Nat) = fun _ => 0 := funext fun a => by fin_cases a <;> rfl

section AnyInstance
variable {F : FTy → Type} [FloatOps F]

/-- The output block after the body is the stored block itself: the store covers the block, and each load reads
    its whole buffer. -/
theorem out1_5_eq (x0 : Vec F S5000x128 .f32) (x1 x2 x3 x4 : Vec F S1x128 .f32) :
    out1_5 x0 x1 x2 x3 x4 = k1_pay1 x2 x0 x1 x3 x4 := by
  unfold out1_5
  rw [View.canon_unit_zero hzBn1]
  simp only [View.ld_unit_zero (S := S5000x128) hzBn1, View.ld_unit_zero (S := S1x128) hzBn1]

end AnyInstance

/-- The stored block at row `s`, column `j`: the entry of the activations there, normalised with column `j` of
    the mean, variance, scale and shift rows. -/
theorem bnPay1_apply (v0 : Vec Ideal S1x128 .f32) (v5 : Vec Ideal S5000x128 .f32) (v7 v13 v17 : Vec Ideal S1x128 .f32)
    (s : Fin 5000) (j : Fin 128) :
    k1_pay1 (F := Ideal) v0 v5 v7 v13 v17 (ix2 s j)
      = Cert.LayerSpec.normWith (v5 (ix2 s j)) (v7 (ix2 0 j)) (v0 (ix2 0 j)) (v13 (ix2 0 j)) (v17 (ix2 0 j)) := by
  unfold k1_pay1 Cert.LayerSpec.normWith Cert.LayerSpec.eps
  simp only [shapeCast_self, addf_apply, mulf_apply, subf_apply, broadcastTo_1b_ab_apply]
  rfl

/-! ## The array -/

/-- The output array as one function of the five input arrays: at `(r, j)` the entry of `Z` there, normalised with
    column `j` of the mean, variance, scale and shift rows. -/
abbrev bnArr1 (Z : S100000x128.Idx → Elt Ideal .f32) (M Vr G B : S1x128.Idx → Elt Ideal .f32) :
    S100000x128.Idx → Elt Ideal .f32 :=
  fun i => Cert.LayerSpec.normWith (Z i) (M (ix2 0 (i 1))) (Vr (ix2 0 (i 1))) (G (ix2 0 (i 1))) (B (ix2 0 (i 1)))

/-- The index maps over the 20 grid points: the activations' block moves with the output's, each of the four rows
    stays at block (0, 0), and the output's block at point `t` is block (t, 0). -/
theorem idxBn1 : ∀ t : Fin cfg1.N,
    win1_0.index t (0 : Fin 2) = win1_5.index t (0 : Fin 2) ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of the stored block, over variables: if the activations' block at `y` is `Z` at the array index `i`,
    the four row blocks are the rows `M Vr G B`, and `i` is in `y`'s column, the entry at `y` is the array function
    at `i`. -/
theorem bnBlock1_apply (Z : S100000x128.Idx → Elt Ideal .f32) (M Vr G B : S1x128.Idx → Elt Ideal .f32)
    (x0 : Vec Ideal S5000x128 .f32) (x1 x2 x3 x4 : Vec Ideal S1x128 .f32) (y : S5000x128.Idx) (i : S100000x128.Idx)
    (h0 : x0 y = Z i) (h1 : ∀ k, x1 k = M k) (h2 : ∀ k, x2 k = Vr k) (h3 : ∀ k, x3 k = G k) (h4 : ∀ k, x4 k = B k)
    (hcol : (i 1).val = (y 1).val) :
    k1_pay1 (F := Ideal) x2 x0 x1 x3 x4 y = bnArr1 Z M Vr G B i := by
  obtain ⟨s, j, rfl⟩ : ∃ (s : Fin 5000) (j : Fin 128), y = ix2 s j := ⟨y 0, y 1, eq_ix2 y⟩
  rw [bnPay1_apply, h0, h1, h2, h3, h4]
  exact congrArg (fun x : Fin 128 => Cert.LayerSpec.normWith (Z i) (M (ix2 0 x)) (Vr (ix2 0 x)) (G (ix2 0 x)) (B (ix2 0 x)))
    (Fin.ext hcol.symm : j = (i 1 : Fin 128))

variable (V : (c : Dev nD) → (b : Ref sig .tc) → Buf (Elt Ideal) ((c : Thread nD τ).loc b))

set_option maxHeartbeats 1000000 in
/-- What point `t` writes back is block `t` of the array function of the five input arrays as the region finds them. -/
theorem flushedBn1 (c : Dev nD) (t : Fin cfg1.N) :
    (dat1 V c).flushed 5 t = ((cfg1.win 5).blk t).view.read (Elt Ideal)
      (bnArr1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5, out1_5_eq]
  obtain ⟨e00, e01, e10, e11, e20, e21, e30, e31, e40, e41, e50, e51⟩ := idxBn1 t
  funext y
  show k1_pay1 (F := Ideal) (iblk1 V c 2 t) (iblk1 V c 0 t) (iblk1 V c 1 t) (iblk1 V c 3 t) (iblk1 V c 4 t) y
      = bnArr1 (V c (Pipeline.arrRef spec1 0)) (V c (Pipeline.arrRef spec1 1)) (V c (Pipeline.arrRef spec1 2))
          (V c (Pipeline.arrRef spec1 3)) (V c (Pipeline.arrRef spec1 4)) (((cfg1.win 5).blk t).view.emb y)
  refine bnBlock1_apply _ _ _ _ _ _ _ _ _ _ y _ ?_ ?_ ?_ ?_ ?_ ?_
  · -- the activations' block sits where the output's does
    show V c (Pipeline.arrRef spec1 0) (((cfg1.win 0).blk t).view.emb y)
        = V c (Pipeline.arrRef spec1 0) (((cfg1.win 5).blk t).view.emb y)
    refine congrArg _ ?_
    funext a; apply Fin.ext
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * (y 1).val = win1_5.index t (1 : Fin 2) * 128 + 1 * (y 1).val; omega
  · -- each row's block is the whole row
    intro k
    show V c (Pipeline.arrRef spec1 1) (((cfg1.win 1).blk t).view.emb k) = V c (Pipeline.arrRef spec1 1) k
    refine congrArg _ ?_
    funext a; apply Fin.ext
    match a with
    | ⟨0, _⟩ => show win1_1.index t (0 : Fin 2) * 1 + 1 * (k 0).val = (k 0).val; omega
    | ⟨1, _⟩ => show win1_1.index t (1 : Fin 2) * 128 + 1 * (k 1).val = (k 1).val; omega
  · intro k
    show V c (Pipeline.arrRef spec1 2) (((cfg1.win 2).blk t).view.emb k) = V c (Pipeline.arrRef spec1 2) k
    refine congrArg _ ?_
    funext a; apply Fin.ext
    match a with
    | ⟨0, _⟩ => show win1_2.index t (0 : Fin 2) * 1 + 1 * (k 0).val = (k 0).val; omega
    | ⟨1, _⟩ => show win1_2.index t (1 : Fin 2) * 128 + 1 * (k 1).val = (k 1).val; omega
  · intro k
    show V c (Pipeline.arrRef spec1 3) (((cfg1.win 3).blk t).view.emb k) = V c (Pipeline.arrRef spec1 3) k
    refine congrArg _ ?_
    funext a; apply Fin.ext
    match a with
    | ⟨0, _⟩ => show win1_3.index t (0 : Fin 2) * 1 + 1 * (k 0).val = (k 0).val; omega
    | ⟨1, _⟩ => show win1_3.index t (1 : Fin 2) * 128 + 1 * (k 1).val = (k 1).val; omega
  · intro k
    show V c (Pipeline.arrRef spec1 4) (((cfg1.win 4).blk t).view.emb k) = V c (Pipeline.arrRef spec1 4) k
    refine congrArg _ ?_
    funext a; apply Fin.ext
    match a with
    | ⟨0, _⟩ => show win1_4.index t (0 : Fin 2) * 1 + 1 * (k 0).val = (k 0).val; omega
    | ⟨1, _⟩ => show win1_4.index t (1 : Fin 2) * 128 + 1 * (k 1).val = (k 1).val; omega
  · -- the output's block is at column block 0, so a block column is the array column
    show win1_5.index t (1 : Fin 2) * 128 + 1 * (y 1).val = (y 1).val
    omega

/-- An index of the array is in point `t`'s output block iff each coordinate is in the block's range on its axis. -/
theorem mem_blkBn1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- The 20 output blocks cover the array: row `r` lies in the block of point `r / 5000`. -/
theorem coverBn1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hq : (i 0).val / 5000 < cfg1.N := by omega
  obtain ⟨e00, e01, e10, e11, e20, e21, e30, e31, e40, e41, e50, e51⟩ := idxBn1 ⟨(i 0).val / 5000, hq⟩
  refine ⟨⟨(i 0).val / 5000, hq⟩, flush1_5 _, ?_⟩
  rw [mem_blkBn1]
  intro a
  match a with
  | ⟨0, _⟩ =>
    show win1_5.index ⟨(i 0).val / 5000, hq⟩ (0 : Fin 2) * 5000 ≤ (i 0).val
      ∧ (i 0).val < win1_5.index ⟨(i 0).val / 5000, hq⟩ (0 : Fin 2) * 5000 + 5000
    have e : win1_5.index ⟨(i 0).val / 5000, hq⟩ (0 : Fin 2) = (i 0).val / 5000 := e50
    omega
  | ⟨1, _⟩ =>
    show win1_5.index ⟨(i 0).val / 5000, hq⟩ (1 : Fin 2) * 128 ≤ (i 1).val
      ∧ (i 1).val < win1_5.index ⟨(i 0).val / 5000, hq⟩ (1 : Fin 2) * 128 + 128
    omega

/-- THE ARRAY after the region: the normalised table, entry by entry, of the five input arrays as the region finds them. -/
theorem arrBn1 (c : Dev nD) :
    (dat1 V c).arrAt 5 cfg1.N
      = bnArr1 (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushedBn1 V c t) coverBn1

/-- The same at row `r`, column `j`. -/
theorem arrBn1_apply (c : Dev nD) (r : Fin 100000) (j : Fin 128) :
    (dat1 V c).arrAt 5 cfg1.N (ix2 r j)
      = Cert.LayerSpec.normWith (V c (Pipeline.arrRef spec1 0) (ix2 r j)) (V c (Pipeline.arrRef spec1 1) (ix2 0 j))
          (V c (Pipeline.arrRef spec1 2) (ix2 0 j)) (V c (Pipeline.arrRef spec1 3) (ix2 0 j)) (V c (Pipeline.arrRef spec1 4) (ix2 0 j)) := by
  rw [arrBn1]

end Cert.KernelIdeal.Hand

end
-- ==== Proof.KI.LayerOut0.lean ====
/-
  Layer 0 of the kernel program, read at an index: the layer's output array after its normalisation region, and the
  layer's activation table in terms of the arrays as launched.

  The normalisation region writes, at (r, j), the normalised entry of the activations z (r, j) with column j of the
  four rows the host stretch before it prepared: the mean row is the column sum of z over the row count, the variance
  row is the column sum of the squares of z over the row count less the squared mean, and the scale and shift rows
  are row 0 of the two stacks of three given as arguments, which no segment of the run writes. The column sums are
  what the statistics region before that stretch accumulated over its 20 blocks, and the activations are the table
  it assembled. So the layer's output is the normalisation, in its mean-of-squares form, of the layer's activation
  table by row 0 of the scale and shift stacks. The activation table itself is the two-layer perceptron of the node
  features plus their neighbour sums over the edge list, with matrix 0 and row 0 of the stacked parameters.
-/
import proofs.«147728_j53334903882348_1_alg».proof.Proof.KI.Bounds
import proofs.«147728_j53334903882348_1_alg».proof.Proof.KI.StatsIdeal0
import proofs.«147728_j53334903882348_1_alg».proof.Proof.KI.HostReads
import proofs.«147728_j53334903882348_1_alg».proof.Proof.KI.ValueBn1
import proofs.«147728_j53334903882348_1_alg».proof.Proof.LayerSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.BatchNormAlgebra Cert.LayerSpec
open scoped BigOperators

/-! ## Over a variable table -/

/-- The column sum over the row count is the column's mean. -/
theorem meanOfSum0 {n : ℕ} (z : Cert.LayerSpec.Tab n) (j : Fin 128) (N s : EReal) (hs : s = ∑ r, z r j) :
    Ideal.div s N = mean N (col z j) := by
  subst hs; rfl

/-- The column sum of squares over the row count, less the squared mean, is the column's variance in its
    mean-of-squares form. -/
theorem varOfSums0 {n : ℕ} (z : Cert.LayerSpec.Tab n) (j : Fin 128) (N q μ : EReal) (hq : q = ∑ r, z r j * z r j)
    (hμ : μ = mean N (col z j)) : Ideal.div q N - μ * μ = varOfSquares N (col z j) := by
  subst hq hμ; rfl

/-- Equal parts give equal normalised entries. -/
theorem normWith_congr0 {x x' μ μ' v v' g g' b b' : EReal} (hx : x = x') (hμ : μ = μ') (hv : v = v') (hg : g = g')
    (hb : b = b') : normWith x μ v g b = normWith x' μ' v' g' b' := by
  subst hx hμ hv hg hb; rfl

/-- Equal inputs, matrices and bias rows give equal activation tables. -/
theorem act_congr0 {n : ℕ} {u u' : Cert.LayerSpec.Tab n} {A A' C C' : Fin 128 → Fin 128 → EReal} {a a' d d' : Fin 128 → EReal}
    (hu : u = u') (hA : A = A') (ha : a = a') (hC : C = C') (hd : d = d') :
    Cert.LayerSpec.act u A a C d = Cert.LayerSpec.act u' A' a' C' d' := by
  subst hu hA ha hC hd; rfl

variable (m : (ℓ : Loc nD τ sig) → Buf (Elt Ideal) ℓ) (ρ : Dev nD → PrngReg)

/-! ## The five rows and tables the normalisation region reads -/

/-- The activations the region reads are the layer's activation table. -/
theorem bnIn0_act (c : Dev nD) (r : Fin 100000) (j : Fin 128) :
    (V3 m ρ c (Pipeline.arrRef spec1 0) : FVec Ideal S100000x128 .f32) (ix2 r j) = z0 (V1 m ρ) c r j := by
  show (StableHlo.after (hostOps1 (F := Ideal)) (W2 m ρ c) (Proc.devRef .tc main_v24_0) : FVec Ideal S100000x128 .f32) (ix2 r j) = _
  rw [HostReads.h1_keep_z, W2_main_v24_0]
  exact actArr0_apply (V1 m ρ) c r j

/-- The mean row the region reads is, column by column, the mean of the activation table's column. -/
theorem bnIn0_mean (c : Dev nD) (j : Fin 128) :
    (V3 m ρ c (Pipeline.arrRef spec1 1) : FVec Ideal S1x128 .f32) (ix2 0 j)
      = mean rows (col (z0 (V1 m ρ) c) j) := by
  refine (HostReads.h1_mean (W2 m ρ c) j).trans ?_
  refine meanOfSum0 _ j _ _ ?_
  rw [W2_main_v24_1]
  exact sumChain0_last (V1 m ρ) c _ j

/-- The variance row the region reads is, column by column, the mean of squares less the squared mean. -/
theorem bnIn0_var (c : Dev nD) (j : Fin 128) :
    (V3 m ρ c (Pipeline.arrRef spec1 2) : FVec Ideal S1x128 .f32) (ix2 0 j)
      = varOfSquares rows (col (z0 (V1 m ρ) c) j) := by
  refine (HostReads.h1_var (W2 m ρ c) j).trans ?_
  refine varOfSums0 _ j _ _ _ ?_ (bnIn0_mean m ρ c j)
  rw [W2_main_v24_2]
  exact sqChain0_last (V1 m ρ) c _ j

/-- The scale row the region reads is row 0 of the scale stack as launched. -/
theorem bnIn0_scale (c : Dev nD) (j : Fin 128) :
    (V3 m ρ c (Pipeline.arrRef spec1 3) : FVec Ideal S1x128 .f32) (ix2 0 j)
      = (m ((c : Thread nD τ).loc main_arg6) : FVec Ideal S3x128 .f32) (ix2 0 j) := by
  refine (HostReads.h1_gamma (W2 m ρ c) j).trans ?_
  rw [W2_main_arg6_from0]

/-- The shift row the region reads is row 0 of the shift stack as launched. -/
theorem bnIn0_shift (c : Dev nD) (j : Fin 128) :
    (V3 m ρ c (Pipeline.arrRef spec1 4) : FVec Ideal S1x128 .f32) (ix2 0 j)
      = (m ((c : Thread nD τ).loc main_arg7) : FVec Ideal S3x128 .f32) (ix2 0 j) := by
  refine (HostReads.h1_beta (W2 m ρ c) j).trans ?_
  rw [W2_main_arg7_from0]

/-! ## The layer's output -/

/-- THE LAYER'S OUTPUT at row `r`, column `j`: the normalisation (variance as mean of squares less squared mean) of the
    layer's activation table by row 0 of the scale and shift stacks. -/
theorem kout0 (c : Dev nD) (r : Fin 100000) (j : Fin 128) :
    (W4 m ρ c (Proc.devRef .tc main_v37) : FVec Ideal S100000x128 .f32) (ix2 r j)
      = Cert.LayerSpec.normSq (z0 (V1 m ρ) c)
          (fun j => (m ((c : Thread nD τ).loc main_arg6) : FVec Ideal S3x128 .f32) (ix2 0 j))
          (fun j => (m ((c : Thread nD τ).loc main_arg7) : FVec Ideal S3x128 .f32) (ix2 0 j)) r j := by
  rw [W4_main_v37, arrBn1_apply]
  exact normWith_congr0 (bnIn0_act m ρ c r j) (bnIn0_mean m ρ c j) (bnIn0_var m ρ c j)
    (bnIn0_scale m ρ c j) (bnIn0_shift m ρ c j)

/-! ## The layer's activation table, in the arrays as launched -/

/-- The neighbour sums the statistics region reads: the aggregation of the node features over the edge list, both as
    launched. -/
theorem stIn0_agg (c : Dev nD) :
    aggr0 (V1 m ρ) c
      = HostReads.aggK (m ((c : Thread nD τ).loc main_arg0)) (m ((c : Thread nD τ).loc main_arg1)) :=
  HostReads.h0_agg (W0 m ρ c)

/-- The node table the statistics region reads is the node features as launched. -/
theorem stIn0_feat (c : Dev nD) :
    feat0 (V1 m ρ) c = m ((c : Thread nD τ).loc main_arg0) :=
  HostReads.h0_keep_h (W0 m ρ c)

/-- THE LAYER'S ACTIVATION TABLE: the two-layer perceptron with rectifiers, row by row, of the node features plus their
    neighbour sums, with matrix 0 and row 0 of the stacked parameters as launched. -/
theorem kz0 (c : Dev nD) :
    z0 (V1 m ρ) c
      = Cert.LayerSpec.act
          (fun r l => HostReads.aggK (m ((c : Thread nD τ).loc main_arg0)) (m ((c : Thread nD τ).loc main_arg1)) (ix2 r l)
              + (m ((c : Thread nD τ).loc main_arg0) : FVec Ideal S100000x128 .f32) (ix2 r l))
          (fun l k => (m ((c : Thread nD τ).loc main_arg2) : FVec Ideal S3x128x128 .f32) (ix3 0 l k))
          (fun k => (m ((c : Thread nD τ).loc main_arg3) : FVec Ideal S3x128 .f32) (ix2 0 k))
          (fun k j => (m ((c : Thread nD τ).loc main_arg4) : FVec Ideal S3x128x128 .f32) (ix3 0 k j))
          (fun j => (m ((c : Thread nD τ).loc main_arg5) : FVec Ideal S3x128 .f32) (ix2 0 j)) := by
  unfold z0
  refine act_congr0 ?_ ?_ ?_ ?_ ?_
  · -- the summed input: neighbour sums plus the node features
    funext r l
    show aggr0 (V1 m ρ) c (ix2 r l) + feat0 (V1 m ρ) c (ix2 r l) = _
    rw [stIn0_agg, stIn0_feat]
  · -- the first matrix: matrix 0 of its stack
    funext l k
    show (V1 m ρ c main_v15 : FVec Ideal S128x128 .f32) (ix2 l k) = _
    exact HostReads.h0_W1 (W0 m ρ c) l k
  · -- the first bias row
    funext k
    show (V1 m ρ c main_v18 : FVec Ideal S1x128 .f32) (ix2 0 k) = _
    exact HostReads.h0_b1 (W0 m ρ c) k
  · -- the second matrix
    funext k j
    show (V1 m ρ c main_v20 : FVec Ideal S128x128 .f32) (ix2 k j) = _
    exact HostReads.h0_W2 (W0 m ρ c) k j
  · -- the second bias row
    funext j
    show (V1 m ρ c main_v23 : FVec Ideal S1x128 .f32) (ix2 0 j) = _
    exact HostReads.h0_b2 (W0 m ρ c) j

end Cert.KernelIdeal.Hand

end
-- ==== Proof.KI.StatsIdeal2.lean ====
/-
  Grid region 2 at the extended reals: the three output arrays as formulas in the input arrays.

  The region's 20 grid points each read a block of 5000 rows of the neighbour sums and of the node features (point t
  the rows 5000·t … 5000·t + 4999) and the whole of the two weight matrices and the two bias rows. A block's entry
  (s, l) is therefore the array's entry (5000·t + s, l), and the activations a point computes are rows
  5000·t … 5000·t + 4999 of the layer's activation table z. Hence the assembled table is z, and the two accumulators
  after the last point hold, column by column, the sum of z and the sum of its squares over all 100000 rows: each is
  the sum over the 20 blocks of the block's column sums, and 100000 rows are 20 blocks of 5000.
-/
import proofs.«147728_j53334903882348_1_alg».proof.Proof.KI.Final2
import proofs.«147728_j53334903882348_1_alg».proof.Proof.Payloads
import proofs.«147728_j53334903882348_1_alg».proof.Proof.BatchNormAlgebra
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-! ## The input arrays -/

/-- The neighbour sums, as the region finds them. -/
abbrev aggr2 (c : Dev nD) : FVec Ideal S100000x128 .f32 := V c main_v47
/-- The node features, as the region finds them. -/
abbrev feat2 (c : Dev nD) : FVec Ideal S100000x128 .f32 := V c main_v37
/-- The first weight matrix, as the region finds it. -/
abbrev wOne2 (c : Dev nD) : FVec Ideal S128x128 .f32 := V c main_v49
/-- The first bias row, as the region finds it. -/
abbrev bOne2 (c : Dev nD) : FVec Ideal S1x128 .f32 := V c main_v52
/-- The second weight matrix, as the region finds it. -/
abbrev wTwo2 (c : Dev nD) : FVec Ideal S128x128 .f32 := V c main_v54
/-- The second bias row, as the region finds it. -/
abbrev bTwo2 (c : Dev nD) : FVec Ideal S1x128 .f32 := V c main_v57

/-! ## The layer's input and activation tables -/

/-- The summed input: neighbour sums plus node features. -/
def uIn2 (c : Dev nD) : Cert.LayerSpec.Tab 100000 := fun r l =>
  aggr2 V c (ix2 r l) + feat2 V c (ix2 r l)

/-- The rectified activations of the layer. -/
def z2 (c : Dev nD) : Cert.LayerSpec.Tab 100000 :=
  Cert.LayerSpec.act (uIn2 V c) (fun l k => wOne2 V c (ix2 l k))
    (fun k => bOne2 V c (ix2 0 k)) (fun k j => wTwo2 V c (ix2 k j))
    (fun j => bTwo2 V c (ix2 0 j))

/-! ## The blocks the points read -/

/-- Row s of block t is row 5000·t + s of the table. -/
theorem row_lt2 (t : Fin cfg2.N) (s : Fin 5000) : t.val * 5000 + s.val < 100000 := by
  have hN : cfg2.N = 20 := N_2
  have ht := t.isLt
  have hs := s.isLt
  omega

/-- The table's row that row s of block t is. -/
def rowOf2 (t : Fin cfg2.N) (s : Fin 5000) : Fin 100000 := ⟨t.val * 5000 + s.val, row_lt2 t s⟩

/-- The input windows' block indices at point t: (t, 0) for the two tables, (0, 0) for the weights and biases. -/
theorem idx_facts2_in : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0)

/-- The neighbour sums' block at point t, entry (s, l): the table's entry (5000·t + s, l). -/
theorem iblk2_0_apply (c : Dev nD) (t : Fin cfg2.N) (s : Fin 5000) (l : Fin 128) :
    (iblk2 V c 0 t : Vec Ideal S5000x128 .f32) (ix2 s l)
      = aggr2 V c (ix2 (rowOf2 t s) l) := by
  obtain ⟨e0, e1, -⟩ := idx_facts2_in t
  unfold iblk2
  rw [View.read_apply]
  show aggr2 V c (((cfg2.win 0).blk t).view.emb (ix2 s l)) = _
  refine congrArg _ (funext fun a => Fin.ext ?_)
  match a with
  | ⟨0, _⟩ => show win2_0.index t (0 : Fin 2) * 5000 + 1 * s.val = t.val * 5000 + s.val; rw [e0]; omega
  | ⟨1, _⟩ => show win2_0.index t (1 : Fin 2) * 128 + 1 * l.val = l.val; rw [e1]; omega

/-- The node features' block at point t, entry (s, l): the table's entry (5000·t + s, l). -/
theorem iblk2_1_apply (c : Dev nD) (t : Fin cfg2.N) (s : Fin 5000) (l : Fin 128) :
    (iblk2 V c 1 t : Vec Ideal S5000x128 .f32) (ix2 s l)
      = feat2 V c (ix2 (rowOf2 t s) l) := by
  obtain ⟨-, -, e0, e1, -⟩ := idx_facts2_in t
  unfold iblk2
  rw [View.read_apply]
  show feat2 V c (((cfg2.win 1).blk t).view.emb (ix2 s l)) = _
  refine congrArg _ (funext fun a => Fin.ext ?_)
  match a with
  | ⟨0, _⟩ => show win2_1.index t (0 : Fin 2) * 5000 + 1 * s.val = t.val * 5000 + s.val; rw [e0]; omega
  | ⟨1, _⟩ => show win2_1.index t (1 : Fin 2) * 128 + 1 * l.val = l.val; rw [e1]; omega

/-- The first weight matrix's block is the matrix. -/
theorem iblk2_2_apply (c : Dev nD) (t : Fin cfg2.N) (l k : Fin 128) :
    (iblk2 V c 2 t : Vec Ideal S128x128 .f32) (ix2 l k) = wOne2 V c (ix2 l k) := by
  obtain ⟨-, -, -, -, e0, e1, -⟩ := idx_facts2_in t
  unfold iblk2
  rw [View.read_apply]
  show wOne2 V c (((cfg2.win 2).blk t).view.emb (ix2 l k)) = _
  refine congrArg _ (funext fun a => Fin.ext ?_)
  match a with
  | ⟨0, _⟩ => show win2_2.index t (0 : Fin 2) * 128 + 1 * l.val = l.val; rw [e0]; omega
  | ⟨1, _⟩ => show win2_2.index t (1 : Fin 2) * 128 + 1 * k.val = k.val; rw [e1]; omega

/-- The first bias row's block is the row. -/
theorem iblk2_3_apply (c : Dev nD) (t : Fin cfg2.N) (u : Fin 1) (k : Fin 128) :
    (iblk2 V c 3 t : Vec Ideal S1x128 .f32) (ix2 u k) = bOne2 V c (ix2 u k) := by
  obtain ⟨-, -, -, -, -, -, e0, e1, -⟩ := idx_facts2_in t
  unfold iblk2
  rw [View.read_apply]
  show bOne2 V c (((cfg2.win 3).blk t).view.emb (ix2 u k)) = _
  refine congrArg _ (funext fun a => Fin.ext ?_)
  match a with
  | ⟨0, _⟩ => show win2_3.index t (0 : Fin 2) * 1 + 1 * u.val = u.val; rw [e0]; omega
  | ⟨1, _⟩ => show win2_3.index t (1 : Fin 2) * 128 + 1 * k.val = k.val; rw [e1]; omega

/-- The second weight matrix's block is the matrix. -/
theorem iblk2_4_apply (c : Dev nD) (t : Fin cfg2.N) (k j : Fin 128) :
    (iblk2 V c 4 t : Vec Ideal S128x128 .f32) (ix2 k j) = wTwo2 V c (ix2 k j) := by
  obtain ⟨-, -, -, -, -, -, -, -, e0, e1, -⟩ := idx_facts2_in t
  unfold iblk2
  rw [View.read_apply]
  show wTwo2 V c (((cfg2.win 4).blk t).view.emb (ix2 k j)) = _
  refine congrArg _ (funext fun a => Fin.ext ?_)
  match a with
  | ⟨0, _⟩ => show win2_4.index t (0 : Fin 2) * 128 + 1 * k.val = k.val; rw [e0]; omega
  | ⟨1, _⟩ => show win2_4.index t (1 : Fin 2) * 128 + 1 * j.val = j.val; rw [e1]; omega

/-- The second bias row's block is the row. -/
theorem iblk2_5_apply (c : Dev nD) (t : Fin cfg2.N) (u : Fin 1) (j : Fin 128) :
    (iblk2 V c 5 t : Vec Ideal S1x128 .f32) (ix2 u j) = bTwo2 V c (ix2 u j) := by
  obtain ⟨-, -, -, -, -, -, -, -, -, -, e0, e1⟩ := idx_facts2_in t
  unfold iblk2
  rw [View.read_apply]
  show bTwo2 V c (((cfg2.win 5).blk t).view.emb (ix2 u j)) = _
  refine congrArg _ (funext fun a => Fin.ext ?_)
  match a with
  | ⟨0, _⟩ => show win2_5.index t (0 : Fin 2) * 1 + 1 * u.val = u.val; rw [e0]; omega
  | ⟨1, _⟩ => show win2_5.index t (1 : Fin 2) * 128 + 1 * j.val = j.val; rw [e1]; omega

/-! ## The activations -/

/-- The activations point t computes are the rows 5000·t … 5000·t + 4999 of z. -/
theorem actBlk2_apply (c : Dev nD) (t : Fin cfg2.N) (s : Fin 5000) (j : Fin 128) :
    actBlk2 V c t (ix2 s j) = z2 V c (rowOf2 t s) j := by
  unfold actBlk2
  refine (Pay.k2_pay5_apply _ _ _ _ _ _ s j).trans ?_
  unfold z2 uIn2 Cert.LayerSpec.act Cert.LayerSpec.hidden
  simp only [iblk2_0_apply V c t, iblk2_1_apply V c t, iblk2_2_apply V c t, iblk2_3_apply V c t,
    iblk2_4_apply V c t, iblk2_5_apply V c t]

/-- The assembled table is z. -/
theorem actArr2_apply (c : Dev nD) (r : Fin 100000) (j : Fin 128) : actArr2 V c (ix2 r j) = z2 V c r j := by
  unfold actArr2
  refine (actBlk2_apply V c _ _ _).trans ?_
  refine congr (congrArg (z2 V c) (Fin.ext ?_)) (Fin.ext rfl)
  show r.val / 5000 * 5000 + r.val % 5000 = r.val
  omega

/-! ## The two accumulators -/

/-- 100000 rows are 20 blocks of 5000. -/
theorem sum_rows2 (f : Fin 100000 → EReal) :
    ∑ r : Fin 100000, f r = ∑ t : Fin 20, ∑ s : Fin 5000, f ⟨t.val * 5000 + s.val, by have := t.isLt; have := s.isLt; omega⟩ :=
  Cert.BatchNormAlgebra.sum_blocks (a := 20) (b := 5000) f

/-- After point n the first accumulator holds the column sums of the blocks 0 … n. -/
theorem sumChain2_apply (c : Dev nD) : ∀ (n : ℕ) (h : n < cfg2.N) (j : Fin 128),
    sumChain2 V c n h (ix2 0 j)
      = ∑ t : Fin (n + 1), ∑ s : Fin 5000, actBlk2 V c ⟨t.val, Nat.lt_of_le_of_lt (Nat.le_of_lt_succ t.isLt) h⟩ (ix2 s j)
  | 0, h, j => by
    show Gen.k2_pay1 (Gen.k2_pay6 (F := Ideal) (Gen.k2_pay3 (F := Ideal))) (Gen.k2_pay7 _ _ _ _ _ _) (ix2 0 j) = _
    rw [Pay.k2_pay1_apply, Pay.k2_pay6_apply, Pay.k2_pay3_apply, Pay.k2_pay7_apply, zero_add, Fin.sum_univ_one]
    rfl
  | n + 1, h, j => by
    show Gen.k2_pay1 (Gen.k2_pay6 (F := Ideal) (sumChain2 V c n _)) (Gen.k2_pay7 _ _ _ _ _ _) (ix2 0 j) = _
    rw [Pay.k2_pay1_apply, Pay.k2_pay6_apply, sumChain2_apply c n _ j, Pay.k2_pay7_apply]
    exact (Fin.sum_univ_castSucc (M := EReal) (fun t : Fin (n + 1 + 1) =>
      ∑ s : Fin 5000, actBlk2 V c ⟨t.val, Nat.lt_of_le_of_lt (Nat.le_of_lt_succ t.isLt) h⟩ (ix2 s j))).symm

/-- After point n the second accumulator holds the column sums of the squares of the blocks 0 … n. -/
theorem sqChain2_apply (c : Dev nD) : ∀ (n : ℕ) (h : n < cfg2.N) (j : Fin 128),
    sqChain2 V c n h (ix2 0 j)
      = ∑ t : Fin (n + 1), ∑ s : Fin 5000,
          actBlk2 V c ⟨t.val, Nat.lt_of_le_of_lt (Nat.le_of_lt_succ t.isLt) h⟩ (ix2 s j)
            * actBlk2 V c ⟨t.val, Nat.lt_of_le_of_lt (Nat.le_of_lt_succ t.isLt) h⟩ (ix2 s j)
  | 0, h, j => by
    show Gen.k2_pay2 (actBlk2 V c ⟨0, h⟩) (Gen.k2_pay4 (F := Ideal)) (ix2 0 j) = _
    rw [Pay.k2_pay2_apply, Pay.k2_pay4_apply, zero_add, Fin.sum_univ_one]
    rfl
  | n + 1, h, j => by
    show Gen.k2_pay2 (actBlk2 V c ⟨n + 1, h⟩) (sqChain2 V c n _) (ix2 0 j) = _
    rw [Pay.k2_pay2_apply, sqChain2_apply c n _ j]
    exact (Fin.sum_univ_castSucc (M := EReal) (fun t : Fin (n + 1 + 1) =>
      ∑ s : Fin 5000, actBlk2 V c ⟨t.val, Nat.lt_of_le_of_lt (Nat.le_of_lt_succ t.isLt) h⟩ (ix2 s j) * actBlk2 V c ⟨t.val, Nat.lt_of_le_of_lt (Nat.le_of_lt_succ t.isLt) h⟩ (ix2 s j))).symm

/-- After the last point the first accumulator holds the column sums of z over all the rows. -/
theorem sumChain2_last (c : Dev nD) (h : 19 < cfg2.N) (j : Fin 128) :
    sumChain2 V c 19 h (ix2 0 j) = ∑ r : Fin 100000, z2 V c r j := by
  rw [sumChain2_apply V c 19 h j, sum_rows2]
  refine Finset.sum_congr rfl fun t _ => Finset.sum_congr rfl fun s _ => ?_
  exact actBlk2_apply V c _ s j

/-- After the last point the second accumulator holds the column sums of the squares of z over all the rows. -/
theorem sqChain2_last (c : Dev nD) (h : 19 < cfg2.N) (j : Fin 128) :
    sqChain2 V c 19 h (ix2 0 j) = ∑ r : Fin 100000, z2 V c r j * z2 V c r j := by
  rw [sqChain2_apply V c 19 h j, sum_rows2]
  refine Finset.sum_congr rfl fun t _ => Finset.sum_congr rfl fun s _ => ?_
  rw [actBlk2_apply V c _ s j]
  rfl

end Cert.KernelIdeal.Hand

end
-- ==== Proof.KI.ValueBn3.lean ====
/-
  Grid region 3, the value: what the normalisation kernel leaves in its output array.

  At each of the 20 grid points the body stores, over its whole 5000 × 128 output block, the block
  (z - mean) * rsqrt (var + eps) * scale + shift of its five input blocks: rows 5000 t … 5000 t + 4999 of the
  activations z, and the four 128-wide rows, which are each their whole array. Entry (s, j) of the stored block
  therefore depends on z at row 5000 t + s, column j, and on column j of the four rows. The 20 output blocks
  tile the 100000 × 128 output array (row r lies in the block of point r / 5000), so after the region the array
  holds, at every (r, j), the normalised entry of z (r, j) with column j's mean, variance, scale and shift.
-/
import proofs.«147728_j53334903882348_1_alg».proof.Proof.KI.Bn3
import proofs.«147728_j53334903882348_1_alg».proof.Proof.LayerSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offset of the one store and of the five loads is zero on both axes. -/
theorem hzBn3 : (![0, 0] : Fin 2 → Nat) = fun _ => 0 := funext fun a => by fin_cases a <;> rfl

section AnyInstance
variable {F : FTy → Type} [FloatOps F]

/-- The output block after the body is the stored block itself: the store covers the block, and each load reads
    its whole buffer. -/
theorem out3_5_eq (x0 : Vec F S5000x128 .f32) (x1 x2 x3 x4 : Vec F S1x128 .f32) :
    out3_5 x0 x1 x2 x3 x4 = k3_pay1 x2 x0 x1 x3 x4 := by
  unfold out3_5
  rw [View.canon_unit_zero hzBn3]
  simp only [View.ld_unit_zero (S := S5000x128) hzBn3, View.ld_unit_zero (S := S1x128) hzBn3]

end AnyInstance

/-- The stored block at row `s`, column `j`: the entry of the activations there, normalised with column `j` of
    the mean, variance, scale and shift rows. -/
theorem bnPay3_apply (v0 : Vec Ideal S1x128 .f32) (v5 : Vec Ideal S5000x128 .f32) (v7 v13 v17 : Vec Ideal S1x128 .f32)
    (s : Fin 5000) (j : Fin 128) :
    k3_pay1 (F := Ideal) v0 v5 v7 v13 v17 (ix2 s j)
      = Cert.LayerSpec.normWith (v5 (ix2 s j)) (v7 (ix2 0 j)) (v0 (ix2 0 j)) (v13 (ix2 0 j)) (v17 (ix2 0 j)) := by
  unfold k3_pay1 Cert.LayerSpec.normWith Cert.LayerSpec.eps
  simp only [shapeCast_self, addf_apply, mulf_apply, subf_apply, broadcastTo_1b_ab_apply]
  rfl

/-! ## The array -/

/-- The output array as one function of the five input arrays: at `(r, j)` the entry of `Z` there, normalised with
    column `j` of the mean, variance, scale and shift rows. -/
abbrev bnArr3 (Z : S100000x128.Idx → Elt Ideal .f32) (M Vr G B : S1x128.Idx → Elt Ideal .f32) :
    S100000x128.Idx → Elt Ideal .f32 :=
  fun i => Cert.LayerSpec.normWith (Z i) (M (ix2 0 (i 1))) (Vr (ix2 0 (i 1))) (G (ix2 0 (i 1))) (B (ix2 0 (i 1)))

/-- The index maps over the 20 grid points: the activations' block moves with the output's, each of the four rows
    stays at block (0, 0), and the output's block at point `t` is block (t, 0). -/
theorem idxBn3 : ∀ t : Fin cfg3.N,
    win3_0.index t (0 : Fin 2) = win3_5.index t (0 : Fin 2) ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- One entry of the stored block, over variables: if the activations' block at `y` is `Z` at the array index `i`,
    the four row blocks are the rows `M Vr G B`, and `i` is in `y`'s column, the entry at `y` is the array function
    at `i`. -/
theorem bnBlock3_apply (Z : S100000x128.Idx → Elt Ideal .f32) (M Vr G B : S1x128.Idx → Elt Ideal .f32)
    (x0 : Vec Ideal S5000x128 .f32) (x1 x2 x3 x4 : Vec Ideal S1x128 .f32) (y : S5000x128.Idx) (i : S100000x128.Idx)
    (h0 : x0 y = Z i) (h1 : ∀ k, x1 k = M k) (h2 : ∀ k, x2 k = Vr k) (h3 : ∀ k, x3 k = G k) (h4 : ∀ k, x4 k = B k)
    (hcol : (i 1).val = (y 1).val) :
    k3_pay1 (F := Ideal) x2 x0 x1 x3 x4 y = bnArr3 Z M Vr G B i := by
  obtain ⟨s, j, rfl⟩ : ∃ (s : Fin 5000) (j : Fin 128), y = ix2 s j := ⟨y 0, y 1, eq_ix2 y⟩
  rw [bnPay3_apply, h0, h1, h2, h3, h4]
  exact congrArg (fun x : Fin 128 => Cert.LayerSpec.normWith (Z i) (M (ix2 0 x)) (Vr (ix2 0 x)) (G (ix2 0 x)) (B (ix2 0 x)))
    (Fin.ext hcol.symm : j = (i 1 : Fin 128))

variable (V : (c : Dev nD) → (b : Ref sig .tc) → Buf (Elt Ideal) ((c : Thread nD τ).loc b))

set_option maxHeartbeats 1000000 in
/-- What point `t` writes back is block `t` of the array function of the five input arrays as the region finds them. -/
theorem flushedBn3 (c : Dev nD) (t : Fin cfg3.N) :
    (dat3 V c).flushed 5 t = ((cfg3.win 5).blk t).view.read (Elt Ideal)
      (bnArr3 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5, out3_5_eq]
  obtain ⟨e00, e01, e10, e11, e20, e21, e30, e31, e40, e41, e50, e51⟩ := idxBn3 t
  funext y
  show k3_pay1 (F := Ideal) (iblk3 V c 2 t) (iblk3 V c 0 t) (iblk3 V c 1 t) (iblk3 V c 3 t) (iblk3 V c 4 t) y
      = bnArr3 (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb y)
  refine bnBlock3_apply _ _ _ _ _ _ _ _ _ _ y _ ?_ ?_ ?_ ?_ ?_ ?_
  · -- the activations' block sits where the output's does
    show V c (Pipeline.arrRef spec3 0) (((cfg3.win 0).blk t).view.emb y)
        = V c (Pipeline.arrRef spec3 0) (((cfg3.win 5).blk t).view.emb y)
    refine congrArg _ ?_
    funext a; apply Fin.ext
    match a with
    | ⟨0, _⟩ => show win3_0.index t (0 : Fin 2) * 5000 + 1 * (y 0).val = win3_5.index t (0 : Fin 2) * 5000 + 1 * (y 0).val; omega
    | ⟨1, _⟩ => show win3_0.index t (1 : Fin 2) * 128 + 1 * (y 1).val = win3_5.index t (1 : Fin 2) * 128 + 1 * (y 1).val; omega
  · -- each row's block is the whole row
    intro k
    show V c (Pipeline.arrRef spec3 1) (((cfg3.win 1).blk t).view.emb k) = V c (Pipeline.arrRef spec3 1) k
    refine congrArg _ ?_
    funext a; apply Fin.ext
    match a with
    | ⟨0, _⟩ => show win3_1.index t (0 : Fin 2) * 1 + 1 * (k 0).val = (k 0).val; omega
    | ⟨1, _⟩ => show win3_1.index t (1 : Fin 2) * 128 + 1 * (k 1).val = (k 1).val; omega
  · intro k
    show V c (Pipeline.arrRef spec3 2) (((cfg3.win 2).blk t).view.emb k) = V c (Pipeline.arrRef spec3 2) k
    refine congrArg _ ?_
    funext a; apply Fin.ext
    match a with
    | ⟨0, _⟩ => show win3_2.index t (0 : Fin 2) * 1 + 1 * (k 0).val = (k 0).val; omega
    | ⟨1, _⟩ => show win3_2.index t (1 : Fin 2) * 128 + 1 * (k 1).val = (k 1).val; omega
  · intro k
    show V c (Pipeline.arrRef spec3 3) (((cfg3.win 3).blk t).view.emb k) = V c (Pipeline.arrRef spec3 3) k
    refine congrArg _ ?_
    funext a; apply Fin.ext
    match a with
    | ⟨0, _⟩ => show win3_3.index t (0 : Fin 2) * 1 + 1 * (k 0).val = (k 0).val; omega
    | ⟨1, _⟩ => show win3_3.index t (1 : Fin 2) * 128 + 1 * (k 1).val = (k 1).val; omega
  · intro k
    show V c (Pipeline.arrRef spec3 4) (((cfg3.win 4).blk t).view.emb k) = V c (Pipeline.arrRef spec3 4) k
    refine congrArg _ ?_
    funext a; apply Fin.ext
    match a with
    | ⟨0, _⟩ => show win3_4.index t (0 : Fin 2) * 1 + 1 * (k 0).val = (k 0).val; omega
    | ⟨1, _⟩ => show win3_4.index t (1 : Fin 2) * 128 + 1 * (k 1).val = (k 1).val; omega
  · -- the output's block is at column block 0, so a block column is the array column
    show win3_5.index t (1 : Fin 2) * 128 + 1 * (y 1).val = (y 1).val
    omega

/-- An index of the array is in point `t`'s output block iff each coordinate is in the block's range on its axis. -/
theorem mem_blkBn3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- The 20 output blocks cover the array: row `r` lies in the block of point `r / 5000`. -/
theorem coverBn3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have hq : (i 0).val / 5000 < cfg3.N := by omega
  obtain ⟨e00, e01, e10, e11, e20, e21, e30, e31, e40, e41, e50, e51⟩ := idxBn3 ⟨(i 0).val / 5000, hq⟩
  refine ⟨⟨(i 0).val / 5000, hq⟩, flush3_5 _, ?_⟩
  rw [mem_blkBn3]
  intro a
  match a with
  | ⟨0, _⟩ =>
    show win3_5.index ⟨(i 0).val / 5000, hq⟩ (0 : Fin 2) * 5000 ≤ (i 0).val
      ∧ (i 0).val < win3_5.index ⟨(i 0).val / 5000, hq⟩ (0 : Fin 2) * 5000 + 5000
    have e : win3_5.index ⟨(i 0).val / 5000, hq⟩ (0 : Fin 2) = (i 0).val / 5000 := e50
    omega
  | ⟨1, _⟩ =>
    show win3_5.index ⟨(i 0).val / 5000, hq⟩ (1 : Fin 2) * 128 ≤ (i 1).val
      ∧ (i 1).val < win3_5.index ⟨(i 0).val / 5000, hq⟩ (1 : Fin 2) * 128 + 128
    omega

/-- THE ARRAY after the region: the normalised table, entry by entry, of the five input arrays as the region finds them. -/
theorem arrBn3 (c : Dev nD) :
    (dat3 V c).arrAt 5 cfg3.N
      = bnArr3 (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushedBn3 V c t) coverBn3

/-- The same at row `r`, column `j`. -/
theorem arrBn3_apply (c : Dev nD) (r : Fin 100000) (j : Fin 128) :
    (dat3 V c).arrAt 5 cfg3.N (ix2 r j)
      = Cert.LayerSpec.normWith (V c (Pipeline.arrRef spec3 0) (ix2 r j)) (V c (Pipeline.arrRef spec3 1) (ix2 0 j))
          (V c (Pipeline.arrRef spec3 2) (ix2 0 j)) (V c (Pipeline.arrRef spec3 3) (ix2 0 j)) (V c (Pipeline.arrRef spec3 4) (ix2 0 j)) := by
  rw [arrBn3]

end Cert.KernelIdeal.Hand

end
-- ==== Proof.KI.LayerOut1.lean ====
/-
  Layer 1 of the kernel program, read at an index: the layer's output array after its normalisation region.

  The normalisation region writes, at (r, j), the normalised entry of the activations z (r, j) with column j of the
  four rows the host stretch before it prepared: the mean row is the column sum of z over the row count, the variance
  row is the column sum of the squares of z over the row count less the squared mean, and the scale and shift rows
  are row 1 of the two stacks of three given as arguments, which no segment of the run writes. The column sums are
  what the statistics region before that stretch accumulated over its 20 blocks, and the activations are the table
  it assembled. So the layer's output is the normalisation, in its mean-of-squares form, of the layer's activation
  table by row 1 of the scale and shift stacks.
-/
import proofs.«147728_j53334903882348_1_alg».proof.Proof.KI.Bounds
import proofs.«147728_j53334903882348_1_alg».proof.Proof.KI.StatsIdeal2
import proofs.«147728_j53334903882348_1_alg».proof.Proof.KI.HostReads
import proofs.«147728_j53334903882348_1_alg».proof.Proof.KI.ValueBn3
import proofs.«147728_j53334903882348_1_alg».proof.Proof.LayerSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.BatchNormAlgebra Cert.LayerSpec
open scoped BigOperators

/-! ## Over a variable table -/

/-- The column sum over the row count is the column's mean. -/
theorem meanOfSum1 {n : ℕ} (z : Cert.LayerSpec.Tab n) (j : Fin 128) (N s : EReal) (hs : s = ∑ r, z r j) :
    Ideal.div s N = mean N (col z j) := by
  subst hs; rfl

/-- The column sum of squares over the row count, less the squared mean, is the column's variance in its
    mean-of-squares form. -/
theorem varOfSums1 {n : ℕ} (z : Cert.LayerSpec.Tab n) (j : Fin 128) (N q μ : EReal) (hq : q = ∑ r, z r j * z r j)
    (hμ : μ = mean N (col z j)) : Ideal.div q N - μ * μ = varOfSquares N (col z j) := by
  subst hq hμ; rfl

/-- Equal parts give equal normalised entries. -/
theorem normWith_congr1 {x x' μ μ' v v' g g' b b' : EReal} (hx : x = x') (hμ : μ = μ') (hv : v = v') (hg : g = g')
    (hb : b = b') : normWith x μ v g b = normWith x' μ' v' g' b' := by
  subst hx hμ hv hg hb; rfl

variable (m : (ℓ : Loc nD τ sig) → Buf (Elt Ideal) ℓ) (ρ : Dev nD → PrngReg)

/-! ## The five rows and tables the normalisation region reads -/

/-- The activations the region reads are the layer's activation table. -/
theorem bnIn1_act (c : Dev nD) (r : Fin 100000) (j : Fin 128) :
    (V7 m ρ c (Pipeline.arrRef spec3 0) : FVec Ideal S100000x128 .f32) (ix2 r j) = z2 (V5 m ρ) c r j := by
  show (StableHlo.after (hostOps3 (F := Ideal)) (W6 m ρ c) (Proc.devRef .tc main_v58_0) : FVec Ideal S100000x128 .f32) (ix2 r j) = _
  rw [HostReads.h3_keep_z, W6_main_v58_0]
  exact actArr2_apply (V5 m ρ) c r j

/-- The mean row the region reads is, column by column, the mean of the activation table's column. -/
theorem bnIn1_mean (c : Dev nD) (j : Fin 128) :
    (V7 m ρ c (Pipeline.arrRef spec3 1) : FVec Ideal S1x128 .f32) (ix2 0 j)
      = mean rows (col (z2 (V5 m ρ) c) j) := by
  refine (HostReads.h3_mean (W6 m ρ c) j).trans ?_
  refine meanOfSum1 _ j _ _ ?_
  rw [W6_main_v58_1]
  exact sumChain2_last (V5 m ρ) c _ j

/-- The variance row the region reads is, column by column, the mean of squares less the squared mean. -/
theorem bnIn1_var (c : Dev nD) (j : Fin 128) :
    (V7 m ρ c (Pipeline.arrRef spec3 2) : FVec Ideal S1x128 .f32) (ix2 0 j)
      = varOfSquares rows (col (z2 (V5 m ρ) c) j) := by
  refine (HostReads.h3_var (W6 m ρ c) j).trans ?_
  refine varOfSums1 _ j _ _ _ ?_ (bnIn1_mean m ρ c j)
  rw [W6_main_v58_2]
  exact sqChain2_last (V5 m ρ) c _ j

/-- The scale row the region reads is row 1 of the scale stack as launched. -/
theorem bnIn1_scale (c : Dev nD) (j : Fin 128) :
    (V7 m ρ c (Pipeline.arrRef spec3 3) : FVec Ideal S1x128 .f32) (ix2 0 j)
      = (m ((c : Thread nD τ).loc main_arg6) : FVec Ideal S3x128 .f32) (ix2 1 j) := by
  refine (HostReads.h3_gamma (W6 m ρ c) j).trans ?_
  rw [W6_main_arg6_from0]

/-- The shift row the region reads is row 1 of the shift stack as launched. -/
theorem bnIn1_shift (c : Dev nD) (j : Fin 128) :
    (V7 m ρ c (Pipeline.arrRef spec3 4) : FVec Ideal S1x128 .f32) (ix2 0 j)
      = (m ((c : Thread nD τ).loc main_arg7) : FVec Ideal S3x128 .f32) (ix2 1 j) := by
  refine (HostReads.h3_beta (W6 m ρ c) j).trans ?_
  rw [W6_main_arg7_from0]

/-! ## The layer's output -/

/-- THE LAYER'S OUTPUT at row `r`, column `j`: the normalisation (variance as mean of squares less squared mean) of the
    layer's activation table by row 1 of the scale and shift stacks. -/
theorem kout1 (c : Dev nD) (r : Fin 100000) (j : Fin 128) :
    (W8 m ρ c (Proc.devRef .tc main_v71) : FVec Ideal S100000x128 .f32) (ix2 r j)
      = Cert.LayerSpec.normSq (z2 (V5 m ρ) c)
          (fun j => (m ((c : Thread nD τ).loc main_arg6) : FVec Ideal S3x128 .f32) (ix2 1 j))
          (fun j => (m ((c : Thread nD τ).loc main_arg7) : FVec Ideal S3x128 .f32) (ix2 1 j)) r j := by
  rw [W8_main_v71, arrBn3_apply]
  exact normWith_congr1 (bnIn1_act m ρ c r j) (bnIn1_mean m ρ c j) (bnIn1_var m ρ c j)
    (bnIn1_scale m ρ c j) (bnIn1_shift m ρ c j)

/-! ## The layer's activation table, in the arrays the layer starts from -/

/-- Equal inputs, matrices and bias rows give equal activation tables. -/
theorem act_congr1 {n : ℕ} {u u' : Cert.LayerSpec.Tab n} {A A' C C' : Fin 128 → Fin 128 → EReal} {a a' d d' : Fin 128 → EReal}
    (hu : u = u') (hA : A = A') (ha : a = a') (hC : C = C') (hd : d = d') :
    Cert.LayerSpec.act u A a C d = Cert.LayerSpec.act u' A' a' C' d' := by
  subst hu hA ha hC hd; rfl

/-- The neighbour sums the statistics region reads: the aggregation of the layer's input table over the edge list as
    launched (the sources and destinations were cut out of it once, before the first region, and kept). -/
theorem stIn1_agg (c : Dev nD) :
    aggr2 (V5 m ρ) c
      = HostReads.aggK2 (W4 m ρ c (Proc.devRef .tc main_v37)) (HostReads.srcOf (m ((c : Thread nD τ).loc main_arg1)))
          (HostReads.dstOf (m ((c : Thread nD τ).loc main_arg1))) := by
  refine (HostReads.h2_agg (W4 m ρ c)).trans ?_
  rw [W4_main_v1_from1, W4_main_v3_from1,
    show W1 m ρ c (Proc.devRef .tc main_v1) = HostReads.srcOf (m ((c : Thread nD τ).loc main_arg1)) from HostReads.h0_src (W0 m ρ c),
    show W1 m ρ c (Proc.devRef .tc main_v3) = HostReads.dstOf (m ((c : Thread nD τ).loc main_arg1)) from HostReads.h0_dst (W0 m ρ c)]

/-- The node table the statistics region reads is the layer's input table. -/
theorem stIn1_feat (c : Dev nD) :
    feat2 (V5 m ρ) c = W4 m ρ c (Proc.devRef .tc main_v37) :=
  HostReads.h2_keep_h (W4 m ρ c)

/-- THE LAYER'S ACTIVATION TABLE: the two-layer perceptron with rectifiers, row by row, of the layer's input table plus
    its neighbour sums, with matrix 1 and row 1 of the stacked parameters as launched. -/
theorem kz1 (c : Dev nD) :
    z2 (V5 m ρ) c
      = Cert.LayerSpec.act
          (fun r l => HostReads.aggK2 (W4 m ρ c (Proc.devRef .tc main_v37)) (HostReads.srcOf (m ((c : Thread nD τ).loc main_arg1)))
                (HostReads.dstOf (m ((c : Thread nD τ).loc main_arg1))) (ix2 r l)
              + (W4 m ρ c (Proc.devRef .tc main_v37) : FVec Ideal S100000x128 .f32) (ix2 r l))
          (fun l k => (m ((c : Thread nD τ).loc main_arg2) : FVec Ideal S3x128x128 .f32) (ix3 1 l k))
          (fun k => (m ((c : Thread nD τ).loc main_arg3) : FVec Ideal S3x128 .f32) (ix2 1 k))
          (fun k j => (m ((c : Thread nD τ).loc main_arg4) : FVec Ideal S3x128x128 .f32) (ix3 1 k j))
          (fun j => (m ((c : Thread nD τ).loc main_arg5) : FVec Ideal S3x128 .f32) (ix2 1 j)) := by
  unfold z2
  refine act_congr1 ?_ ?_ ?_ ?_ ?_
  · -- the summed input: neighbour sums plus the input table
    funext r l
    show aggr2 (V5 m ρ) c (ix2 r l) + feat2 (V5 m ρ) c (ix2 r l) = _
    rw [stIn1_agg, stIn1_feat]
  · -- the first matrix: matrix 1 of its stack, which no segment writes
    funext l k
    show (V5 m ρ c main_v49 : FVec Ideal S128x128 .f32) (ix2 l k) = _
    refine (HostReads.h2_W1 (W4 m ρ c) l k).trans ?_
    rw [W4_main_arg2_from0]
  · -- the first bias row
    funext k
    show (V5 m ρ c main_v52 : FVec Ideal S1x128 .f32) (ix2 0 k) = _
    refine (HostReads.h2_b1 (W4 m ρ c) k).trans ?_
    rw [W4_main_arg3_from0]
  · -- the second matrix
    funext k j
    show (V5 m ρ c main_v54 : FVec Ideal S128x128 .f32) (ix2 k j) = _
    refine (HostReads.h2_W2 (W4 m ρ c) k j).trans ?_
    rw [W4_main_arg4_from0]
  · -- the second bias row
    funext j
    show (V5 m ρ c main_v57 : FVec Ideal S1x128 .f32) (ix2 0 j) = _
    refine (HostReads.h2_b2 (W4 m ρ c) j).trans ?_
    rw [W4_main_arg5_from0]

end Cert.KernelIdeal.Hand

end
-- ==== Proof.KI.StatsIdeal4.lean ====
/-
  Grid region 4 at the extended reals: the three output arrays as formulas in the input arrays.

  The region's 20 grid points each read a block of 5000 rows of the neighbour sums and of the node features (point t
  the rows 5000·t … 5000·t + 4999) and the whole of the two weight matrices and the two bias rows. A block's entry
  (s, l) is therefore the array's entry (5000·t + s, l), and the activations a point computes are rows
  5000·t … 5000·t + 4999 of the layer's activation table z. Hence the assembled table is z, and the two accumulators
  after the last point hold, column by column, the sum of z and the sum of its squares over all 100000 rows: each is
  the sum over the 20 blocks of the block's column sums, and 100000 rows are 20 blocks of 5000.
-/
import proofs.«147728_j53334903882348_1_alg».proof.Proof.KI.Final4
import proofs.«147728_j53334903882348_1_alg».proof.Proof.Payloads
import proofs.«147728_j53334903882348_1_alg».proof.Proof.BatchNormAlgebra
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-! ## The input arrays -/

/-- The neighbour sums, as the region finds them. -/
abbrev aggr4 (c : Dev nD) : FVec Ideal S100000x128 .f32 := V c main_v81
/-- The node features, as the region finds them. -/
abbrev feat4 (c : Dev nD) : FVec Ideal S100000x128 .f32 := V c main_v71
/-- The first weight matrix, as the region finds it. -/
abbrev wOne4 (c : Dev nD) : FVec Ideal S128x128 .f32 := V c main_v83
/-- The first bias row, as the region finds it. -/
abbrev bOne4 (c : Dev nD) : FVec Ideal S1x128 .f32 := V c main_v86
/-- The second weight matrix, as the region finds it. -/
abbrev wTwo4 (c : Dev nD) : FVec Ideal S128x128 .f32 := V c main_v88
/-- The second bias row, as the region finds it. -/
abbrev bTwo4 (c : Dev nD) : FVec Ideal S1x128 .f32 := V c main_v91

/-! ## The layer's input and activation tables -/

/-- The summed input: neighbour sums plus node features. -/
def uIn4 (c : Dev nD) : Cert.LayerSpec.Tab 100000 := fun r l =>
  aggr4 V c (ix2 r l) + feat4 V c (ix2 r l)

/-- The rectified activations of the layer. -/
def z4 (c : Dev nD) : Cert.LayerSpec.Tab 100000 :=
  Cert.LayerSpec.act (uIn4 V c) (fun l k => wOne4 V c (ix2 l k))
    (fun k => bOne4 V c (ix2 0 k)) (fun k j => wTwo4 V c (ix2 k j))
    (fun j => bTwo4 V c (ix2 0 j))

/-! ## The blocks the points read -/

/-- Row s of block t is row 5000·t + s of the table. -/
theorem row_lt4 (t : Fin cfg4.N) (s : Fin 5000) : t.val * 5000 + s.val < 100000 := by
  have hN : cfg4.N = 20 := N_4
  have ht := t.isLt
  have hs := s.isLt
  omega

/-- The table's row that row s of block t is. -/
def rowOf4 (t : Fin cfg4.N) (s : Fin 5000) : Fin 100000 := ⟨t.val * 5000 + s.val, row_lt4 t s⟩

/-- The input windows' block indices at point t: (t, 0) for the two tables, (0, 0) for the weights and biases. -/
theorem idx_facts4_in : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0)

/-- The neighbour sums' block at point t, entry (s, l): the table's entry (5000·t + s, l). -/
theorem iblk4_0_apply (c : Dev nD) (t : Fin cfg4.N) (s : Fin 5000) (l : Fin 128) :
    (iblk4 V c 0 t : Vec Ideal S5000x128 .f32) (ix2 s l)
      = aggr4 V c (ix2 (rowOf4 t s) l) := by
  obtain ⟨e0, e1, -⟩ := idx_facts4_in t
  unfold iblk4
  rw [View.read_apply]
  show aggr4 V c (((cfg4.win 0).blk t).view.emb (ix2 s l)) = _
  refine congrArg _ (funext fun a => Fin.ext ?_)
  match a with
  | ⟨0, _⟩ => show win4_0.index t (0 : Fin 2) * 5000 + 1 * s.val = t.val * 5000 + s.val; rw [e0]; omega
  | ⟨1, _⟩ => show win4_0.index t (1 : Fin 2) * 128 + 1 * l.val = l.val; rw [e1]; omega

/-- The node features' block at point t, entry (s, l): the table's entry (5000·t + s, l). -/
theorem iblk4_1_apply (c : Dev nD) (t : Fin cfg4.N) (s : Fin 5000) (l : Fin 128) :
    (iblk4 V c 1 t : Vec Ideal S5000x128 .f32) (ix2 s l)
      = feat4 V c (ix2 (rowOf4 t s) l) := by
  obtain ⟨-, -, e0, e1, -⟩ := idx_facts4_in t
  unfold iblk4
  rw [View.read_apply]
  show feat4 V c (((cfg4.win 1).blk t).view.emb (ix2 s l)) = _
  refine congrArg _ (funext fun a => Fin.ext ?_)
  match a with
  | ⟨0, _⟩ => show win4_1.index t (0 : Fin 2) * 5000 + 1 * s.val = t.val * 5000 + s.val; rw [e0]; omega
  | ⟨1, _⟩ => show win4_1.index t (1 : Fin 2) * 128 + 1 * l.val = l.val; rw [e1]; omega

/-- The first weight matrix's block is the matrix. -/
theorem iblk4_2_apply (c : Dev nD) (t : Fin cfg4.N) (l k : Fin 128) :
    (iblk4 V c 2 t : Vec Ideal S128x128 .f32) (ix2 l k) = wOne4 V c (ix2 l k) := by
  obtain ⟨-, -, -, -, e0, e1, -⟩ := idx_facts4_in t
  unfold iblk4
  rw [View.read_apply]
  show wOne4 V c (((cfg4.win 2).blk t).view.emb (ix2 l k)) = _
  refine congrArg _ (funext fun a => Fin.ext ?_)
  match a with
  | ⟨0, _⟩ => show win4_2.index t (0 : Fin 2) * 128 + 1 * l.val = l.val; rw [e0]; omega
  | ⟨1, _⟩ => show win4_2.index t (1 : Fin 2) * 128 + 1 * k.val = k.val; rw [e1]; omega

/-- The first bias row's block is the row. -/
theorem iblk4_3_apply (c : Dev nD) (t : Fin cfg4.N) (u : Fin 1) (k : Fin 128) :
    (iblk4 V c 3 t : Vec Ideal S1x128 .f32) (ix2 u k) = bOne4 V c (ix2 u k) := by
  obtain ⟨-, -, -, -, -, -, e0, e1, -⟩ := idx_facts4_in t
  unfold iblk4
  rw [View.read_apply]
  show bOne4 V c (((cfg4.win 3).blk t).view.emb (ix2 u k)) = _
  refine congrArg _ (funext fun a => Fin.ext ?_)
  match a with
  | ⟨0, _⟩ => show win4_3.index t (0 : Fin 2) * 1 + 1 * u.val = u.val; rw [e0]; omega
  | ⟨1, _⟩ => show win4_3.index t (1 : Fin 2) * 128 + 1 * k.val = k.val; rw [e1]; omega

/-- The second weight matrix's block is the matrix. -/
theorem iblk4_4_apply (c : Dev nD) (t : Fin cfg4.N) (k j : Fin 128) :
    (iblk4 V c 4 t : Vec Ideal S128x128 .f32) (ix2 k j) = wTwo4 V c (ix2 k j) := by
  obtain ⟨-, -, -, -, -, -, -, -, e0, e1, -⟩ := idx_facts4_in t
  unfold iblk4
  rw [View.read_apply]
  show wTwo4 V c (((cfg4.win 4).blk t).view.emb (ix2 k j)) = _
  refine congrArg _ (funext fun a => Fin.ext ?_)
  match a with
  | ⟨0, _⟩ => show win4_4.index t (0 : Fin 2) * 128 + 1 * k.val = k.val; rw [e0]; omega
  | ⟨1, _⟩ => show win4_4.index t (1 : Fin 2) * 128 + 1 * j.val = j.val; rw [e1]; omega

/-- The second bias row's block is the row. -/
theorem iblk4_5_apply (c : Dev nD) (t : Fin cfg4.N) (u : Fin 1) (j : Fin 128) :
    (iblk4 V c 5 t : Vec Ideal S1x128 .f32) (ix2 u j) = bTwo4 V c (ix2 u j) := by
  obtain ⟨-, -, -, -, -, -, -, -, -, -, e0, e1⟩ := idx_facts4_in t
  unfold iblk4
  rw [View.read_apply]
  show bTwo4 V c (((cfg4.win 5).blk t).view.emb (ix2 u j)) = _
  refine congrArg _ (funext fun a => Fin.ext ?_)
  match a with
  | ⟨0, _⟩ => show win4_5.index t (0 : Fin 2) * 1 + 1 * u.val = u.val; rw [e0]; omega
  | ⟨1, _⟩ => show win4_5.index t (1 : Fin 2) * 128 + 1 * j.val = j.val; rw [e1]; omega

/-! ## The activations -/

/-- The activations point t computes are the rows 5000·t … 5000·t + 4999 of z. -/
theorem actBlk4_apply (c : Dev nD) (t : Fin cfg4.N) (s : Fin 5000) (j : Fin 128) :
    actBlk4 V c t (ix2 s j) = z4 V c (rowOf4 t s) j := by
  unfold actBlk4
  refine (Pay.k4_pay5_apply _ _ _ _ _ _ s j).trans ?_
  unfold z4 uIn4 Cert.LayerSpec.act Cert.LayerSpec.hidden
  simp only [iblk4_0_apply V c t, iblk4_1_apply V c t, iblk4_2_apply V c t, iblk4_3_apply V c t,
    iblk4_4_apply V c t, iblk4_5_apply V c t]

/-- The assembled table is z. -/
theorem actArr4_apply (c : Dev nD) (r : Fin 100000) (j : Fin 128) : actArr4 V c (ix2 r j) = z4 V c r j := by
  unfold actArr4
  refine (actBlk4_apply V c _ _ _).trans ?_
  refine congr (congrArg (z4 V c) (Fin.ext ?_)) (Fin.ext rfl)
  show r.val / 5000 * 5000 + r.val % 5000 = r.val
  omega

/-! ## The two accumulators -/

/-- 100000 rows are 20 blocks of 5000. -/
theorem sum_rows4 (f : Fin 100000 → EReal) :
    ∑ r : Fin 100000, f r = ∑ t : Fin 20, ∑ s : Fin 5000, f ⟨t.val * 5000 + s.val, by have := t.isLt; have := s.isLt; omega⟩ :=
  Cert.BatchNormAlgebra.sum_blocks (a := 20) (b := 5000) f

/-- After point n the first accumulator holds the column sums of the blocks 0 … n. -/
theorem sumChain4_apply (c : Dev nD) : ∀ (n : ℕ) (h : n < cfg4.N) (j : Fin 128),
    sumChain4 V c n h (ix2 0 j)
      = ∑ t : Fin (n + 1), ∑ s : Fin 5000, actBlk4 V c ⟨t.val, Nat.lt_of_le_of_lt (Nat.le_of_lt_succ t.isLt) h⟩ (ix2 s j)
  | 0, h, j => by
    show Gen.k4_pay1 (Gen.k4_pay6 (F := Ideal) (Gen.k4_pay3 (F := Ideal))) (Gen.k4_pay7 _ _ _ _ _ _) (ix2 0 j) = _
    rw [Pay.k4_pay1_apply, Pay.k4_pay6_apply, Pay.k4_pay3_apply, Pay.k4_pay7_apply, zero_add, Fin.sum_univ_one]
    rfl
  | n + 1, h, j => by
    show Gen.k4_pay1 (Gen.k4_pay6 (F := Ideal) (sumChain4 V c n _)) (Gen.k4_pay7 _ _ _ _ _ _) (ix2 0 j) = _
    rw [Pay.k4_pay1_apply, Pay.k4_pay6_apply, sumChain4_apply c n _ j, Pay.k4_pay7_apply]
    exact (Fin.sum_univ_castSucc (M := EReal) (fun t : Fin (n + 1 + 1) =>
      ∑ s : Fin 5000, actBlk4 V c ⟨t.val, Nat.lt_of_le_of_lt (Nat.le_of_lt_succ t.isLt) h⟩ (ix2 s j))).symm

/-- After point n the second accumulator holds the column sums of the squares of the blocks 0 … n. -/
theorem sqChain4_apply (c : Dev nD) : ∀ (n : ℕ) (h : n < cfg4.N) (j : Fin 128),
    sqChain4 V c n h (ix2 0 j)
      = ∑ t : Fin (n + 1), ∑ s : Fin 5000,
          actBlk4 V c ⟨t.val, Nat.lt_of_le_of_lt (Nat.le_of_lt_succ t.isLt) h⟩ (ix2 s j)
            * actBlk4 V c ⟨t.val, Nat.lt_of_le_of_lt (Nat.le_of_lt_succ t.isLt) h⟩ (ix2 s j)
  | 0, h, j => by
    show Gen.k4_pay2 (actBlk4 V c ⟨0, h⟩) (Gen.k4_pay4 (F := Ideal)) (ix2 0 j) = _
    rw [Pay.k4_pay2_apply, Pay.k4_pay4_apply, zero_add, Fin.sum_univ_one]
    rfl
  | n + 1, h, j => by
    show Gen.k4_pay2 (actBlk4 V c ⟨n + 1, h⟩) (sqChain4 V c n _) (ix2 0 j) = _
    rw [Pay.k4_pay2_apply, sqChain4_apply c n _ j]
    exact (Fin.sum_univ_castSucc (M := EReal) (fun t : Fin (n + 1 + 1) =>
      ∑ s : Fin 5000, actBlk4 V c ⟨t.val, Nat.lt_of_le_of_lt (Nat.le_of_lt_succ t.isLt) h⟩ (ix2 s j) * actBlk4 V c ⟨t.val, Nat.lt_of_le_of_lt (Nat.le_of_lt_succ t.isLt) h⟩ (ix2 s j))).symm

/-- After the last point the first accumulator holds the column sums of z over all the rows. -/
theorem sumChain4_last (c : Dev nD) (h : 19 < cfg4.N) (j : Fin 128) :
    sumChain4 V c 19 h (ix2 0 j) = ∑ r : Fin 100000, z4 V c r j := by
  rw [sumChain4_apply V c 19 h j, sum_rows4]
  refine Finset.sum_congr rfl fun t _ => Finset.sum_congr rfl fun s _ => ?_
  exact actBlk4_apply V c _ s j

/-- After the last point the second accumulator holds the column sums of the squares of z over all the rows. -/
theorem sqChain4_last (c : Dev nD) (h : 19 < cfg4.N) (j : Fin 128) :
    sqChain4 V c 19 h (ix2 0 j) = ∑ r : Fin 100000, z4 V c r j * z4 V c r j := by
  rw [sqChain4_apply V c 19 h j, sum_rows4]
  refine Finset.sum_congr rfl fun t _ => Finset.sum_congr rfl fun s _ => ?_
  rw [actBlk4_apply V c _ s j]
  rfl

end Cert.KernelIdeal.Hand

end
-- ==== Proof.KI.ValueBn5.lean ====
/-
  Grid region 5, the value: what the normalisation kernel leaves in its output array.

  At each of the 20 grid points the body stores, over its whole 5000 × 128 output block, the block
  (z - mean) * rsqrt (var + eps) * scale + shift of its five input blocks: rows 5000 t … 5000 t + 4999 of the
  activations z, and the four 128-wide rows, which are each their whole array. Entry (s, j) of the stored block
  therefore depends on z at row 5000 t + s, column j, and on column j of the four rows. The 20 output blocks
  tile the 100000 × 128 output array (row r lies in the block of point r / 5000), so after the region the array
  holds, at every (r, j), the normalised entry of z (r, j) with column j's mean, variance, scale and shift.
-/
import proofs.«147728_j53334903882348_1_alg».proof.Proof.KI.Bn5
import proofs.«147728_j53334903882348_1_alg».proof.Proof.LayerSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offset of the one store and of the five loads is zero on both axes. -/
theorem hzBn5 : (![0, 0] : Fin 2 → Nat) = fun _ => 0 := funext fun a => by fin_cases a <;> rfl

section AnyInstance
variable {F : FTy → Type} [FloatOps F]

/-- The output block after the body is the stored block itself: the store covers the block, and each load reads
    its whole buffer. -/
theorem out5_5_eq (x0 : Vec F S5000x128 .f32) (x1 x2 x3 x4 : Vec F S1x128 .f32) :
    out5_5 x0 x1 x2 x3 x4 = k5_pay1 x2 x0 x1 x3 x4 := by
  unfold out5_5
  rw [View.canon_unit_zero hzBn5]
  simp only [View.ld_unit_zero (S := S5000x128) hzBn5, View.ld_unit_zero (S := S1x128) hzBn5]

end AnyInstance

/-- The stored block at row `s`, column `j`: the entry of the activations there, normalised with column `j` of
    the mean, variance, scale and shift rows. -/
theorem bnPay5_apply (v0 : Vec Ideal S1x128 .f32) (v5 : Vec Ideal S5000x128 .f32) (v7 v13 v17 : Vec Ideal S1x128 .f32)
    (s : Fin 5000) (j : Fin 128) :
    k5_pay1 (F := Ideal) v0 v5 v7 v13 v17 (ix2 s j)
      = Cert.LayerSpec.normWith (v5 (ix2 s j)) (v7 (ix2 0 j)) (v0 (ix2 0 j)) (v13 (ix2 0 j)) (v17 (ix2 0 j)) := by
  unfold k5_pay1 Cert.LayerSpec.normWith Cert.LayerSpec.eps
  simp only [shapeCast_self, addf_apply, mulf_apply, subf_apply, broadcastTo_1b_ab_apply]
  rfl

/-! ## The array -/

/-- The output array as one function of the five input arrays: at `(r, j)` the entry of `Z` there, normalised with
    column `j` of the mean, variance, scale and shift rows. -/
abbrev bnArr5 (Z : S100000x128.Idx → Elt Ideal .f32) (M Vr G B : S1x128.Idx → Elt Ideal .f32) :
    S100000x128.Idx → Elt Ideal .f32 :=
  fun i => Cert.LayerSpec.normWith (Z i) (M (ix2 0 (i 1))) (Vr (ix2 0 (i 1))) (G (ix2 0 (i 1))) (B (ix2 0 (i 1)))

/-- The index maps over the 20 grid points: the activations' block moves with the output's, each of the four rows
    stays at block (0, 0), and the output's block at point `t` is block (t, 0). -/
theorem idxBn5 : ∀ t : Fin cfg5.N,
    win5_0.index t (0 : Fin 2) = win5_5.index t (0 : Fin 2) ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- One entry of the stored block, over variables: if the activations' block at `y` is `Z` at the array index `i`,
    the four row blocks are the rows `M Vr G B`, and `i` is in `y`'s column, the entry at `y` is the array function
    at `i`. -/
theorem bnBlock5_apply (Z : S100000x128.Idx → Elt Ideal .f32) (M Vr G B : S1x128.Idx → Elt Ideal .f32)
    (x0 : Vec Ideal S5000x128 .f32) (x1 x2 x3 x4 : Vec Ideal S1x128 .f32) (y : S5000x128.Idx) (i : S100000x128.Idx)
    (h0 : x0 y = Z i) (h1 : ∀ k, x1 k = M k) (h2 : ∀ k, x2 k = Vr k) (h3 : ∀ k, x3 k = G k) (h4 : ∀ k, x4 k = B k)
    (hcol : (i 1).val = (y 1).val) :
    k5_pay1 (F := Ideal) x2 x0 x1 x3 x4 y = bnArr5 Z M Vr G B i := by
  obtain ⟨s, j, rfl⟩ : ∃ (s : Fin 5000) (j : Fin 128), y = ix2 s j := ⟨y 0, y 1, eq_ix2 y⟩
  rw [bnPay5_apply, h0, h1, h2, h3, h4]
  exact congrArg (fun x : Fin 128 => Cert.LayerSpec.normWith (Z i) (M (ix2 0 x)) (Vr (ix2 0 x)) (G (ix2 0 x)) (B (ix2 0 x)))
    (Fin.ext hcol.symm : j = (i 1 : Fin 128))

variable (V : (c : Dev nD) → (b : Ref sig .tc) → Buf (Elt Ideal) ((c : Thread nD τ).loc b))

set_option maxHeartbeats 1000000 in
/-- What point `t` writes back is block `t` of the array function of the five input arrays as the region finds them. -/
theorem flushedBn5 (c : Dev nD) (t : Fin cfg5.N) :
    (dat5 V c).flushed 5 t = ((cfg5.win 5).blk t).view.read (Elt Ideal)
      (bnArr5 (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5, out5_5_eq]
  obtain ⟨e00, e01, e10, e11, e20, e21, e30, e31, e40, e41, e50, e51⟩ := idxBn5 t
  funext y
  show k5_pay1 (F := Ideal) (iblk5 V c 2 t) (iblk5 V c 0 t) (iblk5 V c 1 t) (iblk5 V c 3 t) (iblk5 V c 4 t) y
      = bnArr5 (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb y)
  refine bnBlock5_apply _ _ _ _ _ _ _ _ _ _ y _ ?_ ?_ ?_ ?_ ?_ ?_
  · -- the activations' block sits where the output's does
    show V c (Pipeline.arrRef spec5 0) (((cfg5.win 0).blk t).view.emb y)
        = V c (Pipeline.arrRef spec5 0) (((cfg5.win 5).blk t).view.emb y)
    refine congrArg _ ?_
    funext a; apply Fin.ext
    match a with
    | ⟨0, _⟩ => show win5_0.index t (0 : Fin 2) * 5000 + 1 * (y 0).val = win5_5.index t (0 : Fin 2) * 5000 + 1 * (y 0).val; omega
    | ⟨1, _⟩ => show win5_0.index t (1 : Fin 2) * 128 + 1 * (y 1).val = win5_5.index t (1 : Fin 2) * 128 + 1 * (y 1).val; omega
  · -- each row's block is the whole row
    intro k
    show V c (Pipeline.arrRef spec5 1) (((cfg5.win 1).blk t).view.emb k) = V c (Pipeline.arrRef spec5 1) k
    refine congrArg _ ?_
    funext a; apply Fin.ext
    match a with
    | ⟨0, _⟩ => show win5_1.index t (0 : Fin 2) * 1 + 1 * (k 0).val = (k 0).val; omega
    | ⟨1, _⟩ => show win5_1.index t (1 : Fin 2) * 128 + 1 * (k 1).val = (k 1).val; omega
  · intro k
    show V c (Pipeline.arrRef spec5 2) (((cfg5.win 2).blk t).view.emb k) = V c (Pipeline.arrRef spec5 2) k
    refine congrArg _ ?_
    funext a; apply Fin.ext
    match a with
    | ⟨0, _⟩ => show win5_2.index t (0 : Fin 2) * 1 + 1 * (k 0).val = (k 0).val; omega
    | ⟨1, _⟩ => show win5_2.index t (1 : Fin 2) * 128 + 1 * (k 1).val = (k 1).val; omega
  · intro k
    show V c (Pipeline.arrRef spec5 3) (((cfg5.win 3).blk t).view.emb k) = V c (Pipeline.arrRef spec5 3) k
    refine congrArg _ ?_
    funext a; apply Fin.ext
    match a with
    | ⟨0, _⟩ => show win5_3.index t (0 : Fin 2) * 1 + 1 * (k 0).val = (k 0).val; omega
    | ⟨1, _⟩ => show win5_3.index t (1 : Fin 2) * 128 + 1 * (k 1).val = (k 1).val; omega
  · intro k
    show V c (Pipeline.arrRef spec5 4) (((cfg5.win 4).blk t).view.emb k) = V c (Pipeline.arrRef spec5 4) k
    refine congrArg _ ?_
    funext a; apply Fin.ext
    match a with
    | ⟨0, _⟩ => show win5_4.index t (0 : Fin 2) * 1 + 1 * (k 0).val = (k 0).val; omega
    | ⟨1, _⟩ => show win5_4.index t (1 : Fin 2) * 128 + 1 * (k 1).val = (k 1).val; omega
  · -- the output's block is at column block 0, so a block column is the array column
    show win5_5.index t (1 : Fin 2) * 128 + 1 * (y 1).val = (y 1).val
    omega

/-- An index of the array is in point `t`'s output block iff each coordinate is in the block's range on its axis. -/
theorem mem_blkBn5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- The 20 output blocks cover the array: row `r` lies in the block of point `r / 5000`. -/
theorem coverBn5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have hq : (i 0).val / 5000 < cfg5.N := by omega
  obtain ⟨e00, e01, e10, e11, e20, e21, e30, e31, e40, e41, e50, e51⟩ := idxBn5 ⟨(i 0).val / 5000, hq⟩
  refine ⟨⟨(i 0).val / 5000, hq⟩, flush5_5 _, ?_⟩
  rw [mem_blkBn5]
  intro a
  match a with
  | ⟨0, _⟩ =>
    show win5_5.index ⟨(i 0).val / 5000, hq⟩ (0 : Fin 2) * 5000 ≤ (i 0).val
      ∧ (i 0).val < win5_5.index ⟨(i 0).val / 5000, hq⟩ (0 : Fin 2) * 5000 + 5000
    have e : win5_5.index ⟨(i 0).val / 5000, hq⟩ (0 : Fin 2) = (i 0).val / 5000 := e50
    omega
  | ⟨1, _⟩ =>
    show win5_5.index ⟨(i 0).val / 5000, hq⟩ (1 : Fin 2) * 128 ≤ (i 1).val
      ∧ (i 1).val < win5_5.index ⟨(i 0).val / 5000, hq⟩ (1 : Fin 2) * 128 + 128
    omega

/-- THE ARRAY after the region: the normalised table, entry by entry, of the five input arrays as the region finds them. -/
theorem arrBn5 (c : Dev nD) :
    (dat5 V c).arrAt 5 cfg5.N
      = bnArr5 (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushedBn5 V c t) coverBn5

/-- The same at row `r`, column `j`. -/
theorem arrBn5_apply (c : Dev nD) (r : Fin 100000) (j : Fin 128) :
    (dat5 V c).arrAt 5 cfg5.N (ix2 r j)
      = Cert.LayerSpec.normWith (V c (Pipeline.arrRef spec5 0) (ix2 r j)) (V c (Pipeline.arrRef spec5 1) (ix2 0 j))
          (V c (Pipeline.arrRef spec5 2) (ix2 0 j)) (V c (Pipeline.arrRef spec5 3) (ix2 0 j)) (V c (Pipeline.arrRef spec5 4) (ix2 0 j)) := by
  rw [arrBn5]

end Cert.KernelIdeal.Hand

end
-- ==== Proof.KI.LayerOut2.lean ====
/-
  Layer 2 of the kernel program, read at an index: the layer's output array after its normalisation region.

  The normalisation region writes, at (r, j), the normalised entry of the activations z (r, j) with column j of the
  four rows the host stretch before it prepared: the mean row is the column sum of z over the row count, the variance
  row is the column sum of the squares of z over the row count less the squared mean, and the scale and shift rows
  are row 2 of the two stacks of three given as arguments, which no segment of the run writes. The column sums are
  what the statistics region before that stretch accumulated over its 20 blocks, and the activations are the table
  it assembled. So the layer's output is the normalisation, in its mean-of-squares form, of the layer's activation
  table by row 2 of the scale and shift stacks.
-/
import proofs.«147728_j53334903882348_1_alg».proof.Proof.KI.Bounds
import proofs.«147728_j53334903882348_1_alg».proof.Proof.KI.StatsIdeal4
import proofs.«147728_j53334903882348_1_alg».proof.Proof.KI.HostReads
import proofs.«147728_j53334903882348_1_alg».proof.Proof.KI.ValueBn5
import proofs.«147728_j53334903882348_1_alg».proof.Proof.LayerSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.BatchNormAlgebra Cert.LayerSpec
open scoped BigOperators

/-! ## Over a variable table -/

/-- The column sum over the row count is the column's mean. -/
theorem meanOfSum2 {n : ℕ} (z : Cert.LayerSpec.Tab n) (j : Fin 128) (N s : EReal) (hs : s = ∑ r, z r j) :
    Ideal.div s N = mean N (col z j) := by
  subst hs; rfl

/-- The column sum of squares over the row count, less the squared mean, is the column's variance in its
    mean-of-squares form. -/
theorem varOfSums2 {n : ℕ} (z : Cert.LayerSpec.Tab n) (j : Fin 128) (N q μ : EReal) (hq : q = ∑ r, z r j * z r j)
    (hμ : μ = mean N (col z j)) : Ideal.div q N - μ * μ = varOfSquares N (col z j) := by
  subst hq hμ; rfl

/-- Equal parts give equal normalised entries. -/
theorem normWith_congr2 {x x' μ μ' v v' g g' b b' : EReal} (hx : x = x') (hμ : μ = μ') (hv : v = v') (hg : g = g')
    (hb : b = b') : normWith x μ v g b = normWith x' μ' v' g' b' := by
  subst hx hμ hv hg hb; rfl

variable (m : (ℓ : Loc nD τ sig) → Buf (Elt Ideal) ℓ) (ρ : Dev nD → PrngReg)

/-! ## The five rows and tables the normalisation region reads -/

/-- The activations the region reads are the layer's activation table. -/
theorem bnIn2_act (c : Dev nD) (r : Fin 100000) (j : Fin 128) :
    (V11 m ρ c (Pipeline.arrRef spec5 0) : FVec Ideal S100000x128 .f32) (ix2 r j) = z4 (V9 m ρ) c r j := by
  show (StableHlo.after (hostOps5 (F := Ideal)) (W10 m ρ c) (Proc.devRef .tc main_v92_0) : FVec Ideal S100000x128 .f32) (ix2 r j) = _
  rw [HostReads.h5_keep_z, W10_main_v92_0]
  exact actArr4_apply (V9 m ρ) c r j

/-- The mean row the region reads is, column by column, the mean of the activation table's column. -/
theorem bnIn2_mean (c : Dev nD) (j : Fin 128) :
    (V11 m ρ c (Pipeline.arrRef spec5 1) : FVec Ideal S1x128 .f32) (ix2 0 j)
      = mean rows (col (z4 (V9 m ρ) c) j) := by
  refine (HostReads.h5_mean (W10 m ρ c) j).trans ?_
  refine meanOfSum2 _ j _ _ ?_
  rw [W10_main_v92_1]
  exact sumChain4_last (V9 m ρ) c _ j

/-- The variance row the region reads is, column by column, the mean of squares less the squared mean. -/
theorem bnIn2_var (c : Dev nD) (j : Fin 128) :
    (V11 m ρ c (Pipeline.arrRef spec5 2) : FVec Ideal S1x128 .f32) (ix2 0 j)
      = varOfSquares rows (col (z4 (V9 m ρ) c) j) := by
  refine (HostReads.h5_var (W10 m ρ c) j).trans ?_
  refine varOfSums2 _ j _ _ _ ?_ (bnIn2_mean m ρ c j)
  rw [W10_main_v92_2]
  exact sqChain4_last (V9 m ρ) c _ j

/-- The scale row the region reads is row 2 of the scale stack as launched. -/
theorem bnIn2_scale (c : Dev nD) (j : Fin 128) :
    (V11 m ρ c (Pipeline.arrRef spec5 3) : FVec Ideal S1x128 .f32) (ix2 0 j)
      = (m ((c : Thread nD τ).loc main_arg6) : FVec Ideal S3x128 .f32) (ix2 2 j) := by
  refine (HostReads.h5_gamma (W10 m ρ c) j).trans ?_
  rw [W10_main_arg6_from0]

/-- The shift row the region reads is row 2 of the shift stack as launched. -/
theorem bnIn2_shift (c : Dev nD) (j : Fin 128) :
    (V11 m ρ c (Pipeline.arrRef spec5 4) : FVec Ideal S1x128 .f32) (ix2 0 j)
      = (m ((c : Thread nD τ).loc main_arg7) : FVec Ideal S3x128 .f32) (ix2 2 j) := by
  refine (HostReads.h5_beta (W10 m ρ c) j).trans ?_
  rw [W10_main_arg7_from0]

/-! ## The layer's output -/

/-- THE LAYER'S OUTPUT at row `r`, column `j`: the normalisation (variance as mean of squares less squared mean) of the
    layer's activation table by row 2 of the scale and shift stacks. -/
theorem kout2 (c : Dev nD) (r : Fin 100000) (j : Fin 128) :
    (W12 m ρ c (Proc.devRef .tc main_v105) : FVec Ideal S100000x128 .f32) (ix2 r j)
      = Cert.LayerSpec.normSq (z4 (V9 m ρ) c)
          (fun j => (m ((c : Thread nD τ).loc main_arg6) : FVec Ideal S3x128 .f32) (ix2 2 j))
          (fun j => (m ((c : Thread nD τ).loc main_arg7) : FVec Ideal S3x128 .f32) (ix2 2 j)) r j := by
  rw [W12_main_v105, arrBn5_apply]
  exact normWith_congr2 (bnIn2_act m ρ c r j) (bnIn2_mean m ρ c j) (bnIn2_var m ρ c j)
    (bnIn2_scale m ρ c j) (bnIn2_shift m ρ c j)

/-! ## The layer's activation table, in the arrays the layer starts from -/

/-- Equal inputs, matrices and bias rows give equal activation tables. -/
theorem act_congr2 {n : ℕ} {u u' : Cert.LayerSpec.Tab n} {A A' C C' : Fin 128 → Fin 128 → EReal} {a a' d d' : Fin 128 → EReal}
    (hu : u = u') (hA : A = A') (ha : a = a') (hC : C = C') (hd : d = d') :
    Cert.LayerSpec.act u A a C d = Cert.LayerSpec.act u' A' a' C' d' := by
  subst hu hA ha hC hd; rfl

/-- The neighbour sums the statistics region reads: the aggregation of the layer's input table over the edge list as
    launched (the sources and destinations were cut out of it once, before the first region, and kept). -/
theorem stIn2_agg (c : Dev nD) :
    aggr4 (V9 m ρ) c
      = HostReads.aggK2 (W8 m ρ c (Proc.devRef .tc main_v71)) (HostReads.srcOf (m ((c : Thread nD τ).loc main_arg1)))
          (HostReads.dstOf (m ((c : Thread nD τ).loc main_arg1))) := by
  refine (HostReads.h4_agg (W8 m ρ c)).trans ?_
  rw [W8_main_v1_from1, W8_main_v3_from1,
    show W1 m ρ c (Proc.devRef .tc main_v1) = HostReads.srcOf (m ((c : Thread nD τ).loc main_arg1)) from HostReads.h0_src (W0 m ρ c),
    show W1 m ρ c (Proc.devRef .tc main_v3) = HostReads.dstOf (m ((c : Thread nD τ).loc main_arg1)) from HostReads.h0_dst (W0 m ρ c)]

/-- The node table the statistics region reads is the layer's input table. -/
theorem stIn2_feat (c : Dev nD) :
    feat4 (V9 m ρ) c = W8 m ρ c (Proc.devRef .tc main_v71) :=
  HostReads.h4_keep_h (W8 m ρ c)

/-- THE LAYER'S ACTIVATION TABLE: the two-layer perceptron with rectifiers, row by row, of the layer's input table plus
    its neighbour sums, with matrix 2 and row 2 of the stacked parameters as launched. -/
theorem kz2 (c : Dev nD) :
    z4 (V9 m ρ) c
      = Cert.LayerSpec.act
          (fun r l => HostReads.aggK2 (W8 m ρ c (Proc.devRef .tc main_v71)) (HostReads.srcOf (m ((c : Thread nD τ).loc main_arg1)))
                (HostReads.dstOf (m ((c : Thread nD τ).loc main_arg1))) (ix2 r l)
              + (W8 m ρ c (Proc.devRef .tc main_v71) : FVec Ideal S100000x128 .f32) (ix2 r l))
          (fun l k => (m ((c : Thread nD τ).loc main_arg2) : FVec Ideal S3x128x128 .f32) (ix3 2 l k))
          (fun k => (m ((c : Thread nD τ).loc main_arg3) : FVec Ideal S3x128 .f32) (ix2 2 k))
          (fun k j => (m ((c : Thread nD τ).loc main_arg4) : FVec Ideal S3x128x128 .f32) (ix3 2 k j))
          (fun j => (m ((c : Thread nD τ).loc main_arg5) : FVec Ideal S3x128 .f32) (ix2 2 j)) := by
  unfold z4
  refine act_congr2 ?_ ?_ ?_ ?_ ?_
  · -- the summed input: neighbour sums plus the input table
    funext r l
    show aggr4 (V9 m ρ) c (ix2 r l) + feat4 (V9 m ρ) c (ix2 r l) = _
    rw [stIn2_agg, stIn2_feat]
  · -- the first matrix: matrix 2 of its stack, which no segment writes
    funext l k
    show (V9 m ρ c main_v83 : FVec Ideal S128x128 .f32) (ix2 l k) = _
    refine (HostReads.h4_W1 (W8 m ρ c) l k).trans ?_
    rw [W8_main_arg2_from0]
  · -- the first bias row
    funext k
    show (V9 m ρ c main_v86 : FVec Ideal S1x128 .f32) (ix2 0 k) = _
    refine (HostReads.h4_b1 (W8 m ρ c) k).trans ?_
    rw [W8_main_arg3_from0]
  · -- the second matrix
    funext k j
    show (V9 m ρ c main_v88 : FVec Ideal S128x128 .f32) (ix2 k j) = _
    refine (HostReads.h4_W2 (W8 m ρ c) k j).trans ?_
    rw [W8_main_arg4_from0]
  · -- the second bias row
    funext j
    show (V9 m ρ c main_v91 : FVec Ideal S1x128 .f32) (ix2 0 j) = _
    refine (HostReads.h4_b2 (W8 m ρ c) j).trans ?_
    rw [W8_main_arg5_from0]

end Cert.KernelIdeal.Hand

end
-- ==== Proof.RefSpec.lean ====
/-
  Each layer of the reference as the index-by-index specification with the stacked parameters read in place, and the
  facts that carry real numbers from one layer to the next.

  Layer k (k = 0, 1, 2) of the reference, read at row r and column j, is the specification's normalised activations of
  the neighbour sums plus the layer's input, with weights, biases, scale and shift the members k of the stacked
  arguments. If the input and the parameters are tables of real numbers then so are the activations and the layer's
  output, whatever the edge list holds; hence, from real arguments, every layer's input is real, and on such a layer the
  variance taken as the mean of the squares minus the squared mean gives the same normalised table.
-/
import proofs.«147728_j53334903882348_1_alg».proof.Proof.RefLayers

noncomputable section

namespace Cert.RefLayers

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## A layer's specification with the stacked parameters read in place -/

section Spec
open Cert.LayerSpec

/-- The rectified activations of layer `k`: the perceptron of the neighbour sums plus the input, its parameters the
    members `k` of the stacks. -/
def zSpec (h : Tab) (ei : Edges) (W1s : Mats) (b1s : Rows) (W2s : Mats) (b2s : Rows) (k : Fin 3) : LayerSpec.Tab 100000 :=
  act (fun r l => refAgg h ei (ix2 r l) + h (ix2 r l)) (fun l k' => W1s (ix3 k l k')) (fun k' => b1s (ix2 k k'))
    (fun k' j => W2s (ix3 k k' j)) (fun j => b2s (ix2 k j))

/-- Layer `k`: the activations normalised by column, scale and shift the members `k` of their stacks. -/
def layerSpec (h : Tab) (ei : Edges) (W1s : Mats) (b1s : Rows) (W2s : Mats) (b2s : Rows) (gs bs : Rows) (k : Fin 3) :
    LayerSpec.Tab 100000 :=
  normDev (zSpec h ei W1s b1s W2s b2s k) (fun j => gs (ix2 k j)) (fun j => bs (ix2 k j))

/-- A layer at an index, its parameters given entry by entry. -/
theorem refLayer_apply_of_reads (h : Tab) (ei : Edges) (W1 W2 : Mat) (b1 b2 g b : Row)
    (w1 w2 : Fin 128 → Fin 128 → EReal) (c1 c2 γ β : Fin 128 → EReal)
    (hw1 : ∀ l k, W1 (ix2 l k) = w1 l k) (hc1 : ∀ k, b1 (ix1 k) = c1 k) (hw2 : ∀ k j, W2 (ix2 k j) = w2 k j)
    (hc2 : ∀ j, b2 (ix1 j) = c2 j) (hγ : ∀ j, g (ix1 j) = γ j) (hβ : ∀ j, b (ix1 j) = β j) (r : Fin 100000) (j : Fin 128) :
    refLayer h ei W1 W2 b1 b2 g b (ix2 r j) = normDev (act (fun r l => refAgg h ei (ix2 r l) + h (ix2 r l)) w1 c1 w2 c2) γ β r j := by
  obtain rfl : (fun l k => W1 (ix2 l k)) = w1 := funext fun l => funext fun k => hw1 l k
  obtain rfl : (fun k => b1 (ix1 k)) = c1 := funext hc1
  obtain rfl : (fun k j => W2 (ix2 k j)) = w2 := funext fun k => funext fun j => hw2 k j
  obtain rfl : (fun j => b2 (ix1 j)) = c2 := funext hc2
  obtain rfl : (fun j => g (ix1 j)) = γ := funext hγ
  obtain rfl : (fun j => b (ix1 j)) = β := funext hβ
  exact refLayer_apply h ei W1 W2 b1 b2 g b r j

section Outputs
variable (V0 : Valuation τ sig (Elt Ideal))

/-- The first layer's output at an index is layer 0 of the specification on the arguments. -/
theorem out0_apply (r : Fin 100000) (j : Fin 128) :
    out0 V0 (ix2 r j) = layerSpec (argX V0) (argE V0) (argW1 V0) (argB1 V0) (argW2 V0) (argB2 V0) (argG V0) (argB V0) 0 r j := by
  unfold out0 layerSpec zSpec
  exact refLayer_apply_of_reads _ _ _ _ _ _ _ _ _ _ _ _ _ _ (fun l k => mat0_apply _ l k) (fun k => row0_apply _ k)
    (fun k j => mat0_apply _ k j) (fun j => row0_apply _ j) (fun j => row0_apply _ j) (fun j => row0_apply _ j) r j

/-- The second layer's output at an index is layer 1 of the specification on the first layer's output. -/
theorem out1_apply (r : Fin 100000) (j : Fin 128) :
    out1 V0 (ix2 r j) = layerSpec (out0 V0) (argE V0) (argW1 V0) (argB1 V0) (argW2 V0) (argB2 V0) (argG V0) (argB V0) 1 r j := by
  unfold out1 layerSpec zSpec
  exact refLayer_apply_of_reads _ _ _ _ _ _ _ _ _ _ _ _ _ _ (fun l k => mat1_apply _ l k) (fun k => row1_apply _ k)
    (fun k j => mat1_apply _ k j) (fun j => row1_apply _ j) (fun j => row1_apply _ j) (fun j => row1_apply _ j) r j

/-- The third layer's output at an index is layer 2 of the specification on the second layer's output. -/
theorem out2_apply (r : Fin 100000) (j : Fin 128) :
    out2 V0 (ix2 r j) = layerSpec (out1 V0) (argE V0) (argW1 V0) (argB1 V0) (argW2 V0) (argB2 V0) (argG V0) (argB V0) 2 r j := by
  unfold out2 layerSpec zSpec
  exact refLayer_apply_of_reads _ _ _ _ _ _ _ _ _ _ _ _ _ _ (fun l k => mat2_apply _ l k) (fun k => row2_apply _ k)
    (fun k j => mat2_apply _ k j) (fun j => row2_apply _ j) (fun j => row2_apply _ j) (fun j => row2_apply _ j) r j

end Outputs

/-! ## Real inputs give real layers -/

section SpecReal
variable (h : Tab) (ei : Edges) (W1s : Mats) (b1s : Rows) (W2s : Mats) (b2s : Rows) (gs bs : Rows) (k : Fin 3)

/-- The activations of a layer on real inputs and real parameters are real, whatever the edge list. -/
theorem zSpec_real (hh : ∀ i, ∃ x : ℝ, h i = (x : EReal)) (hW1 : ∀ i, ∃ x : ℝ, W1s i = (x : EReal))
    (hb1 : ∀ i, ∃ x : ℝ, b1s i = (x : EReal)) (hW2 : ∀ i, ∃ x : ℝ, W2s i = (x : EReal))
    (hb2 : ∀ i, ∃ x : ℝ, b2s i = (x : EReal)) : TabReal (zSpec h ei W1s b1s W2s b2s k) := by
  unfold zSpec
  exact act_real _ _ _ _ _
    (add_real (fun r l => refAgg h ei (ix2 r l)) (fun r l => h (ix2 r l)) (fun r l => refAgg_real h ei hh (ix2 r l)) (fun r l => hh (ix2 r l)))
    (fun l k' => hW1 (ix3 k l k')) (fun k' => hb1 (ix2 k k')) (fun k' j => hW2 (ix3 k k' j)) (fun j => hb2 (ix2 k j))

/-- A layer on real inputs and real parameters is real. -/
theorem layerSpec_real (hh : ∀ i, ∃ x : ℝ, h i = (x : EReal)) (hW1 : ∀ i, ∃ x : ℝ, W1s i = (x : EReal))
    (hb1 : ∀ i, ∃ x : ℝ, b1s i = (x : EReal)) (hW2 : ∀ i, ∃ x : ℝ, W2s i = (x : EReal))
    (hb2 : ∀ i, ∃ x : ℝ, b2s i = (x : EReal)) (hg : ∀ i, ∃ x : ℝ, gs i = (x : EReal)) (hb : ∀ i, ∃ x : ℝ, bs i = (x : EReal)) :
    TabReal (layerSpec h ei W1s b1s W2s b2s gs bs k) := by
  unfold layerSpec
  exact normDev_real _ (zSpec_real h ei W1s b1s W2s b2s k hh hW1 hb1 hW2 hb2) _ _ (fun j => hg (ix2 k j)) (fun j => hb (ix2 k j))

/-- On real inputs the normalisation by the mean of the squares minus the squared mean is the layer. -/
theorem normSq_layer (hh : ∀ i, ∃ x : ℝ, h i = (x : EReal)) (hW1 : ∀ i, ∃ x : ℝ, W1s i = (x : EReal))
    (hb1 : ∀ i, ∃ x : ℝ, b1s i = (x : EReal)) (hW2 : ∀ i, ∃ x : ℝ, W2s i = (x : EReal))
    (hb2 : ∀ i, ∃ x : ℝ, b2s i = (x : EReal)) :
    normSq (zSpec h ei W1s b1s W2s b2s k) (fun j => gs (ix2 k j)) (fun j => bs (ix2 k j)) = layerSpec h ei W1s b1s W2s b2s gs bs k := by
  unfold layerSpec
  exact normSq_eq_normDev _ (zSpec_real h ei W1s b1s W2s b2s k hh hW1 hb1 hW2 hb2) _ _

end SpecReal

section OutputsReal
variable (V0 : Valuation τ sig (Elt Ideal))
  (h0 : ∀ i, ∃ x : ℝ, argX V0 i = (x : EReal)) (h2 : ∀ i, ∃ x : ℝ, argW1 V0 i = (x : EReal))
  (h3 : ∀ i, ∃ x : ℝ, argB1 V0 i = (x : EReal)) (h4 : ∀ i, ∃ x : ℝ, argW2 V0 i = (x : EReal))
  (h5 : ∀ i, ∃ x : ℝ, argB2 V0 i = (x : EReal)) (h6 : ∀ i, ∃ x : ℝ, argG V0 i = (x : EReal))
  (h7 : ∀ i, ∃ x : ℝ, argB V0 i = (x : EReal))
include h0 h2 h3 h4 h5 h6 h7

/-- With real arguments the first layer's output is a table of real numbers. -/
theorem out0_real : ∀ i : S100000x128.Idx, ∃ x : ℝ, out0 V0 i = (x : EReal) := by
  intro i
  obtain ⟨r, j, rfl⟩ : ∃ (r : Fin 100000) (j : Fin 128), i = ix2 r j := ⟨i 0, i 1, eq_ix2 i⟩
  rw [out0_apply]
  exact layerSpec_real _ _ _ _ _ _ _ _ 0 h0 h2 h3 h4 h5 h6 h7 r j

/-- So is the second layer's. -/
theorem out1_real : ∀ i : S100000x128.Idx, ∃ x : ℝ, out1 V0 i = (x : EReal) := by
  intro i
  obtain ⟨r, j, rfl⟩ : ∃ (r : Fin 100000) (j : Fin 128), i = ix2 r j := ⟨i 0, i 1, eq_ix2 i⟩
  rw [out1_apply]
  exact layerSpec_real _ _ _ _ _ _ _ _ 1 (out0_real V0 h0 h2 h3 h4 h5 h6 h7) h2 h3 h4 h5 h6 h7 r j

/-- And the third layer's. -/
theorem out2_real : ∀ i : S100000x128.Idx, ∃ x : ℝ, out2 V0 i = (x : EReal) := by
  intro i
  obtain ⟨r, j, rfl⟩ : ∃ (r : Fin 100000) (j : Fin 128), i = ix2 r j := ⟨i 0, i 1, eq_ix2 i⟩
  rw [out2_apply]
  exact layerSpec_real _ _ _ _ _ _ _ _ 2 (out1_real V0 h0 h2 h3 h4 h5 h6 h7) h2 h3 h4 h5 h6 h7 r j

end OutputsReal

end Spec

/-! ## The reference's run, its results named, its arguments unchanged -/

section Run

/-- Every weakly fair execution of the reference terminates with the result holding the three layers' outputs side by
    side and the eight arguments as launched. -/
theorem run_layers_full (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v184) = concatenate S100000x384 1 [⟨S100000x128, out0 (launchContents m c)⟩, ⟨S100000x128, out1 (launchContents m c)⟩, ⟨S100000x128, out2 (launchContents m c)⟩] concatenates_S100000x128_S100000x128_S100000x128_S100000x384_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by
    rw [res_main_v63_eq, res_main_v123_eq]
    exact congrArg (fun t => concatenate S100000x384 1 [⟨S100000x128, out0 (launchContents m c)⟩, ⟨S100000x128, out1 (launchContents m c)⟩, ⟨S100000x128, t⟩] concatenates_S100000x128_S100000x128_S100000x128_S100000x384_d1) (res_layer2_eq (launchContents m c))), (h c).2⟩) (run m ρ)

/-- The launch contents read at an argument are the launch memory at that argument's location. -/
theorem argX_launch (m : (ℓ : Loc nD τ sig) → Buf (Elt Ideal) ℓ) (c : Dev nD) : argX (launchContents m c) = m ((c.tc : Thread nD τ).loc main_arg0) := rfl
theorem argE_launch (m : (ℓ : Loc nD τ sig) → Buf (Elt Ideal) ℓ) (c : Dev nD) : argE (launchContents m c) = m ((c.tc : Thread nD τ).loc main_arg1) := rfl
theorem argW1_launch (m : (ℓ : Loc nD τ sig) → Buf (Elt Ideal) ℓ) (c : Dev nD) : argW1 (launchContents m c) = m ((c.tc : Thread nD τ).loc main_arg2) := rfl
theorem argB1_launch (m : (ℓ : Loc nD τ sig) → Buf (Elt Ideal) ℓ) (c : Dev nD) : argB1 (launchContents m c) = m ((c.tc : Thread nD τ).loc main_arg3) := rfl
theorem argW2_launch (m : (ℓ : Loc nD τ sig) → Buf (Elt Ideal) ℓ) (c : Dev nD) : argW2 (launchContents m c) = m ((c.tc : Thread nD τ).loc main_arg4) := rfl
theorem argB2_launch (m : (ℓ : Loc nD τ sig) → Buf (Elt Ideal) ℓ) (c : Dev nD) : argB2 (launchContents m c) = m ((c.tc : Thread nD τ).loc main_arg5) := rfl
theorem argG_launch (m : (ℓ : Loc nD τ sig) → Buf (Elt Ideal) ℓ) (c : Dev nD) : argG (launchContents m c) = m ((c.tc : Thread nD τ).loc main_arg6) := rfl
theorem argB_launch (m : (ℓ : Loc nD τ sig) → Buf (Elt Ideal) ℓ) (c : Dev nD) : argB (launchContents m c) = m ((c.tc : Thread nD τ).loc main_arg7) := rfl

end Run

end Cert.RefLayers

end
-- ==== Proof.ConcatEq.lean ====
/-
  The two programs end alike: each joins the three layers' 100000 × 128 outputs side by side, along the columns,
  into one 100000 × 384 table. Each program names the shapes and the side condition of the join for itself; the
  names denote the same shapes, so equal parts give equal joins. And two tables of two coordinates are equal as soon
  as they agree at every pair (row, column).
-/
import proofs.«147728_j53334903882348_1_alg».proof.KernelIdeal
import proofs.«147728_j53334903882348_1_alg».proof.ReferenceIdeal
import Idealize.ShloMosaic.Lib.ValueIdx

noncomputable section

namespace Cert.ConcatEq

open Idealize.ShloMosaic Idealize.ShloMosaic.ValueIdx

/-- The join of three equal parts is the same table in the two programs. -/
theorem concat_eq [Cert.KernelIdeal.Facts] [Cert.ReferenceIdeal.Facts]
    (a b c : FVec Ideal Cert.KernelIdeal.S100000x128 .f32) (a' b' c' : FVec Ideal Cert.ReferenceIdeal.S100000x128 .f32)
    (ha : a = a') (hb : b = b') (hc : c = c') :
    concatenate Cert.KernelIdeal.S100000x384 1
        [⟨Cert.KernelIdeal.S100000x128, a⟩, ⟨Cert.KernelIdeal.S100000x128, b⟩, ⟨Cert.KernelIdeal.S100000x128, c⟩]
        Cert.KernelIdeal.Facts₀.concatenates_S100000x128_S100000x128_S100000x128_S100000x384_d1
      = concatenate Cert.ReferenceIdeal.S100000x384 1
        [⟨Cert.ReferenceIdeal.S100000x128, a'⟩, ⟨Cert.ReferenceIdeal.S100000x128, b'⟩, ⟨Cert.ReferenceIdeal.S100000x128, c'⟩]
        Cert.ReferenceIdeal.Facts₀.concatenates_S100000x128_S100000x128_S100000x128_S100000x384_d1 := by
  subst ha hb hc
  rfl

/-- Two tables of two coordinates that agree at every pair (row, column) are equal. -/
theorem ext_ix2 {n0 n1 : Nat} {α : Type} (f g : (⟨2, ![n0, n1]⟩ : Shape).Idx → α)
    (h : ∀ (r : Fin n0) (j : Fin n1), f (ix2 r j) = g (ix2 r j)) : f = g :=
  funext fun i => (congrArg f (eq_ix2 i)).trans ((h (i 0) (i 1)).trans (congrArg g (eq_ix2 i)).symm)

/-- The same for the 100000 × 128 tables of extended reals. -/
theorem table_ext (f g : (⟨2, ![100000, 128]⟩ : Shape).Idx → EReal)
    (h : ∀ (r : Fin 100000) (j : Fin 128), f (ix2 r j) = g (ix2 r j)) : f = g :=
  ext_ix2 f g h

end Cert.ConcatEq

end
-- ==== Proof.FiniteInputs.lean ====
/-
  From the precondition to real numbers.

  The precondition is the conjunction, over the seven float arguments, of "every entry x has |x| < +∞",
  each conjunct an `and`-reduction over all axes of the entrywise comparison of max x (-x) with the float
  word of +∞. If the conjunction answers one then every conjunct does, an `and`-reduction that answers one
  met a one at every entry, and an extended real x with max x (-x) < +∞ is neither +∞ nor -∞ (at -∞ the
  negation is +∞), so it is a real number.
-/
import proofs.«147728_j53334903882348_1_alg».proof.Pre_finite_inputs
import proofs.«147728_j53334903882348_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- The float word with every exponent bit set, no fraction bit and sign zero denotes +∞. -/
theorem ofBits_inf : Ideal.ofBits .f32 0x7F800000#32 = (⊤ : EReal) := by
  simp [Ideal.ofBits, Ideal.ieee]

/-- An extended real whose absolute value `max x (-x)` is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` answering one says that `x` is a real number. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- `all (|x| < +∞)` over an array of any shape answering one says that every entry is a real number. -/
theorem real_of_all {T : Shape} {axes : List (Fin T.rank)}
    (hb : S_.BroadcastsInDim T (![] : Fin 0 → Fin T.rank)) (hr : T.ReducesTo axes S_) (hu : 0 < S_.numel)
    (x : FVec Ideal T .f32) (j : S_.Idx)
    (h : Host.reduce IntOp.andi
          (cmpf .olt (Host.absf x) (broadcastInDim T ![] hb (constant (F := Ideal) S_ .f32 0x7F800000#32)))
          (constantI S_ 1 1#1) hr hu j = 1#1) :
    ∀ i, ∃ r : ℝ, x i = (r : EReal) := by
  intro i
  -- the reduction met a one at entry i, and that entry of the comparison is the comparison of the entries
  have e := Host.reduce_andi_all _ _ hr hu j h i
  exact real_of_cmp (x i) e

/-- If the precondition answers one on the eight arguments, every float argument is a table of real numbers
    (the second argument, the integer edge list, is not constrained). -/
theorem inputs_real [Cert.Pre_finite_inputs.Facts]
    (a0 : FVec Ideal S100000x128 .f32) (a1 : IVec S2x600000 32) (a2 : FVec Ideal S3x128x128 .f32)
    (a3 : FVec Ideal S3x128 .f32) (a4 : FVec Ideal S3x128x128 .f32)
    (a5 : FVec Ideal S3x128 .f32) (a6 : FVec Ideal S3x128 .f32) (a7 : FVec Ideal S3x128 .f32)
    (h : Cert.Pre_finite_inputs.fn (F := Ideal) a0 a1 a2 a3 a4 a5 a6 a7 = (fun _ => 1#1)) :
    (∀ i, ∃ x : ℝ, a0 i = (x : EReal)) ∧ (∀ i, ∃ x : ℝ, a2 i = (x : EReal)) ∧ (∀ i, ∃ x : ℝ, a3 i = (x : EReal))
    ∧ (∀ i, ∃ x : ℝ, a4 i = (x : EReal)) ∧ (∀ i, ∃ x : ℝ, a5 i = (x : EReal)) ∧ (∀ i, ∃ x : ℝ, a6 i = (x : EReal))
    ∧ (∀ i, ∃ x : ℝ, a7 i = (x : EReal)) := by
  -- the result has one index; read the conjunction there and split it, last conjunct first
  have h0 := congrFun h ix0
  dsimp only [Cert.Pre_finite_inputs.fn, Cert.Pre_finite_inputs.fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ a0 ix0 e0, real_of_all _ _ _ a2 ix0 e2, real_of_all _ _ _ a3 ix0 e3,
    real_of_all _ _ _ a4 ix0 e4, real_of_all _ _ _ a5 ix0 e5, real_of_all _ _ _ a6 ix0 e6,
    real_of_all _ _ _ a7 ix0 e7⟩

end Cert.FiniteInputs

end
-- ==== Proof.Algebraic.lean ====
/-
  The algebraic claim. At the ideal instance both programs compute, layer by layer, the same function of the node
  features: the neighbour sums by the same gather and scatter-add, the two-layer perceptron with rectifiers row
  by row (the kernel block by block, the reference on the whole table), and the column normalisation — the kernel
  with the variance as the mean of the squares minus the squared mean, the reference as the mean of the squared
  deviations. Under the precondition every argument table is a table of real numbers, hence so is every
  intermediate table (the gather reads the table at clamped indices, the scatter-add is a finite sum, the
  normaliser's radicand is positive), and on tables of real numbers the two variances agree. So each layer's
  output array is the same in both programs, and the results, the three outputs side by side, are equal.
-/
import proofs.«147728_j53334903882348_1_alg».proof.Defs
import proofs.«147728_j53334903882348_1_alg».proof.Proof.Gen.KernelIdeal
import proofs.«147728_j53334903882348_1_alg».proof.Proof.Gen.ReferenceIdeal
import proofs.«147728_j53334903882348_1_alg».proof.Proof.Gen.Pre_finite_inputs
import proofs.«147728_j53334903882348_1_alg».proof.Proof.KI.Run
import proofs.«147728_j53334903882348_1_alg».proof.Proof.KI.Bounds
import proofs.«147728_j53334903882348_1_alg».proof.Proof.KI.HostReads
import proofs.«147728_j53334903882348_1_alg».proof.Proof.KI.LayerOut0
import proofs.«147728_j53334903882348_1_alg».proof.Proof.KI.LayerOut1
import proofs.«147728_j53334903882348_1_alg».proof.Proof.KI.LayerOut2
import proofs.«147728_j53334903882348_1_alg».proof.Proof.RefSpec
import proofs.«147728_j53334903882348_1_alg».proof.Proof.ConcatEq
import proofs.«147728_j53334903882348_1_alg».proof.Proof.FiniteInputs

set_option maxRecDepth 16384

noncomputable section

namespace Cert.Proof.Algebraic

open Idealize.ShloMosaic Idealize.ShloMosaic.TcCoe Idealize.ShloMosaic.ValueIdx Idealize.SL.Sem
open Cert.KernelIdeal.Hand
open Idealize.ShloMosaic.StableHlo (launchContents)

variable (m : (ℓ : Loc Cert.KernelIdeal.nD Cert.KernelIdeal.τ Cert.KernelIdeal.sig) → Buf (Elt Ideal) ℓ) (ρ : Dev Cert.KernelIdeal.nD → PrngReg)

/-! ## The argument tables on core `c` -/
abbrev aX (c : Dev Cert.KernelIdeal.nD) : FVec Ideal Cert.KernelIdeal.S100000x128 .f32 := m ((c.tc : Thread Cert.KernelIdeal.nD Cert.KernelIdeal.τ).loc Cert.KernelIdeal.main_arg0)
abbrev aE (c : Dev Cert.KernelIdeal.nD) : IVec Cert.KernelIdeal.S2x600000 32 := m ((c.tc : Thread Cert.KernelIdeal.nD Cert.KernelIdeal.τ).loc Cert.KernelIdeal.main_arg1)
abbrev aW1 (c : Dev Cert.KernelIdeal.nD) : FVec Ideal Cert.KernelIdeal.S3x128x128 .f32 := m ((c.tc : Thread Cert.KernelIdeal.nD Cert.KernelIdeal.τ).loc Cert.KernelIdeal.main_arg2)
abbrev aB1 (c : Dev Cert.KernelIdeal.nD) : FVec Ideal Cert.KernelIdeal.S3x128 .f32 := m ((c.tc : Thread Cert.KernelIdeal.nD Cert.KernelIdeal.τ).loc Cert.KernelIdeal.main_arg3)
abbrev aW2 (c : Dev Cert.KernelIdeal.nD) : FVec Ideal Cert.KernelIdeal.S3x128x128 .f32 := m ((c.tc : Thread Cert.KernelIdeal.nD Cert.KernelIdeal.τ).loc Cert.KernelIdeal.main_arg4)
abbrev aB2 (c : Dev Cert.KernelIdeal.nD) : FVec Ideal Cert.KernelIdeal.S3x128 .f32 := m ((c.tc : Thread Cert.KernelIdeal.nD Cert.KernelIdeal.τ).loc Cert.KernelIdeal.main_arg5)
abbrev aG (c : Dev Cert.KernelIdeal.nD) : FVec Ideal Cert.KernelIdeal.S3x128 .f32 := m ((c.tc : Thread Cert.KernelIdeal.nD Cert.KernelIdeal.τ).loc Cert.KernelIdeal.main_arg6)
abbrev aBt (c : Dev Cert.KernelIdeal.nD) : FVec Ideal Cert.KernelIdeal.S3x128 .f32 := m ((c.tc : Thread Cert.KernelIdeal.nD Cert.KernelIdeal.τ).loc Cert.KernelIdeal.main_arg7)

/-! ## Each layer of the kernel's program is the layer function -/

/-- Layer 0 of the kernel's program: its output array, index by index, is the layer function of its input
    table — the block-wise activations are the row-wise ones, the accumulated totals the column sums, and on
    real tables the variance from the totals is the variance of the deviations. -/
theorem klayer0 (c : Dev Cert.KernelIdeal.nD) (hH : ∀ i, ∃ x : ℝ, (aX m c : FVec Ideal Cert.KernelIdeal.S100000x128 .f32) i = (x : EReal)) (hW1 : ∀ i, ∃ x : ℝ, aW1 m c i = (x : EReal)) (hB1 : ∀ i, ∃ x : ℝ, aB1 m c i = (x : EReal)) (hW2 : ∀ i, ∃ x : ℝ, aW2 m c i = (x : EReal)) (hB2 : ∀ i, ∃ x : ℝ, aB2 m c i = (x : EReal))
    (r : Fin 100000) (j : Fin 128) :
    (W4 m ρ c (Proc.devRef .tc Cert.KernelIdeal.main_v37) : FVec Ideal Cert.KernelIdeal.S100000x128 .f32) (ix2 r j)
      = Cert.RefLayers.layerSpec (aX m c) (aE m c) (aW1 m c) (aB1 m c) (aW2 m c) (aB2 m c) (aG m c) (aBt m c) 0 r j := by
  rw [kout0 m ρ c r j, kz0 m ρ c, Cert.KernelIdeal.HostReads.aggK_eq_refAgg]
  exact congrFun (congrFun (Cert.RefLayers.normSq_layer _ _ _ _ _ _ _ _ 0 hH hW1 hB1 hW2 hB2) r) j

/-- Layer 1 of the kernel's program: its output array, index by index, is the layer function of its input
    table — the block-wise activations are the row-wise ones, the accumulated totals the column sums, and on
    real tables the variance from the totals is the variance of the deviations. -/
theorem klayer1 (c : Dev Cert.KernelIdeal.nD) (hH : ∀ i, ∃ x : ℝ, (W4 m ρ c (Proc.devRef .tc Cert.KernelIdeal.main_v37) : FVec Ideal Cert.KernelIdeal.S100000x128 .f32) i = (x : EReal)) (hW1 : ∀ i, ∃ x : ℝ, aW1 m c i = (x : EReal)) (hB1 : ∀ i, ∃ x : ℝ, aB1 m c i = (x : EReal)) (hW2 : ∀ i, ∃ x : ℝ, aW2 m c i = (x : EReal)) (hB2 : ∀ i, ∃ x : ℝ, aB2 m c i = (x : EReal))
    (r : Fin 100000) (j : Fin 128) :
    (W8 m ρ c (Proc.devRef .tc Cert.KernelIdeal.main_v71) : FVec Ideal Cert.KernelIdeal.S100000x128 .f32) (ix2 r j)
      = Cert.RefLayers.layerSpec (W4 m ρ c (Proc.devRef .tc Cert.KernelIdeal.main_v37)) (aE m c) (aW1 m c) (aB1 m c) (aW2 m c) (aB2 m c) (aG m c) (aBt m c) 1 r j := by
  rw [kout1 m ρ c r j, kz1 m ρ c, Cert.KernelIdeal.HostReads.aggK2_eq_refAgg]
  exact congrFun (congrFun (Cert.RefLayers.normSq_layer _ _ _ _ _ _ _ _ 1 hH hW1 hB1 hW2 hB2) r) j

/-- Layer 2 of the kernel's program: its output array, index by index, is the layer function of its input
    table — the block-wise activations are the row-wise ones, the accumulated totals the column sums, and on
    real tables the variance from the totals is the variance of the deviations. -/
theorem klayer2 (c : Dev Cert.KernelIdeal.nD) (hH : ∀ i, ∃ x : ℝ, (W8 m ρ c (Proc.devRef .tc Cert.KernelIdeal.main_v71) : FVec Ideal Cert.KernelIdeal.S100000x128 .f32) i = (x : EReal)) (hW1 : ∀ i, ∃ x : ℝ, aW1 m c i = (x : EReal)) (hB1 : ∀ i, ∃ x : ℝ, aB1 m c i = (x : EReal)) (hW2 : ∀ i, ∃ x : ℝ, aW2 m c i = (x : EReal)) (hB2 : ∀ i, ∃ x : ℝ, aB2 m c i = (x : EReal))
    (r : Fin 100000) (j : Fin 128) :
    (W12 m ρ c (Proc.devRef .tc Cert.KernelIdeal.main_v105) : FVec Ideal Cert.KernelIdeal.S100000x128 .f32) (ix2 r j)
      = Cert.RefLayers.layerSpec (W8 m ρ c (Proc.devRef .tc Cert.KernelIdeal.main_v71)) (aE m c) (aW1 m c) (aB1 m c) (aW2 m c) (aB2 m c) (aG m c) (aBt m c) 2 r j := by
  rw [kout2 m ρ c r j, kz2 m ρ c, Cert.KernelIdeal.HostReads.aggK2_eq_refAgg]
  exact congrFun (congrFun (Cert.RefLayers.normSq_layer _ _ _ _ _ _ _ _ 2 hH hW1 hB1 hW2 hB2) r) j

/-- The layer function respects equality of its arguments. -/
theorem layerSpec_congr {h h' : Cert.RefLayers.Tab} {e e' : Cert.RefLayers.Edges} {w1 w1' w2 w2' : Cert.RefLayers.Mats}
    {b1 b1' b2 b2' g g' b b' : Cert.RefLayers.Rows} (k : Fin 3)
    (hh : h = h') (he : e = e') (hw1 : w1 = w1') (hb1 : b1 = b1') (hw2 : w2 = w2') (hb2 : b2 = b2') (hg : g = g') (hb : b = b') :
    Cert.RefLayers.layerSpec h e w1 b1 w2 b2 g b k = Cert.RefLayers.layerSpec h' e' w1' b1' w2' b2' g' b' k := by
  subst hh he hw1 hb1 hw2 hb2 hg hb; rfl

/-! ## The two results agree -/

/-- From memories agreeing on the arguments, under the precondition, the kernel program's result array is the
    reference's: the three layers' outputs agree one after the other, and both results put them side by side. -/
theorem results_eq [Cert.KernelIdeal.Facts] [Cert.ReferenceIdeal.Facts] [Cert.Pre_finite_inputs.Facts]
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (aX m c) (aE m c) (aW1 m c) (aB1 m c) (aW2 m c) (aB2 m c) (aG m c) (aBt m c) = (fun _ => 1#1))
    (hx : Cert.RefLayers.argX (launchContents m' c) = aX m c) (he : Cert.RefLayers.argE (launchContents m' c) = aE m c)
    (hw1 : Cert.RefLayers.argW1 (launchContents m' c) = aW1 m c) (hb1 : Cert.RefLayers.argB1 (launchContents m' c) = aB1 m c)
    (hw2 : Cert.RefLayers.argW2 (launchContents m' c) = aW2 m c) (hb2 : Cert.RefLayers.argB2 (launchContents m' c) = aB2 m c)
    (hg : Cert.RefLayers.argG (launchContents m' c) = aG m c) (hb : Cert.RefLayers.argB (launchContents m' c) = aBt m c) :
    concatenate Cert.ReferenceIdeal.S100000x384 1
        [⟨Cert.ReferenceIdeal.S100000x128, Cert.RefLayers.out0 (launchContents m' c)⟩, ⟨Cert.ReferenceIdeal.S100000x128, Cert.RefLayers.out1 (launchContents m' c)⟩,
          ⟨Cert.ReferenceIdeal.S100000x128, Cert.RefLayers.out2 (launchContents m' c)⟩]
        Cert.ReferenceIdeal.Facts₀.concatenates_S100000x128_S100000x128_S100000x128_S100000x384_d1
      = W13 m ρ c (Proc.devRef .tc Cert.KernelIdeal.main_v106) := by
  obtain ⟨rX, rW1, rB1, rW2, rB2, rG, rB⟩ := Cert.FiniteInputs.inputs_real _ _ _ _ _ _ _ _ hpre
  -- the reference's argument tables are real too: they are the kernel's
  have rX' : ∀ i, ∃ x : ℝ, Cert.RefLayers.argX (launchContents m' c) i = (x : EReal) := fun i => (congrFun hx i) ▸ rX i
  have rW1' : ∀ i, ∃ x : ℝ, Cert.RefLayers.argW1 (launchContents m' c) i = (x : EReal) := fun i => (congrFun hw1 i) ▸ rW1 i
  have rB1' : ∀ i, ∃ x : ℝ, Cert.RefLayers.argB1 (launchContents m' c) i = (x : EReal) := fun i => (congrFun hb1 i) ▸ rB1 i
  have rW2' : ∀ i, ∃ x : ℝ, Cert.RefLayers.argW2 (launchContents m' c) i = (x : EReal) := fun i => (congrFun hw2 i) ▸ rW2 i
  have rB2' : ∀ i, ∃ x : ℝ, Cert.RefLayers.argB2 (launchContents m' c) i = (x : EReal) := fun i => (congrFun hb2 i) ▸ rB2 i
  have rG' : ∀ i, ∃ x : ℝ, Cert.RefLayers.argG (launchContents m' c) i = (x : EReal) := fun i => (congrFun hg i) ▸ rG i
  have rB' : ∀ i, ∃ x : ℝ, Cert.RefLayers.argB (launchContents m' c) i = (x : EReal) := fun i => (congrFun hb i) ▸ rB i
  -- layer 0
  have e0 : (W4 m ρ c (Proc.devRef .tc Cert.KernelIdeal.main_v37) : FVec Ideal Cert.KernelIdeal.S100000x128 .f32) = Cert.RefLayers.out0 (launchContents m' c) :=
    Cert.ConcatEq.table_ext _ _ fun r j => by
      rw [klayer0 m ρ c rX rW1 rB1 rW2 rB2 r j, Cert.RefLayers.out0_apply]
      exact congrFun (congrFun (layerSpec_congr 0 hx.symm he.symm hw1.symm hb1.symm hw2.symm hb2.symm hg.symm hb.symm) r) j
  have r0 : ∀ i, ∃ x : ℝ, (W4 m ρ c (Proc.devRef .tc Cert.KernelIdeal.main_v37) : FVec Ideal Cert.KernelIdeal.S100000x128 .f32) i = (x : EReal) :=
    fun i => (congrFun e0 i).symm ▸ Cert.RefLayers.out0_real _ rX' rW1' rB1' rW2' rB2' rG' rB' i
  -- layer 1
  have e1 : (W8 m ρ c (Proc.devRef .tc Cert.KernelIdeal.main_v71) : FVec Ideal Cert.KernelIdeal.S100000x128 .f32) = Cert.RefLayers.out1 (launchContents m' c) :=
    Cert.ConcatEq.table_ext _ _ fun r j => by
      rw [klayer1 m ρ c r0 rW1 rB1 rW2 rB2 r j, Cert.RefLayers.out1_apply]
      exact congrFun (congrFun (layerSpec_congr 1 e0 he.symm hw1.symm hb1.symm hw2.symm hb2.symm hg.symm hb.symm) r) j
  have r1 : ∀ i, ∃ x : ℝ, (W8 m ρ c (Proc.devRef .tc Cert.KernelIdeal.main_v71) : FVec Ideal Cert.KernelIdeal.S100000x128 .f32) i = (x : EReal) :=
    fun i => (congrFun e1 i).symm ▸ Cert.RefLayers.out1_real _ rX' rW1' rB1' rW2' rB2' rG' rB' i
  -- layer 2
  have e2 : (W12 m ρ c (Proc.devRef .tc Cert.KernelIdeal.main_v105) : FVec Ideal Cert.KernelIdeal.S100000x128 .f32) = Cert.RefLayers.out2 (launchContents m' c) :=
    Cert.ConcatEq.table_ext _ _ fun r j => by
      rw [klayer2 m ρ c r1 rW1 rB1 rW2 rB2 r j, Cert.RefLayers.out2_apply]
      exact congrFun (congrFun (layerSpec_congr 2 e1 he.symm hw1.symm hb1.symm hw2.symm hb2.symm hg.symm hb.symm) r) j
  -- the results: the three outputs side by side
  have hK : W13 m ρ c (Proc.devRef .tc Cert.KernelIdeal.main_v106)
      = concatenate Cert.KernelIdeal.S100000x384 1 [⟨Cert.KernelIdeal.S100000x128, W12 m ρ c (Proc.devRef .tc Cert.KernelIdeal.main_v37)⟩, ⟨Cert.KernelIdeal.S100000x128, W12 m ρ c (Proc.devRef .tc Cert.KernelIdeal.main_v71)⟩, ⟨Cert.KernelIdeal.S100000x128, W12 m ρ c (Proc.devRef .tc Cert.KernelIdeal.main_v105)⟩] Cert.KernelIdeal.Facts₀.concatenates_S100000x128_S100000x128_S100000x128_S100000x384_d1 :=
    Cert.KernelIdeal.HostReads.h6_out (W12 m ρ c)
  rw [hK]
  exact (Cert.ConcatEq.concat_eq _ _ _ _ _ _ ((W12_main_v37_from4 m ρ c).trans e0) ((W12_main_v71_from8 m ρ c).trans e1) e2).symm

end Cert.Proof.Algebraic

end
-- ==== Proof.lean ====
/-
  The five claims of the certificate.

  The three frame claims: each program terminates without a fault and leaves its eight argument arrays as launched.
  For the kernel's program (read at the word level and at the ideal instance alike) this is its run as thirteen
  segments — host stretches and grid regions — with the contents of every buffer named at each boundary; for the
  reference, a straight line of host operations, it is its run with the result forgotten. The idealisation rewrote
  no operation, so the preservation claim is trivial. The algebraic claim: from memories that agree on the
  arguments both idealised programs end with the same result array, three layers of the same function of the node
  features — the two programs differ only in how they cut the rows into blocks, in the order in which they add the
  column sums, and in the form of the variance, and the two forms agree on tables of real numbers.
-/
import proofs.«147728_j53334903882348_1_alg».proof.Defs
import proofs.«147728_j53334903882348_1_alg».proof.Proof.Gen.Kernel
import proofs.«147728_j53334903882348_1_alg».proof.Proof.Gen.KernelIdeal
import proofs.«147728_j53334903882348_1_alg».proof.Proof.Gen.ReferenceIdeal
import proofs.«147728_j53334903882348_1_alg».proof.Proof.Gen.Pre_finite_inputs
import proofs.«147728_j53334903882348_1_alg».proof.Proof.KB.Run
import proofs.«147728_j53334903882348_1_alg».proof.Proof.KI.Run
import proofs.«147728_j53334903882348_1_alg».proof.Proof.RefFrame
import proofs.«147728_j53334903882348_1_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.RefFrame.frame_ri,
  trivial,
  fun m ρ m' ρ' hpre hagree =>
    ⟨fun c => Cert.KernelIdeal.Hand.W13 m ρ c (Proc.devRef .tc Cert.KernelIdeal.main_v106),
      Cert.KernelIdeal.Hand.run_all (F := Ideal) m ρ,
      (θ_run Cert.ReferenceIdeal.defs _ _).mono
        (fun _ h c => ⟨(h c).1.trans (Cert.Proof.Algebraic.results_eq m ρ m' c (hpre c)
            (hagree c).1 (hagree c).2.1 (hagree c).2.2.1 (hagree c).2.2.2.1 (hagree c).2.2.2.2.1 (hagree c).2.2.2.2.2.1
            (hagree c).2.2.2.2.2.2.1 (hagree c).2.2.2.2.2.2.2), (h c).2⟩)
        (Cert.RefLayers.run_layers_full m' ρ')⟩⟩

end Cert.Proof

end
